-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S27x32 : Shape := ⟨2, ![27, 32]⟩
abbrev S1x32 : Shape := ⟨2, ![1, 32]⟩
abbrev S288x32 : Shape := ⟨2, ![288, 32]⟩
abbrev S32768x128 : Shape := ⟨2, ![32768, 128]⟩
abbrev S1x128 : Shape := ⟨2, ![1, 128]⟩
abbrev S128x3x32x32 : Shape := ⟨4, ![128, 3, 32, 32]⟩
abbrev S_ : Shape := ⟨0, ![]⟩

class Facts : Prop where
  bcast_S_S27x32 : S_.BroadcastsInDim S27x32 (![] : Fin 0 → Fin S27x32.rank)
  reducesTo_S27x32_S_d0_1 : S27x32.ReducesTo [0, 1] S_
  h_S_ : 0 < S_.numel
  bcast_S_S1x32 : S_.BroadcastsInDim S1x32 (![] : Fin 0 → Fin S1x32.rank)
  reducesTo_S1x32_S_d0_1 : S1x32.ReducesTo [0, 1] S_
  bcast_S_S288x32 : S_.BroadcastsInDim S288x32 (![] : Fin 0 → Fin S288x32.rank)
  reducesTo_S288x32_S_d0_1 : S288x32.ReducesTo [0, 1] S_
  bcast_S_S32768x128 : S_.BroadcastsInDim S32768x128 (![] : Fin 0 → Fin S32768x128.rank)
  reducesTo_S32768x128_S_d0_1 : S32768x128.ReducesTo [0, 1] S_
  bcast_S_S1x128 : S_.BroadcastsInDim S1x128 (![] : Fin 0 → Fin S1x128.rank)
  reducesTo_S1x128_S_d0_1 : S1x128.ReducesTo [0, 1] S_
  bcast_S_S128x3x32x32 : S_.BroadcastsInDim S128x3x32x32 (![] : Fin 0 → Fin S128x3x32x32.rank)
  reducesTo_S128x3x32x32_S_d0_1_2_3 : S128x3x32x32.ReducesTo [0, 1, 2, 3] S_

variable [Facts]

def fn_part1 {F : FTy → Type} [FloatOps F] (main_arg4 : FVec F S32768x128 .f32) (main_arg5 : FVec F S1x128 .f32) (main_arg6 : FVec F S128x3x32x32 .f32) (main_v13 : IVec S_ 1) (main_v16 : IVec S1x32 1) : IVec S_ 1 :=
  let main_c_5 : IVec S_ 1 := constantI S_ 1 1#1
  let main_v17 : IVec S_ 1 := (fun x v => Host.reduce IntOp.andi x v reducesTo_S1x32_S_d0_1 h_S_) main_v16 main_c_5
  let main_v18 : IVec S_ 1 := andi main_v13 main_v17
  let main_v19 : FVec F S32768x128 .f32 := Host.absf main_arg4
  let main_cst_6 : FVec F S_ .f32 := constant S_ .f32 0x7F800000#32
  let main_v20 : FVec F S32768x128 .f32 := broadcastInDim S32768x128 ![] bcast_S_S32768x128 main_cst_6
  let main_v21 : IVec S32768x128 1 := cmpf .olt main_v19 main_v20
  let main_c_7 : IVec S_ 1 := constantI S_ 1 1#1
  let main_v22 : IVec S_ 1 := (fun x v => Host.reduce IntOp.andi x v reducesTo_S32768x128_S_d0_1 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S128x3x32x32 .f32 := Host.absf main_arg6
  let main_cst_10 : FVec F S_ .f32 := constant S_ .f32 0x7F800000#32
  let main_v30 : FVec F S128x3x32x32 .f32 := broadcastInDim S128x3x32x32 ![] bcast_S_S128x3x32x32 main_cst_10
  let main_v31 : IVec S128x3x32x32 1 := cmpf .olt main_v29 main_v30
  let main_c_11 : IVec S_ 1 := constantI S_ 1 1#1
  let main_v32 : IVec S_ 1 := (fun x v => Host.reduce IntOp.andi x v reducesTo_S128x3x32x32_S_d0_1_2_3 h_S_) main_v31 main_c_11
  let main_v33 : IVec S_ 1 := andi main_v28 main_v32
  main_v33

def fn {F : FTy → Type} [FloatOps F] (main_arg0 : FVec F S27x32 .f32) (main_arg1 : FVec F S1x32 .f32) (main_arg2 : FVec F S288x32 .f32) (main_arg3 : FVec F S1x32 .f32) (main_arg4 : FVec F S32768x128 .f32) (main_arg5 : FVec F S1x128 .f32) (main_arg6 : FVec F S128x3x32x32 .f32) : IVec S_ 1 :=
  let main_v0 : FVec F S27x32 .f32 := Host.absf main_arg0
  let main_cst : FVec F S_ .f32 := constant S_ .f32 0x7F800000#32
  let main_v1 : FVec F S27x32 .f32 := broadcastInDim S27x32 ![] bcast_S_S27x32 main_cst
  let main_v2 : IVec S27x32 1 := cmpf .olt main_v0 main_v1
  let main_c : IVec S_ 1 := constantI S_ 1 1#1
  let main_v3 : IVec S_ 1 := (fun x v => Host.reduce IntOp.andi x v reducesTo_S27x32_S_d0_1 h_S_) main_v2 main_c
  let main_v4 : FVec F S1x32 .f32 := Host.absf main_arg1
  let main_cst_0 : FVec F S_ .f32 := constant S_ .f32 0x7F800000#32
  let main_v5 : FVec F S1x32 .f32 := broadcastInDim S1x32 ![] bcast_S_S1x32 main_cst_0
  let main_v6 : IVec S1x32 1 := cmpf .olt main_v4 main_v5
  let main_c_1 : IVec S_ 1 := constantI S_ 1 1#1
  let main_v7 : IVec S_ 1 := (fun x v => Host.reduce IntOp.andi x v reducesTo_S1x32_S_d0_1 h_S_) main_v6 main_c_1
  let main_v8 : IVec S_ 1 := andi main_v3 main_v7
  let main_v9 : FVec F S288x32 .f32 := Host.absf main_arg2
  let main_cst_2 : FVec F S_ .f32 := constant S_ .f32 0x7F800000#32
  let main_v10 : FVec F S288x32 .f32 := broadcastInDim S288x32 ![] bcast_S_S288x32 main_cst_2
  let main_v11 : IVec S288x32 1 := cmpf .olt main_v9 main_v10
  let main_c_3 : IVec S_ 1 := constantI S_ 1 1#1
  let main_v12 : IVec S_ 1 := (fun x v => Host.reduce IntOp.andi x v reducesTo_S288x32_S_d0_1 h_S_) main_v11 main_c_3
  let main_v13 : IVec S_ 1 := andi main_v8 main_v12
  let main_v14 : FVec F S1x32 .f32 := Host.absf main_arg3
  let main_cst_4 : FVec F S_ .f32 := constant S_ .f32 0x7F800000#32
  let main_v15 : FVec F S1x32 .f32 := broadcastInDim S1x32 ![] bcast_S_S1x32 main_cst_4
  let main_v16 : IVec S1x32 1 := cmpf .olt main_v14 main_v15
  fn_part1 (F := F) main_arg4 main_arg5 main_arg6 main_v13 main_v16
-- ==== Kernel.lean ====
abbrev S27x32 : Shape := ⟨2, ![27, 32]⟩
abbrev S1x32 : Shape := ⟨2, ![1, 32]⟩
abbrev S288x32 : Shape := ⟨2, ![288, 32]⟩
abbrev S32768x128 : Shape := ⟨2, ![32768, 128]⟩
abbrev S1x128 : Shape := ⟨2, ![1, 128]⟩
abbrev S128x3x32x32 : Shape := ⟨4, ![128, 3, 32, 32]⟩
abbrev S128x32x32x3 : Shape := ⟨4, ![128, 32, 32, 3]⟩
abbrev S128x1024x32 : Shape := ⟨3, ![128, 1024, 32]⟩
abbrev S16x32x32x3 : Shape := ⟨4, ![16, 32, 32, 3]⟩
abbrev S16x1024x32 : Shape := ⟨3, ![16, 1024, 32]⟩
abbrev S16x34x34x3 : Shape := ⟨4, ![16, 34, 34, 3]⟩
abbrev S16x34x34x32 : Shape := ⟨4, ![16, 34, 34, 32]⟩
abbrev S16x32x34x3 : Shape := ⟨4, ![16, 32, 34, 3]⟩
abbrev S16384x3 : Shape := ⟨2, ![16384, 3]⟩
abbrev S16384x27 : Shape := ⟨2, ![16384, 27]⟩
abbrev S16384x32 : Shape := ⟨2, ![16384, 32]⟩
abbrev S16x32x32x32 : Shape := ⟨4, ![16, 32, 32, 32]⟩
abbrev S16x32x34x32 : Shape := ⟨4, ![16, 32, 34, 32]⟩
abbrev S16384x288 : Shape := ⟨2, ![16384, 288]⟩
abbrev S128x32768 : Shape := ⟨2, ![128, 32768]⟩
abbrev S128x128 : Shape := ⟨2, ![128, 128]⟩
abbrev S64x4096 : Shape := ⟨2, ![64, 4096]⟩
abbrev S4096x128 : Shape := ⟨2, ![4096, 128]⟩
abbrev S64x128 : Shape := ⟨2, ![64, 128]⟩

abbrev nBuf : Space → Nat
  | .hbm => 15
  | .vmem => 17
  | .smem => 0
  | _ => 0

abbrev bufTy : (tb : Table) → Fin (tcTables nBuf tb) → BufTy
  | .hbm, ⟨0, _⟩ => ⟨S27x32, .f32⟩
  | .hbm, ⟨1, _⟩ => ⟨S1x32, .f32⟩
  | .hbm, ⟨2, _⟩ => ⟨S288x32, .f32⟩
  | .hbm, ⟨3, _⟩ => ⟨S1x32, .f32⟩
  | .hbm, ⟨4, _⟩ => ⟨S32768x128, .f32⟩
  | .hbm, ⟨5, _⟩ => ⟨S1x128, .f32⟩
  | .hbm, ⟨6, _⟩ => ⟨S128x3x32x32, .f32⟩
  | .hbm, ⟨7, _⟩ => ⟨S128x32x32x3, .f32⟩
  | .hbm, ⟨8, _⟩ => ⟨S128x32x32x3, .bf16⟩
  | .hbm, ⟨9, _⟩ => ⟨S27x32, .bf16⟩
  | .hbm, ⟨10, _⟩ => ⟨S288x32, .bf16⟩
  | .hbm, ⟨11, _⟩ => ⟨S128x1024x32, .bf16⟩
  | .hbm, ⟨12, _⟩ => ⟨S128x32768, .bf16⟩
  | .hbm, ⟨13, _⟩ => ⟨S32768x128, .bf16⟩
  | .hbm, ⟨14, _⟩ => ⟨S128x128, .f32⟩
  | .local _ .vmem, ⟨0, _⟩ => ⟨S16x32x32x3, .bf16⟩
  | .local _ .vmem, ⟨1, _⟩ => ⟨S16x32x32x3, .bf16⟩
  | .local _ .vmem, ⟨2, _⟩ => ⟨S27x32, .bf16⟩
  | .local _ .vmem, ⟨3, _⟩ => ⟨S1x32, .f32⟩
  | .local _ .vmem, ⟨4, _⟩ => ⟨S288x32, .bf16⟩
  | .local _ .vmem, ⟨5, _⟩ => ⟨S1x32, .f32⟩
  | .local _ .vmem, ⟨6, _⟩ => ⟨S16x1024x32, .bf16⟩
  | .local _ .vmem, ⟨7, _⟩ => ⟨S16x1024x32, .bf16⟩
  | .local _ .vmem, ⟨8, _⟩ => ⟨S16x34x34x3, .bf16⟩
  | .local _ .vmem, ⟨9, _⟩ => ⟨S16x34x34x32, .bf16⟩
  | .local _ .vmem, ⟨10, _⟩ => ⟨S64x4096, .bf16⟩
  | .local _ .vmem, ⟨11, _⟩ => ⟨S64x4096, .bf16⟩
  | .local _ .vmem, ⟨12, _⟩ => ⟨S4096x128, .bf16⟩
  | .local _ .vmem, ⟨13, _⟩ => ⟨S4096x128, .bf16⟩
  | .local _ .vmem, ⟨14, _⟩ => ⟨S1x128, .f32⟩
  | .local _ .vmem, ⟨15, _⟩ => ⟨S64x128, .f32⟩
  | .local _ .vmem, ⟨16, _⟩ => ⟨S64x128, .f32⟩
  | _, _ => ⟨S27x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x32x32x3 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S27x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S288x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x1024x32 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 8], ![false, false]⟩

def k1_cond1 (i : grid1.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k1_cond2 (i : grid1.Coords) : BitVec 1 :=
  let arg1 : BitVec 32 := BitVec.ofNat 32 (i 1).val
  let c0_i32_4 : BitVec 32 := 0#32
  let v8 : BitVec 1 := Scalar.cmpi .ne arg1 c0_i32_4
  let v9 : BitVec 32 := Scalar.extui v8
  let c0_i32_5 : BitVec 32 := 0#32
  let v10 : BitVec 1 := Scalar.cmpi .ne v9 c0_i32_5
  v10

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S64x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  transposes_S128x3x32x32_S128x32x32x3_0_2_3_1 : S128x3x32x32.Transposes [0, 2, 3, 1] S128x32x32x3
  bitsLt_bf16_f32 : FTy.bits .bf16 < FTy.bits .f32
  inb_S16x34x34x3_S16x34x34x3_0_0_0_0 : ∀ a, (![0, 0, 0, 0] : Fin 4 → Nat) a + S16x34x34x3.size a ≤ S16x34x34x3.size a
  h_S16x34x34x3 : 0 < S16x34x34x3.numel
  shapeCasts_S16x34x34x3_S16x34x34x3 : S16x34x34x3.ShapeCasts S16x34x34x3
  packedbf16_S16x34x34x3_S16x34x34x3_0_0_0_0 : (Rect.unit (s := S16x34x34x3) ![0, 0, 0, 0] S16x34x34x3.size inb_S16x34x34x3_S16x34x34x3_0_0_0_0).PackedRows (EltTy.packing .bf16)
  inb_S16x32x32x3_S16x32x32x3_0_0_0_0 : ∀ a, (![0, 0, 0, 0] : Fin 4 → Nat) a + S16x32x32x3.size a ≤ S16x32x32x3.size a
  h_S16x32x32x3 : 0 < S16x32x32x3.numel
  shapeCasts_S16x32x32x3_S16x32x32x3 : S16x32x32x3.ShapeCasts S16x32x32x3
  inb_S16x34x34x3_S16x32x32x3_0_1_1_0 : ∀ a, (![0, 1, 1, 0] : Fin 4 → Nat) a + S16x32x32x3.size a ≤ S16x34x34x3.size a
  inb_S16x34x34x3_S16x32x34x3_0_1_0_0 : ∀ a, (![0, 1, 0, 0] : Fin 4 → Nat) a + S16x32x34x3.size a ≤ S16x34x34x3.size a
  h_S16x32x34x3 : 0 < S16x32x34x3.numel
  slices_S16x32x34x3_S16x32x32x3_0_0_1_0 : S16x32x34x3.Slices ![0, 0, 1, 0] S16x32x32x3
  packedbf16_S16x34x34x3_S16x32x34x3_0_1_0_0 : (Rect.unit (s := S16x34x34x3) ![0, 1, 0, 0] S16x32x34x3.size inb_S16x34x34x3_S16x32x34x3_0_1_0_0).PackedRows (EltTy.packing .bf16)
  inb_S16x34x34x3_S16x32x32x3_0_0_0_0 : ∀ a, (![0, 0, 0, 0] : Fin 4 → Nat) a + S16x32x32x3.size a ≤ S16x34x34x3.size a
  shapeCasts_S16x32x32x3_S16384x3 : S16x32x32x3.ShapeCasts S16384x3
  inb_S16x34x34x3_S16x32x32x3_0_0_1_0 : ∀ a, (![0, 0, 1, 0] : Fin 4 → Nat) a + S16x32x32x3.size a ≤ S16x34x34x3.size a
  inb_S16x34x34x3_S16x32x32x3_0_0_2_0 : ∀ a, (![0, 0, 2, 0] : Fin 4 → Nat) a + S16x32x32x3.size a ≤ S16x34x34x3.size a
  inb_S16x34x34x3_S16x32x32x3_0_1_0_0 : ∀ a, (![0, 1, 0, 0] : Fin 4 → Nat) a + S16x32x32x3.size a ≤ S16x34x34x3.size a
  inb_S16x34x34x3_S16x32x32x3_0_1_2_0 : ∀ a, (![0, 1, 2, 0] : Fin 4 → Nat) a + S16x32x32x3.size a ≤ S16x34x34x3.size a
  inb_S16x34x34x3_S16x32x32x3_0_2_0_0 : ∀ a, (![0, 2, 0, 0] : Fin 4 → Nat) a + S16x32x32x3.size a ≤ S16x34x34x3.size a
  inb_S16x34x34x3_S16x32x32x3_0_2_1_0 : ∀ a, (![0, 2, 1, 0] : Fin 4 → Nat) a + S16x32x32x3.size a ≤ S16x34x34x3.size a
  inb_S16x34x34x3_S16x32x32x3_0_2_2_0 : ∀ a, (![0, 2, 2, 0] : Fin 4 → Nat) a + S16x32x32x3.size a ≤ S16x34x34x3.size a
  concatenates_S16384x3_S16384x3_S16384x3_S16384x3_S16384x3_S16384x3_S16384x3_S16384x3_S16384x3_S16384x27_d1 : Shape.Concatenates [S16384x3, S16384x3, S16384x3, S16384x3, S16384x3, S16384x3, S16384x3, S16384x3, S16384x3] S16384x27 1
  inb_S27x32_S27x32_0_0 : ∀ a, (![0, 0] : Fin 2 → Nat) a + S27x32.size a ≤ S27x32.size a
  h_S27x32 : 0 < S27x32.numel
  shapeCasts_S27x32_S27x32 : S27x32.ShapeCasts S27x32
  inb_S1x32_S1x32_0_0 : ∀ a, (![0, 0] : Fin 2 → Nat) a + S1x32.size a ≤ S1x32.size a
  h_S1x32 : 0 < S1x32.numel
  broadcasts_S1x32_S16384x32 : S1x32.Broadcasts S16384x32
  inb_S16x34x34x32_S16x34x34x32_0_0_0_0 : ∀ a, (![0, 0, 0, 0] : Fin 4 → Nat) a + S16x34x34x32.size a ≤ S16x34x34x32.size a
  h_S16x34x34x32 : 0 < S16x34x34x32.numel
  shapeCasts_S16x34x34x32_S16x34x34x32 : S16x34x34x32.ShapeCasts S16x34x34x32
  packedbf16_S16x34x34x32_S16x34x34x32_0_0_0_0 : (Rect.unit (s := S16x34x34x32) ![0, 0, 0, 0] S16x34x34x32.size inb_S16x34x34x32_S16x34x34x32_0_0_0_0).PackedRows (EltTy.packing .bf16)
  shapeCasts_S16384x32_S16x32x32x32 : S16384x32.ShapeCasts S16x32x32x32
  inb_S16x34x34x32_S16x32x32x32_0_1_1_0 : ∀ a, (![0, 1, 1, 0] : Fin 4 → Nat) a + S16x32x32x32.size a ≤ S16x34x34x32.size a
  h_S16x32x32x32 : 0 < S16x32x32x32.numel
  shapeCasts_S16x32x32x32_S16x32x32x32 : S16x32x32x32.ShapeCasts S16x32x32x32
  inb_S16x34x34x32_S16x32x34x32_0_1_0_0 : ∀ a, (![0, 1, 0, 0] : Fin 4 → Nat) a + S16x32x34x32.size a ≤ S16x34x34x32.size a
  h_S16x32x34x32 : 0 < S16x32x34x32.numel
  slices_S16x32x34x32_S16x32x32x32_0_0_1_0 : S16x32x34x32.Slices ![0, 0, 1, 0] S16x32x32x32
  packedbf16_S16x34x34x32_S16x32x34x32_0_1_0_0 : (Rect.unit (s := S16x34x34x32) ![0, 1, 0, 0] S16x32x34x32.size inb_S16x34x34x32_S16x32x34x32_0_1_0_0).PackedRows (EltTy.packing .bf16)
  inb_S16x34x34x32_S16x32x32x32_0_0_0_0 : ∀ a, (![0, 0, 0, 0] : Fin 4 → Nat) a + S16x32x32x32.size a ≤ S16x34x34x32.size a
  shapeCasts_S16x32x32x32_S16384x32 : S16x32x32x32.ShapeCasts S16384x32
  inb_S16x34x34x32_S16x32x32x32_0_0_1_0 : ∀ a, (![0, 0, 1, 0] : Fin 4 → Nat) a + S16x32x32x32.size a ≤ S16x34x34x32.size a
  inb_S16x34x34x32_S16x32x32x32_0_0_2_0 : ∀ a, (![0, 0, 2, 0] : Fin 4 → Nat) a + S16x32x32x32.size a ≤ S16x34x34x32.size a
  inb_S16x34x34x32_S16x32x32x32_0_1_0_0 : ∀ a, (![0, 1, 0, 0] : Fin 4 → Nat) a + S16x32x32x32.size a ≤ S16x34x34x32.size a
  inb_S16x34x34x32_S16x32x32x32_0_1_2_0 : ∀ a, (![0, 1, 2, 0] : Fin 4 → Nat) a + S16x32x32x32.size a ≤ S16x34x34x32.size a
  inb_S16x34x34x32_S16x32x32x32_0_2_0_0 : ∀ a, (![0, 2, 0, 0] : Fin 4 → Nat) a + S16x32x32x32.size a ≤ S16x34x34x32.size a
  inb_S16x34x34x32_S16x32x32x32_0_2_1_0 : ∀ a, (![0, 2, 1, 0] : Fin 4 → Nat) a + S16x32x32x32.size a ≤ S16x34x34x32.size a
  inb_S16x34x34x32_S16x32x32x32_0_2_2_0 : ∀ a, (![0, 2, 2, 0] : Fin 4 → Nat) a + S16x32x32x32.size a ≤ S16x34x34x32.size a
  concatenates_S16384x32_S16384x32_S16384x32_S16384x32_S16384x32_S16384x32_S16384x32_S16384x32_S16384x32_S16384x288_d1 : Shape.Concatenates [S16384x32, S16384x32, S16384x32, S16384x32, S16384x32, S16384x32, S16384x32, S16384x32, S16384x32] S16384x288 1
  inb_S288x32_S288x32_0_0 : ∀ a, (![0, 0] : Fin 2 → Nat) a + S288x32.size a ≤ S288x32.size a
  h_S288x32 : 0 < S288x32.numel
  shapeCasts_S288x32_S288x32 : S288x32.ShapeCasts S288x32
  shapeCasts_S16384x32_S16x1024x32 : S16384x32.ShapeCasts S16x1024x32
  inb_S16x1024x32_S16x1024x32_0_0_0 : ∀ a, (![0, 0, 0] : Fin 3 → Nat) a + S16x1024x32.size a ≤ S16x1024x32.size a
  h_S16x1024x32 : 0 < S16x1024x32.numel
  packedbf16_S16x1024x32_S16x1024x32_0_0_0 : (Rect.unit (s := S16x1024x32) ![0, 0, 0] S16x1024x32.size inb_S16x1024x32_S16x1024x32_0_0_0).PackedRows (EltTy.packing .bf16)
  shapeCasts_S128x1024x32_S128x32768 : S128x1024x32.ShapeCasts S128x32768
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  broadcasts_S1x128_S64x128 : S1x128.Broadcasts S64x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  dot_S16384x27_S27x32_S16384x32_1_0_0_1_n_n_wf : DotDims.WF S16384x27 S27x32 S16384x32 [1] [0] [0] [1] [] []
  dot_S16384x288_S288x32_S16384x32_1_0_0_1_n_n_wf : DotDims.WF S16384x288 S288x32 S16384x32 [1] [0] [0] [1] [] []
  dot_S64x4096_S4096x128_S64x128_1_0_0_1_n_n_wf : DotDims.WF S64x4096 S4096x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x32x32x3.size a ≤ S128x32x32x3.size a
  hwx0_0 : ∀ i : grid0.Coords, EltTy.bits .bf16 = 32 ∨ (Rect.block (s := S128x32x32x3) S16x32x32x3.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S27x32.size a ≤ S27x32.size a
  hwx0_1 : ∀ i : grid0.Coords, EltTy.bits .bf16 = 32 ∨ (Rect.block (s := S27x32) S27x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S288x32.size a ≤ S288x32.size a
  hwx0_3 : ∀ i : grid0.Coords, EltTy.bits .bf16 = 32 ∨ (Rect.block (s := S288x32) S288x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x1024x32.size a ≤ S128x1024x32.size a
  hwx0_5 : ∀ i : grid0.Coords, EltTy.bits .bf16 = 32 ∨ (Rect.block (s := S128x1024x32) S16x1024x32.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x4096.size a ≤ S128x32768.size a
  hwx1_0 : ∀ i : grid1.Coords, EltTy.bits .bf16 = 32 ∨ (Rect.block (s := S128x32768) S64x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S32768x128.size a
  hwx1_1 : ∀ i : grid1.Coords, EltTy.bits .bf16 = 32 ∨ (Rect.block (s := S32768x128) S4096x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S128x128.size a
  hwx1_3 : ∀ i : grid1.Coords, EltTy.bits .f32 = 32 ∨ (Rect.block (s := S128x128) S64x128.size (cc1_transform_3 i) (hinb1_3 i)).WholeWords (EltTy.packing .f32)

variable [Facts₀]

def dot_S16384x27_S27x32_S16384x32_1_0_0_1_n_n : DotDims S16384x27 S27x32 S16384x32 where
  lhsContracting := [1]
  rhsContracting := [0]
  lhsNonContracting := [0]
  rhsNonContracting := [1]
  lhsBatch := []
  rhsBatch := []
  wf := dot_S16384x27_S27x32_S16384x32_1_0_0_1_n_n_wf
def dot_S16384x288_S288x32_S16384x32_1_0_0_1_n_n : DotDims S16384x288 S288x32 S16384x32 where
  lhsContracting := [1]
  rhsContracting := [0]
  lhsNonContracting := [0]
  rhsNonContracting := [1]
  lhsBatch := []
  rhsBatch := []
  wf := dot_S16384x288_S288x32_S16384x32_1_0_0_1_n_n_wf
def dot_S64x4096_S4096x128_S64x128_1_0_0_1_n_n : DotDims S64x4096 S4096x128 S64x128 where
  lhsContracting := [1]
  rhsContracting := [0]
  lhsNonContracting := [0]
  rhsNonContracting := [1]
  lhsBatch := []
  rhsBatch := []
  wf := dot_S64x4096_S4096x128_S64x128_1_0_0_1_n_n_wf

abbrev win0_0 : Pipeline.Window sig grid0 :=
  Pipeline.Window.ofSpec (Memref.whole main_v1) S16x32x32x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S27x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S288x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S16x1024x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5) S64x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S64x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond1 i == 1#1) && !(k1_cond2 i == 1#1) | ⟨_ + 4, h⟩ => absurd h (Nat.not_lt.2 (Nat.le_add_left _ _))

class Facts : Prop extends Facts₀ where

variable [Facts]
-- ==== ReferenceIdeal.lean ====
abbrev S27x32 : Shape := ⟨2, ![27, 32]⟩
abbrev S1x32 : Shape := ⟨2, ![1, 32]⟩
abbrev S288x32 : Shape := ⟨2, ![288, 32]⟩
abbrev S32768x128 : Shape := ⟨2, ![32768, 128]⟩
abbrev S1x128 : Shape := ⟨2, ![1, 128]⟩
abbrev S128x3x32x32 : Shape := ⟨4, ![128, 3, 32, 32]⟩
abbrev S128x32x32x3 : Shape := ⟨4, ![128, 32, 32, 3]⟩
abbrev S128x1024x32 : Shape := ⟨3, ![128, 1024, 32]⟩
abbrev S128x32768 : Shape := ⟨2, ![128, 32768]⟩
abbrev S128x128 : Shape := ⟨2, ![128, 128]⟩
abbrev S1x32x32x3 : Shape := ⟨4, ![1, 32, 32, 3]⟩
abbrev S1x1024x32 : Shape := ⟨3, ![1, 1024, 32]⟩
abbrev S34x34x3 : Shape := ⟨3, ![34, 34, 3]⟩
abbrev S34x34x32 : Shape := ⟨3, ![34, 34, 32]⟩
abbrev S32x32x3 : Shape := ⟨3, ![32, 32, 3]⟩
abbrev S1024x3 : Shape := ⟨2, ![1024, 3]⟩
abbrev S1024x27 : Shape := ⟨2, ![1024, 27]⟩
abbrev S1024x32 : Shape := ⟨2, ![1024, 32]⟩
abbrev S32x32x32 : Shape := ⟨3, ![32, 32, 32]⟩
abbrev S1024x288 : Shape := ⟨2, ![1024, 288]⟩

abbrev nBuf : Space → Nat
  | .hbm => 11
  | .vmem => 14
  | .smem => 0
  | _ => 0

abbrev bufTy : (tb : Table) → Fin (tcTables nBuf tb) → BufTy
  | .hbm, ⟨0, _⟩ => ⟨S27x32, .f32⟩
  | .hbm, ⟨1, _⟩ => ⟨S1x32, .f32⟩
  | .hbm, ⟨2, _⟩ => ⟨S288x32, .f32⟩
  | .hbm, ⟨3, _⟩ => ⟨S1x32, .f32⟩
  | .hbm, ⟨4, _⟩ => ⟨S32768x128, .f32⟩
  | .hbm, ⟨5, _⟩ => ⟨S1x128, .f32⟩
  | .hbm, ⟨6, _⟩ => ⟨S128x3x32x32, .f32⟩
  | .hbm, ⟨7, _⟩ => ⟨S128x32x32x3, .f32⟩
  | .hbm, ⟨8, _⟩ => ⟨S128x1024x32, .f32⟩
  | .hbm, ⟨9, _⟩ => ⟨S128x32768, .f32⟩
  | .hbm, ⟨10, _⟩ => ⟨S128x128, .f32⟩
  | .local _ .vmem, ⟨0, _⟩ => ⟨S1x32x32x3, .f32⟩
  | .local _ .vmem, ⟨1, _⟩ => ⟨S1x32x32x3, .f32⟩
  | .local _ .vmem, ⟨2, _⟩ => ⟨S27x32, .f32⟩
  | .local _ .vmem, ⟨3, _⟩ => ⟨S1x32, .f32⟩
  | .local _ .vmem, ⟨4, _⟩ => ⟨S288x32, .f32⟩
  | .local _ .vmem, ⟨5, _⟩ => ⟨S1x32, .f32⟩
  | .local _ .vmem, ⟨6, _⟩ => ⟨S1x1024x32, .f32⟩
  | .local _ .vmem, ⟨7, _⟩ => ⟨S1x1024x32, .f32⟩
  | .local _ .vmem, ⟨8, _⟩ => ⟨S34x34x3, .f32⟩
  | .local _ .vmem, ⟨9, _⟩ => ⟨S34x34x32, .f32⟩
  | .local _ .vmem, ⟨10, _⟩ => ⟨S128x32768, .f32⟩
  | .local _ .vmem, ⟨11, _⟩ => ⟨S32768x128, .f32⟩
  | .local _ .vmem, ⟨12, _⟩ => ⟨S1x128, .f32⟩
  | .local _ .vmem, ⟨13, _⟩ => ⟨S128x128, .f32⟩
  | _, _ => ⟨S27x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem2_0 : DmaSem sig := 10
abbrev cc1_sem3_0 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x32x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S27x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S288x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S128x32768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32768x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  transposes_S128x3x32x32_S128x32x32x3_0_2_3_1 : S128x3x32x32.Transposes [0, 2, 3, 1] S128x32x32x3
  shapeCasts_S128x1024x32_S128x32768 : S128x1024x32.ShapeCasts S128x32768
  inb_S1x32x32x3_S1x32x32x3_0_0_0_0 : ∀ a, (![0, 0, 0, 0] : Fin 4 → Nat) a + S1x32x32x3.size a ≤ S1x32x32x3.size a
  h_S1x32x32x3 : 0 < S1x32x32x3.numel
  shapeCasts_S1x32x32x3_S32x32x3 : S1x32x32x3.ShapeCasts S32x32x3
  inb_S34x34x3_S34x34x3_0_0_0 : ∀ a, (![0, 0, 0] : Fin 3 → Nat) a + S34x34x3.size a ≤ S34x34x3.size a
  h_S34x34x3 : 0 < S34x34x3.numel
  shapeCasts_S34x34x3_S34x34x3 : S34x34x3.ShapeCasts S34x34x3
  inb_S34x34x3_S32x32x3_1_1_0 : ∀ a, (![1, 1, 0] : Fin 3 → Nat) a + S32x32x3.size a ≤ S34x34x3.size a
  h_S32x32x3 : 0 < S32x32x3.numel
  shapeCasts_S32x32x3_S32x32x3 : S32x32x3.ShapeCasts S32x32x3
  inb_S34x34x3_S32x32x3_0_0_0 : ∀ a, (![0, 0, 0] : Fin 3 → Nat) a + S32x32x3.size a ≤ S34x34x3.size a
  shapeCasts_S32x32x3_S1024x3 : S32x32x3.ShapeCasts S1024x3
  inb_S34x34x3_S32x32x3_0_1_0 : ∀ a, (![0, 1, 0] : Fin 3 → Nat) a + S32x32x3.size a ≤ S34x34x3.size a
  inb_S34x34x3_S32x32x3_0_2_0 : ∀ a, (![0, 2, 0] : Fin 3 → Nat) a + S32x32x3.size a ≤ S34x34x3.size a
  inb_S34x34x3_S32x32x3_1_0_0 : ∀ a, (![1, 0, 0] : Fin 3 → Nat) a + S32x32x3.size a ≤ S34x34x3.size a
  inb_S34x34x3_S32x32x3_1_2_0 : ∀ a, (![1, 2, 0] : Fin 3 → Nat) a + S32x32x3.size a ≤ S34x34x3.size a
  inb_S34x34x3_S32x32x3_2_0_0 : ∀ a, (![2, 0, 0] : Fin 3 → Nat) a + S32x32x3.size a ≤ S34x34x3.size a
  inb_S34x34x3_S32x32x3_2_1_0 : ∀ a, (![2, 1, 0] : Fin 3 → Nat) a + S32x32x3.size a ≤ S34x34x3.size a
  inb_S34x34x3_S32x32x3_2_2_0 : ∀ a, (![2, 2, 0] : Fin 3 → Nat) a + S32x32x3.size a ≤ S34x34x3.size a
  concatenates_S1024x3_S1024x3_S1024x3_S1024x3_S1024x3_S1024x3_S1024x3_S1024x3_S1024x3_S1024x27_d1 : Shape.Concatenates [S1024x3, S1024x3, S1024x3, S1024x3, S1024x3, S1024x3, S1024x3, S1024x3, S1024x3] S1024x27 1
  inb_S27x32_S27x32_0_0 : ∀ a, (![0, 0] : Fin 2 → Nat) a + S27x32.size a ≤ S27x32.size a
  h_S27x32 : 0 < S27x32.numel
  inb_S1x32_S1x32_0_0 : ∀ a, (![0, 0] : Fin 2 → Nat) a + S1x32.size a ≤ S1x32.size a
  h_S1x32 : 0 < S1x32.numel
  broadcasts_S1x32_S1024x32 : S1x32.Broadcasts S1024x32
  shapeCasts_S1024x32_S32x32x32 : S1024x32.ShapeCasts S32x32x32
  inb_S34x34x32_S34x34x32_0_0_0 : ∀ a, (![0, 0, 0] : Fin 3 → Nat) a + S34x34x32.size a ≤ S34x34x32.size a
  h_S34x34x32 : 0 < S34x34x32.numel
  shapeCasts_S34x34x32_S34x34x32 : S34x34x32.ShapeCasts S34x34x32
  inb_S34x34x32_S32x32x32_1_1_0 : ∀ a, (![1, 1, 0] : Fin 3 → Nat) a + S32x32x32.size a ≤ S34x34x32.size a
  h_S32x32x32 : 0 < S32x32x32.numel
  shapeCasts_S32x32x32_S32x32x32 : S32x32x32.ShapeCasts S32x32x32
  inb_S34x34x32_S32x32x32_0_0_0 : ∀ a, (![0, 0, 0] : Fin 3 → Nat) a + S32x32x32.size a ≤ S34x34x32.size a
  shapeCasts_S32x32x32_S1024x32 : S32x32x32.ShapeCasts S1024x32
  inb_S34x34x32_S32x32x32_0_1_0 : ∀ a, (![0, 1, 0] : Fin 3 → Nat) a + S32x32x32.size a ≤ S34x34x32.size a
  inb_S34x34x32_S32x32x32_0_2_0 : ∀ a, (![0, 2, 0] : Fin 3 → Nat) a + S32x32x32.size a ≤ S34x34x32.size a
  inb_S34x34x32_S32x32x32_1_0_0 : ∀ a, (![1, 0, 0] : Fin 3 → Nat) a + S32x32x32.size a ≤ S34x34x32.size a
  inb_S34x34x32_S32x32x32_1_2_0 : ∀ a, (![1, 2, 0] : Fin 3 → Nat) a + S32x32x32.size a ≤ S34x34x32.size a
  inb_S34x34x32_S32x32x32_2_0_0 : ∀ a, (![2, 0, 0] : Fin 3 → Nat) a + S32x32x32.size a ≤ S34x34x32.size a
  inb_S34x34x32_S32x32x32_2_1_0 : ∀ a, (![2, 1, 0] : Fin 3 → Nat) a + S32x32x32.size a ≤ S34x34x32.size a
  inb_S34x34x32_S32x32x32_2_2_0 : ∀ a, (![2, 2, 0] : Fin 3 → Nat) a + S32x32x32.size a ≤ S34x34x32.size a
  concatenates_S1024x32_S1024x32_S1024x32_S1024x32_S1024x32_S1024x32_S1024x32_S1024x32_S1024x32_S1024x288_d1 : Shape.Concatenates [S1024x32, S1024x32, S1024x32, S1024x32, S1024x32, S1024x32, S1024x32, S1024x32, S1024x32] S1024x288 1
  inb_S288x32_S288x32_0_0 : ∀ a, (![0, 0] : Fin 2 → Nat) a + S288x32.size a ≤ S288x32.size a
  h_S288x32 : 0 < S288x32.numel
  shapeCasts_S1024x32_S1x1024x32 : S1024x32.ShapeCasts S1x1024x32
  inb_S1x1024x32_S1x1024x32_0_0_0 : ∀ a, (![0, 0, 0] : Fin 3 → Nat) a + S1x1024x32.size a ≤ S1x1024x32.size a
  h_S1x1024x32 : 0 < S1x1024x32.numel
  inb_S128x32768_S128x32768_0_0 : ∀ a, (![0, 0] : Fin 2 → Nat) a + S128x32768.size a ≤ S128x32768.size a
  h_S128x32768 : 0 < S128x32768.numel
  shapeCasts_S128x32768_S128x32768 : S128x32768.ShapeCasts S128x32768
  inb_S32768x128_S32768x128_0_0 : ∀ a, (![0, 0] : Fin 2 → Nat) a + S32768x128.size a ≤ S32768x128.size a
  h_S32768x128 : 0 < S32768x128.numel
  inb_S1x128_S1x128_0_0 : ∀ a, (![0, 0] : Fin 2 → Nat) a + S1x128.size a ≤ S1x128.size a
  h_S1x128 : 0 < S1x128.numel
  broadcasts_S1x128_S128x128 : S1x128.Broadcasts S128x128
  inb_S128x128_S128x128_0_0 : ∀ a, (![0, 0] : Fin 2 → Nat) a + S128x128.size a ≤ S128x128.size a
  h_S128x128 : 0 < S128x128.numel
  dot_S1024x27_S27x32_S1024x32_1_0_0_1_n_n_wf : DotDims.WF S1024x27 S27x32 S1024x32 [1] [0] [0] [1] [] []
  dot_S1024x288_S288x32_S1024x32_1_0_0_1_n_n_wf : DotDims.WF S1024x288 S288x32 S1024x32 [1] [0] [0] [1] [] []
  dot_S128x32768_S32768x128_S128x128_1_0_0_1_n_n_wf : DotDims.WF S128x32768 S32768x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32x3.size a ≤ S128x32x32x3.size a
  hwx0_0 : ∀ i : grid0.Coords, EltTy.bits .f32 = 32 ∨ (Rect.block (s := S128x32x32x3) S1x32x32x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S27x32.size a ≤ S27x32.size a
  hwx0_1 : ∀ i : grid0.Coords, EltTy.bits .f32 = 32 ∨ (Rect.block (s := S27x32) S27x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S288x32.size a ≤ S288x32.size a
  hwx0_3 : ∀ i : grid0.Coords, EltTy.bits .f32 = 32 ∨ (Rect.block (s := S288x32) S288x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x32.size a ≤ S128x1024x32.size a
  hwx0_5 : ∀ i : grid0.Coords, EltTy.bits .f32 = 32 ∨ (Rect.block (s := S128x1024x32) S1x1024x32.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x32768.size a ≤ S128x32768.size a
  hwx1_0 : ∀ i : grid1.Coords, EltTy.bits .f32 = 32 ∨ (Rect.block (s := S128x32768) S128x32768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32768x128.size a ≤ S32768x128.size a
  hwx1_1 : ∀ i : grid1.Coords, EltTy.bits .f32 = 32 ∨ (Rect.block (s := S32768x128) S32768x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)

variable [Facts₀]

def dot_S1024x27_S27x32_S1024x32_1_0_0_1_n_n : DotDims S1024x27 S27x32 S1024x32 where
  lhsContracting := [1]
  rhsContracting := [0]
  lhsNonContracting := [0]
  rhsNonContracting := [1]
  lhsBatch := []
  rhsBatch := []
  wf := dot_S1024x27_S27x32_S1024x32_1_0_0_1_n_n_wf
def dot_S1024x288_S288x32_S1024x32_1_0_0_1_n_n : DotDims S1024x288 S288x32 S1024x32 where
  lhsContracting := [1]
  rhsContracting := [0]
  lhsNonContracting := [0]
  rhsNonContracting := [1]
  lhsBatch := []
  rhsBatch := []
  wf := dot_S1024x288_S288x32_S1024x32_1_0_0_1_n_n_wf
def dot_S128x32768_S32768x128_S128x128_1_0_0_1_n_n : DotDims S128x32768 S32768x128 S128x128 where
  lhsContracting := [1]
  rhsContracting := [0]
  lhsNonContracting := [0]
  rhsNonContracting := [1]
  lhsBatch := []
  rhsBatch := []
  wf := dot_S128x32768_S32768x128_S128x128_1_0_0_1_n_n_wf

abbrev win0_0 : Pipeline.Window sig grid0 :=
  Pipeline.Window.ofSpec (Memref.whole main_call0_v0) S1x32x32x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S27x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S288x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x1024x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v2) S128x32768.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32768x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S128x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.KConvRun.lean ====
import proofs.«167103_g2000007113644459_pallasbulk_1246_6_alg».proof.Proof.Gen.Kernel.Launch
import proofs.«167103_g2000007113644459_pallasbulk_1246_6_alg».proof.Proof.Gen.Kernel.Skeleton
import proofs.«167103_g2000007113644459_pallasbulk_1246_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The convolution region (the first kernel launch), at the contents `V` the region finds in the core's buffers

Sixteen images per grid point: the body zero-fills a padded copy of its image block, writes the block into the interior,
gathers the nine shifted 32×32 views side by side, multiplies by the 27×32 weights, adds the bias, clamps at zero, and
does the same once more on the 32-channel result with the 288×32 weights; the second result is the output block. -/

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not the point fetches it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, whether or not the point fetches it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, whether or not the point fetches it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, whether or not the point fetches it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, whether or not the point fetches it. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of the output window, through which the block's contents are stated. -/
abbrev VO0_5 : View sig .tc .vmem S16x1024x32 .bf16 := (Memref.whole cc0_stg5_0 : Memref sig .tc .vmem S16x1024x32 .bf16).view
abbrev ms0_0 (t : Fin cfg0.N) : Memref sig .tc .vmem S16x32x32x3 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S27x32 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S288x32 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x1024x32 .bf16 := win0_5.stage (cfg0.slots t 5)
abbrev hs0_5 (t : Fin cfg0.N) : (ms0_5 t).IsWhole := hstage0_5 ((cfg0.slots t 5).cast nbuf0_5)
/-- The two padded copies: whole buffers of the kernel's own. -/
abbrev scM0_0 : Memref sig .tc .vmem S16x34x34x3 .bf16 := Memref.whole cc0_scratch0
abbrev scM0_1 : Memref sig .tc .vmem S16x34x34x32 .bf16 := Memref.whole cc0_scratch1

/-- What the region's invariant holds besides the windows: the two padded copies and the other launch's staging
    buffers, each at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f)) ∗ (∃ r, prngReg c r)) := by
  unfold Pipeline.ΦA; rw [scopedRest0_eq]; simp only [scM0_0, scM0_1, owns_whole]; try rfl

set_option maxHeartbeats 4000000 in
/-- The body on any whole staging buffers: the inputs at their contents, the output and the two padded copies at anything.
    It runs to its end holding the inputs as they were, the padded copies at some contents, and the output buffer with the
    pieces its stores wrote (the list the run finds). -/
noncomputable def kernelRun0 (c : Dev nD) (i : grid0.Coords) (arg1 : Memref sig .tc .vmem S16x32x32x3 .bf16) (harg1 : arg1.IsWhole) (arg2 : Memref sig .tc .vmem S27x32 .bf16) (harg2 : arg2.IsWhole) (arg3 : Memref sig .tc .vmem S1x32 .f32) (harg3 : arg3.IsWhole) (arg4 : Memref sig .tc .vmem S288x32 .bf16) (harg4 : arg4.IsWhole) (arg5 : Memref sig .tc .vmem S1x32 .f32) (harg5 : arg5.IsWhole) (arg6 : Memref sig .tc .vmem S16x1024x32 .bf16) (harg6 : arg6.IsWhole) (arg7 : Memref sig .tc .vmem S16x34x34x3 .bf16) (harg7 : arg7.IsWhole) (arg8 : Memref sig .tc .vmem S16x34x34x32 .bf16) (harg8 : arg8.IsWhole)
    (x0 : Vec F S16x32x32x3 .bf16) (x1 : Vec F S27x32 .bf16) (x2 : Vec F S1x32 .f32) (x3 : Vec F S288x32 .bf16) (x4 : Vec F S1x32 .f32) :
    { L5 : List (View.Piece (Elt F) S16x1024x32 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d) ∗ (∃ d, owns (c : Thread nD τ) arg8 fullShare d)) -∗ K ⟨⟩))
          ⊢ wp frame (wpE (defs₀ (F := F)) Variants.none c none) E (cc0__conv_kernel i arg1 harg1 arg2 harg2 arg3 harg3 arg4 harg4 arg5 harg5 arg6 harg6 arg7 harg7 arg8 harg8) K } := by
  refine ⟨?_, fun E K => ?run⟩
  case run =>
    simp only [cc0__conv_kernel_eq_skeleton]; unfold cc0__conv_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _, _; isplitr; swap; · iexact HS0
      ipureintro; rfl
    iexists _, _; isplitr; swap; · iexact HS1
    ipureintro; rfl

end Cert.Kernel.Hand

end
-- ==== Proof.KConvBody.lean ====
import proofs.«167103_g2000007113644459_pallasbulk_1246_6_alg».proof.Proof.KConvRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The convolution region: its proof data and its body obligation

What the run leaves in the output block, point by point, packaged as the launch's proof data: every input window's
staging buffer holds its block at every point, the output's holds the body's stores read back; the two padded copies and
the generator register ride along in the invariant. -/

variable (V : (c : Dev nD) → (b : Ref sig .tc) → Buf (Elt F) ((c : Thread nD τ).loc b))

/-- The run's one store of the output block covers it. -/
theorem cover0_5 (c : Dev nD) (i : grid0.Coords) (arg1 : Memref sig .tc .vmem S16x32x32x3 .bf16) (harg1 : arg1.IsWhole) (arg2 : Memref sig .tc .vmem S27x32 .bf16) (harg2 : arg2.IsWhole) (arg3 : Memref sig .tc .vmem S1x32 .f32) (harg3 : arg3.IsWhole) (arg4 : Memref sig .tc .vmem S288x32 .bf16) (harg4 : arg4.IsWhole) (arg5 : Memref sig .tc .vmem S1x32 .f32) (harg5 : arg5.IsWhole) (arg6 : Memref sig .tc .vmem S16x1024x32 .bf16) (harg6 : arg6.IsWhole) (arg7 : Memref sig .tc .vmem S16x34x34x3 .bf16) (harg7 : arg7.IsWhole) (arg8 : Memref sig .tc .vmem S16x34x34x32 .bf16) (harg8 : arg8.IsWhole)
    (x0 : Vec F S16x32x32x3 .bf16) (x1 : Vec F S27x32 .bf16) (x2 : Vec F S1x32 .f32) (x3 : Vec F S288x32 .bf16) (x4 : Vec F S1x32 .f32) (y : S16x1024x32.Idx) :
    ∃ pc ∈ (kernelRun0 c i arg1 harg1 arg2 harg2 arg3 harg3 arg4 harg4 arg5 harg5 arg6 harg6 arg7 harg7 arg8 harg8 x0 x1 x2 x3 x4).1, y ∈ pc.1.set :=
  View.cover_of_tiledL (kernelRun0 c i arg1 harg1 arg2 harg2 arg3 harg3 arg4 harg4 arg5 harg5 arg6 harg6 arg7 harg7 arg8 harg8 x0 x1 x2 x3 x4).1 S16x1024x32.size (by sl_kernel_rfl) y

/-- What the run leaves in the output's staging buffer: its stores read back. -/
def out0_5 (c : Dev nD) (i : grid0.Coords) (arg1 : Memref sig .tc .vmem S16x32x32x3 .bf16) (harg1 : arg1.IsWhole) (arg2 : Memref sig .tc .vmem S27x32 .bf16) (harg2 : arg2.IsWhole) (arg3 : Memref sig .tc .vmem S1x32 .f32) (harg3 : arg3.IsWhole) (arg4 : Memref sig .tc .vmem S288x32 .bf16) (harg4 : arg4.IsWhole) (arg5 : Memref sig .tc .vmem S1x32 .f32) (harg5 : arg5.IsWhole) (arg6 : Memref sig .tc .vmem S16x1024x32 .bf16) (harg6 : arg6.IsWhole) (arg7 : Memref sig .tc .vmem S16x34x34x3 .bf16) (harg7 : arg7.IsWhole) (arg8 : Memref sig .tc .vmem S16x34x34x32 .bf16) (harg8 : arg8.IsWhole)
    (x0 : Vec F S16x32x32x3 .bf16) (x1 : Vec F S27x32 .bf16) (x2 : Vec F S1x32 .f32) (x3 : Vec F S288x32 .bf16) (x4 : Vec F S1x32 .f32) : Vec F S16x1024x32 .bf16 :=
  VO0_5.read (Elt F) (VO0_5.writes (Elt F) VO0_5.junk (kernelRun0 c i arg1 harg1 arg2 harg2 arg3 harg3 arg4 harg4 arg5 harg5 arg6 harg6 arg7 harg7 arg8 harg8 x0 x1 x2 x3 x4).1)

/-- The output block after the body at point `t`: the run at the point's staging buffers and input blocks. -/
def outsAt0 (c : Dev nD) (t : Fin cfg0.N) : Vec F S16x1024x32 .bf16 :=
  out0_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk0 V c 0 t) (iblk0 V c 1 t) (iblk0 V c 2 t) (iblk0 V c 3 t) (iblk0 V c 4 t)

/-- The launch's proof data on core `c`: the arrays as the region finds them; after the body each input's buffer at its
    block and the output's at `outsAt0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 1600000 in
/-- The body at any point: the inputs' buffers hold their blocks, so the run applies; the invariant hands the body its two
    padded copies at some contents and takes them back at some contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  rw [show (dat0 V c).Φ t.castSucc = Pipeline.ΦA spec0 c from rfl, PhiA0_eq]
  unfold outsAt0
  unfold out0_5
  iintro ⟨⟨⟨HS0, HS1, HR2, HR3, HR4, HR5, HR6, HR7, HR8⟩, Hg⟩, Ho, ⟨%d0, H0⟩, ⟨%d1, H1⟩, ⟨%d2, H2⟩, ⟨%d3, H3⟩, ⟨%d4, H4⟩, ⟨%d5, H5⟩⟩
  iapply ((kernelRun0 c (grid0.coords t) _ _ _ _ _ _ _ _ _ _ _ _ _ _ _ _ (iblk0 V c 0 t) (iblk0 V c 1 t) (iblk0 V c 2 t) (iblk0 V c 3 t) (iblk0 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, ⟨%e5, H5⟩, HS0, HS1⟩
  isplitl [HS0 HS1 HR2 HR3 HR4 HR5 HR6 HR7 HR8 Hg]
  · isplitl [HS0 HS1 HR2 HR3 HR4 HR5 HR6 HR7 HR8]
    · isplitl [HS0]
      · iexact HS0
      isplitl [HS1]
      · iexact HS1
      isplitl [HR2]
      · iexact HR2
      isplitl [HR3]
      · iexact HR3
      isplitl [HR4]
      · iexact HR4
      isplitl [HR5]
      · iexact HR5
      isplitl [HR6]
      · iexact HR6
      isplitl [HR7]
      · iexact HR7
      iexact HR8
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_5 c _ _ _ _ _ _ _ _ _ _ _ _ _ _ _ _ _ _ _ _ _ _)

/-- The launch's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KFcRun.lean ====
import proofs.«167103_g2000007113644459_pallasbulk_1246_6_alg».proof.Proof.Gen.Kernel.Launch
import proofs.«167103_g2000007113644459_pallasbulk_1246_6_alg».proof.Proof.Gen.Kernel.Skeleton
import proofs.«167103_g2000007113644459_pallasbulk_1246_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The linear-layer region (the second kernel launch), at the contents `V` the region finds in the core's buffers

A 2 × 8 grid: point `(m, k)` multiplies the 64 × 4096 block `(m, k)` of the features by the 4096 × 128 block `k` of the
weights. At `k = 0` the product plus the bias row is stored into the 64 × 128 output block `m`; at `k ≠ 0` the product is
added to what the block holds. The block is written back after `k = 7`. -/

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether or not the point fetches it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, whether or not the point fetches it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, whether or not the point fetches it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- The first conditional's condition: the chunk index is zero. -/
abbrev cond1_0 (i : grid1.Coords) : Prop := k1_cond1 i = 1#1
/-- The second conditional's condition: the chunk index is not zero. -/
abbrev cond1_1 (i : grid1.Coords) : Prop := k1_cond2 i = 1#1

/-- The first holds exactly at the points with `k = 0`, -/
theorem hcond1_0 : ∀ t : Fin cfg1.N, cond1_0 (grid1.coords t) ↔ t.val % 8 = 0 :=
  (by decide +kernel : ∀ t : Fin grid1.N, cond1_0 (grid1.coords t) ↔ t.val % 8 = 0)
/-- the second exactly at the others. -/
theorem hcond1_1 : ∀ t : Fin cfg1.N, cond1_1 (grid1.coords t) ↔ t.val % 8 ≠ 0 :=
  (by decide +kernel : ∀ t : Fin grid1.N, cond1_1 (grid1.coords t) ↔ t.val % 8 ≠ 0)

/-- One of the two conditions holds at every grid coordinate: the output block is stored at every point. -/
theorem hlive1_3 : ∀ i : grid1.Coords, cfg1.idle 3 i = false := by decide +kernel

/-! ## The body on any whole staging buffers -/

/-- One staging buffer of the output window, through which the block's contents are stated. -/
abbrev VO1_3 : View sig .tc .vmem S64x128 .f32 := (Memref.whole cc1_stg3_0 : Memref sig .tc .vmem S64x128 .f32).view
abbrev ms1_0 (t : Fin cfg1.N) : Memref sig .tc .vmem S64x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x128 .f32 := win1_3.stage (cfg1.slots t 3)
abbrev hs1_3 (t : Fin cfg1.N) : (ms1_3 t).IsWhole := hstage1_3 ((cfg1.slots t 3).cast nbuf1_3)

set_option maxHeartbeats 1000000 in
/-- The body where the chunk index is zero: the inputs at their contents, the output at anything. It runs to its end
    holding the inputs as they were and the output buffer with the pieces its store wrote (the list the run finds). -/
noncomputable def kernelRun1_A (c : Dev nD) (i : grid1.Coords) (arg2 : Memref sig .tc .vmem S64x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S64x128 .f32) (harg5 : arg5.IsWhole) (hc0 : cond1_0 i) (hc1 : ¬cond1_1 i)
    (x0 : Vec F S64x4096 .bf16) (x1 : Vec F S4096x128 .bf16) (x2 : Vec F S1x128 .f32) :
    { L3 : List (View.Piece (Elt F) S64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__fc_kernel i arg2 harg2 arg3 harg3 arg4 harg4 arg5 harg5) K } := by
  refine ⟨?_, fun E K => ?run⟩
  case run =>
    simp only [cc1__fc_kernel_eq_skeleton]; unfold cc1__fc_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- The body where the chunk index is not zero: the inputs at their contents, the output at its running contents `xo3`.
    It runs to its end holding the inputs as they were and the output buffer with the pieces its store wrote. -/
noncomputable def kernelRun1_B (c : Dev nD) (i : grid1.Coords) (arg2 : Memref sig .tc .vmem S64x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S64x128 .f32) (harg5 : arg5.IsWhole) (hc0 : ¬cond1_0 i) (hc1 : cond1_1 i)
    (x0 : Vec F S64x4096 .bf16) (x1 : Vec F S4096x128 .bf16) (x2 : Vec F S1x128 .f32) (xo3 : Vec F S64x128 .f32) :
    { L3 : List (View.Piece (Elt F) S64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__fc_kernel i arg2 harg2 arg3 harg3 arg4 harg4 arg5 harg5) K } := by
  refine ⟨?_, fun E K => ?run⟩
  case run =>
    simp only [cc1__fc_kernel_eq_skeleton]; unfold cc1__fc_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.KFcBody.lean ====
import proofs.«167103_g2000007113644459_pallasbulk_1246_6_alg».proof.Proof.KFcRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The linear-layer region: its proof data and its body obligation

What the run leaves in the output block, point by point — the accumulation over the eight chunks —, packaged as the
launch's proof data: every input window's staging buffer holds its block at every point; the output's holds, at a point
with chunk index zero, the store of the first case read back, and at any other point the store of the second case over
what the point before left. The region has no buffer of its own: the invariant rides along untouched. -/

variable (V : (c : Dev nD) → (b : Ref sig .tc) → Buf (Elt F) ((c : Thread nD τ).loc b))

/-- The first case's one store of the output block covers it. -/
theorem cover1_A_3 (c : Dev nD) (i : grid1.Coords) (arg2 : Memref sig .tc .vmem S64x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S64x128 .f32) (harg5 : arg5.IsWhole) (hc0 : cond1_0 i) (hc1 : ¬cond1_1 i)
    (x0 : Vec F S64x4096 .bf16) (x1 : Vec F S4096x128 .bf16) (x2 : Vec F S1x128 .f32) (y : S64x128.Idx) :
    ∃ pc ∈ (kernelRun1_A c i arg2 harg2 arg3 harg3 arg4 harg4 arg5 harg5 hc0 hc1 x0 x1 x2).1, y ∈ pc.1.set :=
  View.cover_of_tiledL (kernelRun1_A c i arg2 harg2 arg3 harg3 arg4 harg4 arg5 harg5 hc0 hc1 x0 x1 x2).1 S64x128.size (by sl_kernel_rfl) y

/-- What the first case leaves in the output's staging buffer: its store read back. -/
def out1_A_3 (c : Dev nD) (i : grid1.Coords) (arg2 : Memref sig .tc .vmem S64x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S64x128 .f32) (harg5 : arg5.IsWhole) (hc0 : cond1_0 i) (hc1 : ¬cond1_1 i)
    (x0 : Vec F S64x4096 .bf16) (x1 : Vec F S4096x128 .bf16) (x2 : Vec F S1x128 .f32) : Vec F S64x128 .f32 :=
  VO1_3.read (Elt F) (VO1_3.writes (Elt F) VO1_3.junk (kernelRun1_A c i arg2 harg2 arg3 harg3 arg4 harg4 arg5 harg5 hc0 hc1 x0 x1 x2).1)

/-- The second case's one store of the output block covers it. -/
theorem cover1_B_3 (c : Dev nD) (i : grid1.Coords) (arg2 : Memref sig .tc .vmem S64x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S64x128 .f32) (harg5 : arg5.IsWhole) (hc0 : ¬cond1_0 i) (hc1 : cond1_1 i)
    (x0 : Vec F S64x4096 .bf16) (x1 : Vec F S4096x128 .bf16) (x2 : Vec F S1x128 .f32) (xo3 : Vec F S64x128 .f32) (y : S64x128.Idx) :
    ∃ pc ∈ (kernelRun1_B c i arg2 harg2 arg3 harg3 arg4 harg4 arg5 harg5 hc0 hc1 x0 x1 x2 xo3).1, y ∈ pc.1.set :=
  View.cover_of_tiledL (kernelRun1_B c i arg2 harg2 arg3 harg3 arg4 harg4 arg5 harg5 hc0 hc1 x0 x1 x2 xo3).1 S64x128.size (by sl_kernel_rfl) y

/-- What the second case leaves in the output's staging buffer: its store read back. -/
def out1_B_3 (c : Dev nD) (i : grid1.Coords) (arg2 : Memref sig .tc .vmem S64x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S64x128 .f32) (harg5 : arg5.IsWhole) (hc0 : ¬cond1_0 i) (hc1 : cond1_1 i)
    (x0 : Vec F S64x4096 .bf16) (x1 : Vec F S4096x128 .bf16) (x2 : Vec F S1x128 .f32) (xo3 : Vec F S64x128 .f32) : Vec F S64x128 .f32 :=
  VO1_3.read (Elt F) (VO1_3.writes (Elt F) VO1_3.junk (kernelRun1_B c i arg2 harg2 arg3 harg3 arg4 harg4 arg5 harg5 hc0 hc1 x0 x1 x2 xo3).1)

/-! ## What the output block holds after each point -/

/-- The accumulation: what the output's staging buffer holds after the body at position `n`. Where the chunk index is
    zero, the first case at the point's buffers and input blocks; elsewhere the second case, over what this leaves at
    `n - 1`. -/
def outsAt1 (c : Dev nD) : (n : ℕ) → n < cfg1.N → Vec F S64x128 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (fun h => (hcond1_1 ⟨0, hn⟩).mp h (Nat.zero_mod _)) (iblk1 V c 0 ⟨0, hn⟩) (iblk1 V c 1 ⟨0, hn⟩) (iblk1 V c 2 ⟨0, hn⟩)
  | n + 1, hn =>
    if h0 : (n + 1) % 8 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (fun h => (hcond1_1 ⟨n + 1, hn⟩).mp h h0) (iblk1 V c 0 ⟨n + 1, hn⟩) (iblk1 V c 1 ⟨n + 1, hn⟩) (iblk1 V c 2 ⟨n + 1, hn⟩)
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) ((hcond1_1 ⟨n + 1, hn⟩).mpr h0) (iblk1 V c 0 ⟨n + 1, hn⟩) (iblk1 V c 1 ⟨n + 1, hn⟩) (iblk1 V c 2 ⟨n + 1, hn⟩) (outsAt1 c n (Nat.lt_of_succ_lt hn))

/-- `outsAt1` at a point with chunk index zero: the first case's contents. -/
theorem outsAt1_A (c : Dev nD) (t : Fin cfg1.N) (h0 : t.val % 8 = 0) :
    outsAt1 V c t.val t.isLt = out1_A_3 c (grid1.coords t) (ms1_0 t) (hs1_0 t) (ms1_1 t) (hs1_1 t) (ms1_2 t) (hs1_2 t) (ms1_3 t) (hs1_3 t) ((hcond1_0 t).mpr h0) (fun h => (hcond1_1 t).mp h h0) (iblk1 V c 0 t) (iblk1 V c 1 t) (iblk1 V c 2 t) := by
  obtain ⟨n, hn⟩ := t
  cases n with
  | zero => exact rfl
  | succ n => exact (dif_pos h0).trans rfl

/-- `outsAt1` at any other point: the second case's contents, over what the point before left. -/
theorem outsAt1_B (c : Dev nD) (t : Fin cfg1.N) (h0 : ¬t.val % 8 = 0) :
    outsAt1 V c t.val t.isLt = out1_B_3 c (grid1.coords t) (ms1_0 t) (hs1_0 t) (ms1_1 t) (hs1_1 t) (ms1_2 t) (hs1_2 t) (ms1_3 t) (hs1_3 t) (fun h => h0 ((hcond1_0 t).mp h)) ((hcond1_1 t).mpr h0) (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The launch's proof data -/

/-- The launch's proof data on core `c`: the arrays as the region finds them; after the body each input's buffer at its
    block and the output's at `outsAt1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At a point with non-zero chunk index the output's staging buffer holds what the body left at the point before: the
    point is not the first, and the block is written back only after chunk seven, so not between the two. -/
theorem before1_3_B (c : Dev nD) (t : Fin cfg1.N) (h0 : ¬t.val % 8 = 0) (d) :
    (dat1 V c).before 3 t d = (outsAt1 V c (t.val - 1) (Nat.lt_of_le_of_lt (Nat.sub_le _ _) t.isLt)) := by
  have hN : t.val < 16 := lt_of_lt_of_eq t.isLt (show cfg1.N = 16 from N_1)
  rw [Dat.before_out_kept _ 3 rfl t (by omega) (Bool.eq_false_iff.mpr fun h => by have := (flush1_3 _).mp h; dsimp only at this; omega)
    hlive1_3 (fun _ _ => rfl)]
  dsimp only [dat1]

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 1600000 in
/-- The body at any point: the inputs' buffers hold their blocks; the chunk index says which case the point is in, and
    in the second case the output's buffer holds what the point before left; so the run applies. The invariant passes
    through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  by_cases h0 : t.val % 8 = 0
  · rw [outsAt1_A V c t h0]
    unfold out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (fun h => (hcond1_1 t).mp h h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _ _)
  · rw [outsAt1_B V c t h0]
    simp only [before1_3_B V c t h0]
    unfold out1_B_3
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_0 t).mp h)) ((hcond1_1 t).mpr h0) (iblk1 V c 0 t) (iblk1 V c 1 t) (iblk1 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _)

/-- The launch's body obligation, at every point. -/
theorem body_obligation1 (c : Dev nD) : BodyObligation (dat1 (F := F) V c) (defs₀ (F := F)) Variants.none () Set.univ := fun t => by
  rw [bigSep_W1, bigSep_W1]
  rw [show cfg1.idle 3 (cfg1.grid.coords t) = false from hlive1_3 _]
  exact sound_body1 V c t

end Cert.Kernel.Hand

end
-- ==== Proof.KRun.lean ====
import proofs.«167103_g2000007113644459_pallasbulk_1246_6_alg».proof.Proof.KConvBody
import proofs.«167103_g2000007113644459_pallasbulk_1246_6_alg».proof.Proof.KFcBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole run: host operations, the convolution launch, host operations, the linear-layer launch

The buffers' contents at each boundary are a fold from the launch memory: a stretch of host operations applies them; a
launch leaves its arrays at what its write-backs leave and every other buffer as it found it. Every weakly fair execution
terminates without a fault with every unscoped buffer at the last boundary's contents; the arguments read back through
the fold are the launch memory's. -/

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## No host operation and no launch writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 4).trans (((dat0 (V1 m ρ) c).arrAt_in 4 rfl _).trans (A_eq0 (V1 m ρ) c 4))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 2).trans (((dat1 (V3 m ρ) c).arrAt_in 2 rfl _).trans (A_eq1 (V3 m ρ) c 2))
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two launches as segments -/

set_option backward.isDefEq.respectTransparency.types false in
/-- Launch 0 over the thread state "every unscoped buffer at the boundary's contents, the generator register at some
    state, nothing owed": its arrays are split out of the unscoped buffers on entry and put back, at what the write-backs
    leave, on exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state "every unscoped buffer at the boundary's contents, the generator register at some
    state, nothing owed": its arrays are split out of the unscoped buffers on entry and put back, at what the write-backs
    leave, on exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every final
    state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩) (run_all m ρ)

/-- The run with the result named: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩) (run_all m ρ)

end Cert.Kernel.Hand

end
-- ==== Proof.KIConvRun.lean ====
import proofs.«167103_g2000007113644459_pallasbulk_1246_6_alg».proof.Proof.Gen.KernelIdeal.Launch
import proofs.«167103_g2000007113644459_pallasbulk_1246_6_alg».proof.Proof.Gen.KernelIdeal.Skeleton
import proofs.«167103_g2000007113644459_pallasbulk_1246_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The convolution region (the first kernel launch), at the contents `V` the region finds in the core's buffers

Sixteen images per grid point: the body zero-fills a padded copy of its image block, writes the block into the interior,
gathers the nine shifted 32×32 views side by side, multiplies by the 27×32 weights, adds the bias, clamps at zero, and
does the same once more on the 32-channel result with the 288×32 weights; the second result is the output block. -/

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not the point fetches it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, whether or not the point fetches it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, whether or not the point fetches it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, whether or not the point fetches it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, whether or not the point fetches it. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of the output window, through which the block's contents are stated. -/
abbrev VO0_5 : View sig .tc .vmem S16x1024x32 .bf16 := (Memref.whole cc0_stg5_0 : Memref sig .tc .vmem S16x1024x32 .bf16).view
abbrev ms0_0 (t : Fin cfg0.N) : Memref sig .tc .vmem S16x32x32x3 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S27x32 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S288x32 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x1024x32 .bf16 := win0_5.stage (cfg0.slots t 5)
abbrev hs0_5 (t : Fin cfg0.N) : (ms0_5 t).IsWhole := hstage0_5 ((cfg0.slots t 5).cast nbuf0_5)
/-- The two padded copies: whole buffers of the kernel's own. -/
abbrev scM0_0 : Memref sig .tc .vmem S16x34x34x3 .bf16 := Memref.whole cc0_scratch0
abbrev scM0_1 : Memref sig .tc .vmem S16x34x34x32 .bf16 := Memref.whole cc0_scratch1

/-- What the region's invariant holds besides the windows: the two padded copies and the other launch's staging
    buffers, each at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f)) ∗ (∃ r, prngReg c r)) := by
  unfold Pipeline.ΦA; rw [scopedRest0_eq]; simp only [scM0_0, scM0_1, owns_whole]; try rfl

set_option maxHeartbeats 4000000 in
/-- The body on any whole staging buffers: the inputs at their contents, the output and the two padded copies at anything.
    It runs to its end holding the inputs as they were, the padded copies at some contents, and the output buffer with the
    pieces its stores wrote (the list the run finds). -/
noncomputable def kernelRun0 (c : Dev nD) (i : grid0.Coords) (arg1 : Memref sig .tc .vmem S16x32x32x3 .bf16) (harg1 : arg1.IsWhole) (arg2 : Memref sig .tc .vmem S27x32 .bf16) (harg2 : arg2.IsWhole) (arg3 : Memref sig .tc .vmem S1x32 .f32) (harg3 : arg3.IsWhole) (arg4 : Memref sig .tc .vmem S288x32 .bf16) (harg4 : arg4.IsWhole) (arg5 : Memref sig .tc .vmem S1x32 .f32) (harg5 : arg5.IsWhole) (arg6 : Memref sig .tc .vmem S16x1024x32 .bf16) (harg6 : arg6.IsWhole) (arg7 : Memref sig .tc .vmem S16x34x34x3 .bf16) (harg7 : arg7.IsWhole) (arg8 : Memref sig .tc .vmem S16x34x34x32 .bf16) (harg8 : arg8.IsWhole)
    (x0 : Vec F S16x32x32x3 .bf16) (x1 : Vec F S27x32 .bf16) (x2 : Vec F S1x32 .f32) (x3 : Vec F S288x32 .bf16) (x4 : Vec F S1x32 .f32) :
    { L5 : List (View.Piece (Elt F) S16x1024x32 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d) ∗ (∃ d, owns (c : Thread nD τ) arg8 fullShare d)) -∗ K ⟨⟩))
          ⊢ wp frame (wpE (defs₀ (F := F)) Variants.none c none) E (cc0__conv_kernel i arg1 harg1 arg2 harg2 arg3 harg3 arg4 harg4 arg5 harg5 arg6 harg6 arg7 harg7 arg8 harg8) K } := by
  refine ⟨?_, fun E K => ?run⟩
  case run =>
    simp only [cc0__conv_kernel_eq_skeleton]; unfold cc0__conv_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _, _; isplitr; swap; · iexact HS0
      ipureintro; rfl
    iexists _, _; isplitr; swap; · iexact HS1
    ipureintro; rfl

end Cert.KernelIdeal.Hand

end
-- ==== Proof.KIConvBody.lean ====
import proofs.«167103_g2000007113644459_pallasbulk_1246_6_alg».proof.Proof.KIConvRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The convolution region: its proof data and its body obligation

What the run leaves in the output block, point by point, packaged as the launch's proof data: every input window's
staging buffer holds its block at every point, the output's holds the body's stores read back; the two padded copies and
the generator register ride along in the invariant. -/

variable (V : (c : Dev nD) → (b : Ref sig .tc) → Buf (Elt F) ((c : Thread nD τ).loc b))

/-- The run's one store of the output block covers it. -/
theorem cover0_5 (c : Dev nD) (i : grid0.Coords) (arg1 : Memref sig .tc .vmem S16x32x32x3 .bf16) (harg1 : arg1.IsWhole) (arg2 : Memref sig .tc .vmem S27x32 .bf16) (harg2 : arg2.IsWhole) (arg3 : Memref sig .tc .vmem S1x32 .f32) (harg3 : arg3.IsWhole) (arg4 : Memref sig .tc .vmem S288x32 .bf16) (harg4 : arg4.IsWhole) (arg5 : Memref sig .tc .vmem S1x32 .f32) (harg5 : arg5.IsWhole) (arg6 : Memref sig .tc .vmem S16x1024x32 .bf16) (harg6 : arg6.IsWhole) (arg7 : Memref sig .tc .vmem S16x34x34x3 .bf16) (harg7 : arg7.IsWhole) (arg8 : Memref sig .tc .vmem S16x34x34x32 .bf16) (harg8 : arg8.IsWhole)
    (x0 : Vec F S16x32x32x3 .bf16) (x1 : Vec F S27x32 .bf16) (x2 : Vec F S1x32 .f32) (x3 : Vec F S288x32 .bf16) (x4 : Vec F S1x32 .f32) (y : S16x1024x32.Idx) :
    ∃ pc ∈ (kernelRun0 c i arg1 harg1 arg2 harg2 arg3 harg3 arg4 harg4 arg5 harg5 arg6 harg6 arg7 harg7 arg8 harg8 x0 x1 x2 x3 x4).1, y ∈ pc.1.set :=
  View.cover_of_tiledL (kernelRun0 c i arg1 harg1 arg2 harg2 arg3 harg3 arg4 harg4 arg5 harg5 arg6 harg6 arg7 harg7 arg8 harg8 x0 x1 x2 x3 x4).1 S16x1024x32.size (by sl_kernel_rfl) y

/-- What the run leaves in the output's staging buffer: its stores read back. -/
def out0_5 (c : Dev nD) (i : grid0.Coords) (arg1 : Memref sig .tc .vmem S16x32x32x3 .bf16) (harg1 : arg1.IsWhole) (arg2 : Memref sig .tc .vmem S27x32 .bf16) (harg2 : arg2.IsWhole) (arg3 : Memref sig .tc .vmem S1x32 .f32) (harg3 : arg3.IsWhole) (arg4 : Memref sig .tc .vmem S288x32 .bf16) (harg4 : arg4.IsWhole) (arg5 : Memref sig .tc .vmem S1x32 .f32) (harg5 : arg5.IsWhole) (arg6 : Memref sig .tc .vmem S16x1024x32 .bf16) (harg6 : arg6.IsWhole) (arg7 : Memref sig .tc .vmem S16x34x34x3 .bf16) (harg7 : arg7.IsWhole) (arg8 : Memref sig .tc .vmem S16x34x34x32 .bf16) (harg8 : arg8.IsWhole)
    (x0 : Vec F S16x32x32x3 .bf16) (x1 : Vec F S27x32 .bf16) (x2 : Vec F S1x32 .f32) (x3 : Vec F S288x32 .bf16) (x4 : Vec F S1x32 .f32) : Vec F S16x1024x32 .bf16 :=
  VO0_5.read (Elt F) (VO0_5.writes (Elt F) VO0_5.junk (kernelRun0 c i arg1 harg1 arg2 harg2 arg3 harg3 arg4 harg4 arg5 harg5 arg6 harg6 arg7 harg7 arg8 harg8 x0 x1 x2 x3 x4).1)

/-- The output block after the body at point `t`: the run at the point's staging buffers and input blocks. -/
def outsAt0 (c : Dev nD) (t : Fin cfg0.N) : Vec F S16x1024x32 .bf16 :=
  out0_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk0 V c 0 t) (iblk0 V c 1 t) (iblk0 V c 2 t) (iblk0 V c 3 t) (iblk0 V c 4 t)

/-- The launch's proof data on core `c`: the arrays as the region finds them; after the body each input's buffer at its
    block and the output's at `outsAt0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 1600000 in
/-- The body at any point: the inputs' buffers hold their blocks, so the run applies; the invariant hands the body its two
    padded copies at some contents and takes them back at some contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  rw [show (dat0 V c).Φ t.castSucc = Pipeline.ΦA spec0 c from rfl, PhiA0_eq]
  unfold outsAt0
  unfold out0_5
  iintro ⟨⟨⟨HS0, HS1, HR2, HR3, HR4, HR5, HR6, HR7, HR8⟩, Hg⟩, Ho, ⟨%d0, H0⟩, ⟨%d1, H1⟩, ⟨%d2, H2⟩, ⟨%d3, H3⟩, ⟨%d4, H4⟩, ⟨%d5, H5⟩⟩
  iapply ((kernelRun0 c (grid0.coords t) _ _ _ _ _ _ _ _ _ _ _ _ _ _ _ _ (iblk0 V c 0 t) (iblk0 V c 1 t) (iblk0 V c 2 t) (iblk0 V c 3 t) (iblk0 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, ⟨%e5, H5⟩, HS0, HS1⟩
  isplitl [HS0 HS1 HR2 HR3 HR4 HR5 HR6 HR7 HR8 Hg]
  · isplitl [HS0 HS1 HR2 HR3 HR4 HR5 HR6 HR7 HR8]
    · isplitl [HS0]
      · iexact HS0
      isplitl [HS1]
      · iexact HS1
      isplitl [HR2]
      · iexact HR2
      isplitl [HR3]
      · iexact HR3
      isplitl [HR4]
      · iexact HR4
      isplitl [HR5]
      · iexact HR5
      isplitl [HR6]
      · iexact HR6
      isplitl [HR7]
      · iexact HR7
      iexact HR8
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_5 c _ _ _ _ _ _ _ _ _ _ _ _ _ _ _ _ _ _ _ _ _ _)

/-- The launch's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIFcRun.lean ====
import proofs.«167103_g2000007113644459_pallasbulk_1246_6_alg».proof.Proof.Gen.KernelIdeal.Launch
import proofs.«167103_g2000007113644459_pallasbulk_1246_6_alg».proof.Proof.Gen.KernelIdeal.Skeleton
import proofs.«167103_g2000007113644459_pallasbulk_1246_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The linear-layer region (the second kernel launch), at the contents `V` the region finds in the core's buffers

A 2 × 8 grid: point `(m, k)` multiplies the 64 × 4096 block `(m, k)` of the features by the 4096 × 128 block `k` of the
weights. At `k = 0` the product plus the bias row is stored into the 64 × 128 output block `m`; at `k ≠ 0` the product is
added to what the block holds. The block is written back after `k = 7`. -/

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether or not the point fetches it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, whether or not the point fetches it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, whether or not the point fetches it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- The first conditional's condition: the chunk index is zero. -/
abbrev cond1_0 (i : grid1.Coords) : Prop := k1_cond1 i = 1#1
/-- The second conditional's condition: the chunk index is not zero. -/
abbrev cond1_1 (i : grid1.Coords) : Prop := k1_cond2 i = 1#1

/-- The first holds exactly at the points with `k = 0`, -/
theorem hcond1_0 : ∀ t : Fin cfg1.N, cond1_0 (grid1.coords t) ↔ t.val % 8 = 0 :=
  (by decide +kernel : ∀ t : Fin grid1.N, cond1_0 (grid1.coords t) ↔ t.val % 8 = 0)
/-- the second exactly at the others. -/
theorem hcond1_1 : ∀ t : Fin cfg1.N, cond1_1 (grid1.coords t) ↔ t.val % 8 ≠ 0 :=
  (by decide +kernel : ∀ t : Fin grid1.N, cond1_1 (grid1.coords t) ↔ t.val % 8 ≠ 0)

/-- One of the two conditions holds at every grid coordinate: the output block is stored at every point. -/
theorem hlive1_3 : ∀ i : grid1.Coords, cfg1.idle 3 i = false := by decide +kernel

/-! ## The body on any whole staging buffers -/

/-- One staging buffer of the output window, through which the block's contents are stated. -/
abbrev VO1_3 : View sig .tc .vmem S64x128 .f32 := (Memref.whole cc1_stg3_0 : Memref sig .tc .vmem S64x128 .f32).view
abbrev ms1_0 (t : Fin cfg1.N) : Memref sig .tc .vmem S64x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x128 .f32 := win1_3.stage (cfg1.slots t 3)
abbrev hs1_3 (t : Fin cfg1.N) : (ms1_3 t).IsWhole := hstage1_3 ((cfg1.slots t 3).cast nbuf1_3)

set_option maxHeartbeats 1000000 in
/-- The body where the chunk index is zero: the inputs at their contents, the output at anything. It runs to its end
    holding the inputs as they were and the output buffer with the pieces its store wrote (the list the run finds). -/
noncomputable def kernelRun1_A (c : Dev nD) (i : grid1.Coords) (arg2 : Memref sig .tc .vmem S64x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S64x128 .f32) (harg5 : arg5.IsWhole) (hc0 : cond1_0 i) (hc1 : ¬cond1_1 i)
    (x0 : Vec F S64x4096 .bf16) (x1 : Vec F S4096x128 .bf16) (x2 : Vec F S1x128 .f32) :
    { L3 : List (View.Piece (Elt F) S64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__fc_kernel i arg2 harg2 arg3 harg3 arg4 harg4 arg5 harg5) K } := by
  refine ⟨?_, fun E K => ?run⟩
  case run =>
    simp only [cc1__fc_kernel_eq_skeleton]; unfold cc1__fc_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- The body where the chunk index is not zero: the inputs at their contents, the output at its running contents `xo3`.
    It runs to its end holding the inputs as they were and the output buffer with the pieces its store wrote. -/
noncomputable def kernelRun1_B (c : Dev nD) (i : grid1.Coords) (arg2 : Memref sig .tc .vmem S64x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S64x128 .f32) (harg5 : arg5.IsWhole) (hc0 : ¬cond1_0 i) (hc1 : cond1_1 i)
    (x0 : Vec F S64x4096 .bf16) (x1 : Vec F S4096x128 .bf16) (x2 : Vec F S1x128 .f32) (xo3 : Vec F S64x128 .f32) :
    { L3 : List (View.Piece (Elt F) S64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__fc_kernel i arg2 harg2 arg3 harg3 arg4 harg4 arg5 harg5) K } := by
  refine ⟨?_, fun E K => ?run⟩
  case run =>
    simp only [cc1__fc_kernel_eq_skeleton]; unfold cc1__fc_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KIFcBody.lean ====
import proofs.«167103_g2000007113644459_pallasbulk_1246_6_alg».proof.Proof.KIFcRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The linear-layer region: its proof data and its body obligation

What the run leaves in the output block, point by point — the accumulation over the eight chunks —, packaged as the
launch's proof data: every input window's staging buffer holds its block at every point; the output's holds, at a point
with chunk index zero, the store of the first case read back, and at any other point the store of the second case over
what the point before left. The region has no buffer of its own: the invariant rides along untouched. -/

variable (V : (c : Dev nD) → (b : Ref sig .tc) → Buf (Elt F) ((c : Thread nD τ).loc b))

/-- The first case's one store of the output block covers it. -/
theorem cover1_A_3 (c : Dev nD) (i : grid1.Coords) (arg2 : Memref sig .tc .vmem S64x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S64x128 .f32) (harg5 : arg5.IsWhole) (hc0 : cond1_0 i) (hc1 : ¬cond1_1 i)
    (x0 : Vec F S64x4096 .bf16) (x1 : Vec F S4096x128 .bf16) (x2 : Vec F S1x128 .f32) (y : S64x128.Idx) :
    ∃ pc ∈ (kernelRun1_A c i arg2 harg2 arg3 harg3 arg4 harg4 arg5 harg5 hc0 hc1 x0 x1 x2).1, y ∈ pc.1.set :=
  View.cover_of_tiledL (kernelRun1_A c i arg2 harg2 arg3 harg3 arg4 harg4 arg5 harg5 hc0 hc1 x0 x1 x2).1 S64x128.size (by sl_kernel_rfl) y

/-- What the first case leaves in the output's staging buffer: its store read back. -/
def out1_A_3 (c : Dev nD) (i : grid1.Coords) (arg2 : Memref sig .tc .vmem S64x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S64x128 .f32) (harg5 : arg5.IsWhole) (hc0 : cond1_0 i) (hc1 : ¬cond1_1 i)
    (x0 : Vec F S64x4096 .bf16) (x1 : Vec F S4096x128 .bf16) (x2 : Vec F S1x128 .f32) : Vec F S64x128 .f32 :=
  VO1_3.read (Elt F) (VO1_3.writes (Elt F) VO1_3.junk (kernelRun1_A c i arg2 harg2 arg3 harg3 arg4 harg4 arg5 harg5 hc0 hc1 x0 x1 x2).1)

/-- The second case's one store of the output block covers it. -/
theorem cover1_B_3 (c : Dev nD) (i : grid1.Coords) (arg2 : Memref sig .tc .vmem S64x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S64x128 .f32) (harg5 : arg5.IsWhole) (hc0 : ¬cond1_0 i) (hc1 : cond1_1 i)
    (x0 : Vec F S64x4096 .bf16) (x1 : Vec F S4096x128 .bf16) (x2 : Vec F S1x128 .f32) (xo3 : Vec F S64x128 .f32) (y : S64x128.Idx) :
    ∃ pc ∈ (kernelRun1_B c i arg2 harg2 arg3 harg3 arg4 harg4 arg5 harg5 hc0 hc1 x0 x1 x2 xo3).1, y ∈ pc.1.set :=
  View.cover_of_tiledL (kernelRun1_B c i arg2 harg2 arg3 harg3 arg4 harg4 arg5 harg5 hc0 hc1 x0 x1 x2 xo3).1 S64x128.size (by sl_kernel_rfl) y

/-- What the second case leaves in the output's staging buffer: its store read back. -/
def out1_B_3 (c : Dev nD) (i : grid1.Coords) (arg2 : Memref sig .tc .vmem S64x4096 .bf16) (harg2 : arg2.IsWhole) (arg3 : Memref sig .tc .vmem S4096x128 .bf16) (harg3 : arg3.IsWhole) (arg4 : Memref sig .tc .vmem S1x128 .f32) (harg4 : arg4.IsWhole) (arg5 : Memref sig .tc .vmem S64x128 .f32) (harg5 : arg5.IsWhole) (hc0 : ¬cond1_0 i) (hc1 : cond1_1 i)
    (x0 : Vec F S64x4096 .bf16) (x1 : Vec F S4096x128 .bf16) (x2 : Vec F S1x128 .f32) (xo3 : Vec F S64x128 .f32) : Vec F S64x128 .f32 :=
  VO1_3.read (Elt F) (VO1_3.writes (Elt F) VO1_3.junk (kernelRun1_B c i arg2 harg2 arg3 harg3 arg4 harg4 arg5 harg5 hc0 hc1 x0 x1 x2 xo3).1)

/-! ## What the output block holds after each point -/

/-- The accumulation: what the output's staging buffer holds after the body at position `n`. Where the chunk index is
    zero, the first case at the point's buffers and input blocks; elsewhere the second case, over what this leaves at
    `n - 1`. -/
def outsAt1 (c : Dev nD) : (n : ℕ) → n < cfg1.N → Vec F S64x128 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (fun h => (hcond1_1 ⟨0, hn⟩).mp h (Nat.zero_mod _)) (iblk1 V c 0 ⟨0, hn⟩) (iblk1 V c 1 ⟨0, hn⟩) (iblk1 V c 2 ⟨0, hn⟩)
  | n + 1, hn =>
    if h0 : (n + 1) % 8 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (fun h => (hcond1_1 ⟨n + 1, hn⟩).mp h h0) (iblk1 V c 0 ⟨n + 1, hn⟩) (iblk1 V c 1 ⟨n + 1, hn⟩) (iblk1 V c 2 ⟨n + 1, hn⟩)
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) ((hcond1_1 ⟨n + 1, hn⟩).mpr h0) (iblk1 V c 0 ⟨n + 1, hn⟩) (iblk1 V c 1 ⟨n + 1, hn⟩) (iblk1 V c 2 ⟨n + 1, hn⟩) (outsAt1 c n (Nat.lt_of_succ_lt hn))

/-- `outsAt1` at a point with chunk index zero: the first case's contents. -/
theorem outsAt1_A (c : Dev nD) (t : Fin cfg1.N) (h0 : t.val % 8 = 0) :
    outsAt1 V c t.val t.isLt = out1_A_3 c (grid1.coords t) (ms1_0 t) (hs1_0 t) (ms1_1 t) (hs1_1 t) (ms1_2 t) (hs1_2 t) (ms1_3 t) (hs1_3 t) ((hcond1_0 t).mpr h0) (fun h => (hcond1_1 t).mp h h0) (iblk1 V c 0 t) (iblk1 V c 1 t) (iblk1 V c 2 t) := by
  obtain ⟨n, hn⟩ := t
  cases n with
  | zero => exact rfl
  | succ n => exact (dif_pos h0).trans rfl

/-- `outsAt1` at any other point: the second case's contents, over what the point before left. -/
theorem outsAt1_B (c : Dev nD) (t : Fin cfg1.N) (h0 : ¬t.val % 8 = 0) :
    outsAt1 V c t.val t.isLt = out1_B_3 c (grid1.coords t) (ms1_0 t) (hs1_0 t) (ms1_1 t) (hs1_1 t) (ms1_2 t) (hs1_2 t) (ms1_3 t) (hs1_3 t) (fun h => h0 ((hcond1_0 t).mp h)) ((hcond1_1 t).mpr h0) (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The launch's proof data -/

/-- The launch's proof data on core `c`: the arrays as the region finds them; after the body each input's buffer at its
    block and the output's at `outsAt1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At a point with non-zero chunk index the output's staging buffer holds what the body left at the point before: the
    point is not the first, and the block is written back only after chunk seven, so not between the two. -/
theorem before1_3_B (c : Dev nD) (t : Fin cfg1.N) (h0 : ¬t.val % 8 = 0) (d) :
    (dat1 V c).before 3 t d = (outsAt1 V c (t.val - 1) (Nat.lt_of_le_of_lt (Nat.sub_le _ _) t.isLt)) := by
  have hN : t.val < 16 := lt_of_lt_of_eq t.isLt (show cfg1.N = 16 from N_1)
  rw [Dat.before_out_kept _ 3 rfl t (by omega) (Bool.eq_false_iff.mpr fun h => by have := (flush1_3 _).mp h; dsimp only at this; omega)
    hlive1_3 (fun _ _ => rfl)]
  dsimp only [dat1]

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 1600000 in
/-- The body at any point: the inputs' buffers hold their blocks; the chunk index says which case the point is in, and
    in the second case the output's buffer holds what the point before left; so the run applies. The invariant passes
    through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  by_cases h0 : t.val % 8 = 0
  · rw [outsAt1_A V c t h0]
    unfold out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (fun h => (hcond1_1 t).mp h h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _ _)
  · rw [outsAt1_B V c t h0]
    simp only [before1_3_B V c t h0]
    unfold out1_B_3
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_0 t).mp h)) ((hcond1_1 t).mpr h0) (iblk1 V c 0 t) (iblk1 V c 1 t) (iblk1 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _)

/-- The launch's body obligation, at every point. -/
theorem body_obligation1 (c : Dev nD) : BodyObligation (dat1 (F := F) V c) (defs₀ (F := F)) Variants.none () Set.univ := fun t => by
  rw [bigSep_W1, bigSep_W1]
  rw [show cfg1.idle 3 (cfg1.grid.coords t) = false from hlive1_3 _]
  exact sound_body1 V c t

end Cert.KernelIdeal.Hand

end
-- ==== Proof.KIRun.lean ====
import proofs.«167103_g2000007113644459_pallasbulk_1246_6_alg».proof.Proof.KIConvBody
import proofs.«167103_g2000007113644459_pallasbulk_1246_6_alg».proof.Proof.KIFcBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole run: host operations, the convolution launch, host operations, the linear-layer launch

The buffers' contents at each boundary are a fold from the launch memory: a stretch of host operations applies them; a
launch leaves its arrays at what its write-backs leave and every other buffer as it found it. Every weakly fair execution
terminates without a fault with every unscoped buffer at the last boundary's contents; the arguments read back through
the fold are the launch memory's. -/

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## No host operation and no launch writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 4).trans (((dat0 (V1 m ρ) c).arrAt_in 4 rfl _).trans (A_eq0 (V1 m ρ) c 4))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 2).trans (((dat1 (V3 m ρ) c).arrAt_in 2 rfl _).trans (A_eq1 (V3 m ρ) c 2))
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two launches as segments -/

set_option backward.isDefEq.respectTransparency.types false in
/-- Launch 0 over the thread state "every unscoped buffer at the boundary's contents, the generator register at some
    state, nothing owed": its arrays are split out of the unscoped buffers on entry and put back, at what the write-backs
    leave, on exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state "every unscoped buffer at the boundary's contents, the generator register at some
    state, nothing owed": its arrays are split out of the unscoped buffers on entry and put back, at what the write-backs
    leave, on exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every final
    state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩) (run_all m ρ)

/-- The run with the result named: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩) (run_all m ρ)

end Cert.KernelIdeal.Hand

end
-- ==== Proof.Spec.lean ====
import Idealize.ShloMosaic.PureOps.Ideal
import Idealize.ShloMosaic.PureOps.Ideal.Laws
import Idealize.ShloMosaic.Lib.ValueIdx

noncomputable section

open scoped BigOperators

/-! # What the two programs compute, on the extended reals

An image batch in (image, row, column, channel) order goes through two 3×3 "same" convolutions, each followed by a bias
and a clamp at zero; the 32 × 32 × 32 result of each image is laid out flat (row, column, channel) and multiplied by a
32768 × 128 matrix, plus a bias. A convolution is written as ONE sum over the 9·C taps `k`, the tap's row offset
`k / (3·C)`, its column offset `k / C % 3` and its channel `k % C` — the order of the weight matrix's rows —, over the image
padded by one ring of zeros. Arrays are read at natural-number coordinates, zero outside their extents. -/

namespace Cert.Spec

open Idealize.ShloMosaic Idealize.ShloMosaic.ValueIdx

/-- A rank-2 array read at natural coordinates (zero outside). -/
def rd2 {n0 n1 : ℕ} (x : (⟨2, ![n0, n1]⟩ : Shape).Idx → EReal) (a b : ℕ) : EReal :=
  if h : a < n0 ∧ b < n1 then x (ix2 ⟨a, h.1⟩ ⟨b, h.2⟩) else 0

/-- A rank-4 array read at natural coordinates (zero outside). -/
def rd4 {n0 n1 n2 n3 : ℕ} (x : (⟨4, ![n0, n1, n2, n3]⟩ : Shape).Idx → EReal) (a b c d : ℕ) : EReal :=
  if h : a < n0 ∧ b < n1 ∧ c < n2 ∧ d < n3 then x (ix4 ⟨a, h.1⟩ ⟨b, h.2.1⟩ ⟨c, h.2.2.1⟩ ⟨d, h.2.2.2⟩) else 0

theorem rd2_of_lt {n0 n1 : ℕ} (x : (⟨2, ![n0, n1]⟩ : Shape).Idx → EReal) (a : Fin n0) (b : Fin n1) :
    rd2 x a.val b.val = x (ix2 a b) := dif_pos ⟨a.isLt, b.isLt⟩

theorem rd4_of_lt {n0 n1 n2 n3 : ℕ} (x : (⟨4, ![n0, n1, n2, n3]⟩ : Shape).Idx → EReal) (a : Fin n0) (b : Fin n1) (c : Fin n2) (d : Fin n3) :
    rd4 x a.val b.val c.val d.val = x (ix4 a b c d) := dif_pos ⟨a.isLt, b.isLt, c.isLt, d.isLt⟩

/-- One image (row, column, channel) with a ring of zeros around it: padded coordinates `1 … 32` are the image's `0 … 31`. -/
def pad (g : ℕ → ℕ → ℕ → EReal) (i j c : ℕ) : EReal :=
  if 1 ≤ i ∧ i ≤ 32 ∧ 1 ≤ j ∧ j ≤ 32 then g (i - 1) (j - 1) c else 0

/-- A 3×3 same-convolution of an image with `C` channels by a `K = 9·C`-row weight matrix, plus bias, clamped at zero, at
    output pixel `(h, w)` and output channel `o`. -/
def conv (K C : ℕ) (g : ℕ → ℕ → ℕ → EReal) (wt : (⟨2, ![K, 32]⟩ : Shape).Idx → EReal) (bias : (⟨2, ![1, 32]⟩ : Shape).Idx → EReal)
    (h w o : ℕ) : EReal :=
  max ((∑ k : Fin K, pad g (h + k.val / (3 * C)) (w + k.val / C % 3) (k.val % C) * rd2 wt k.val o) + rd2 bias 0 o) 0

/-- Image `b` of a batch in (image, row, column, channel) order. -/
def img (x : (⟨4, ![128, 32, 32, 3]⟩ : Shape).Idx → EReal) (b : ℕ) : ℕ → ℕ → ℕ → EReal := fun h w c => rd4 x b h w c

/-- The first convolution's result for image `b`. -/
def hid (x : (⟨4, ![128, 32, 32, 3]⟩ : Shape).Idx → EReal) (w1 : (⟨2, ![27, 32]⟩ : Shape).Idx → EReal) (b1 : (⟨2, ![1, 32]⟩ : Shape).Idx → EReal)
    (b : ℕ) : ℕ → ℕ → ℕ → EReal := fun h w o => conv 27 3 (img x b) w1 b1 h w o

/-- The two convolutions' result, as the array [image, row·32 + column, channel]. -/
def convOut (x : (⟨4, ![128, 32, 32, 3]⟩ : Shape).Idx → EReal) (w1 : (⟨2, ![27, 32]⟩ : Shape).Idx → EReal) (b1 : (⟨2, ![1, 32]⟩ : Shape).Idx → EReal)
    (w2 : (⟨2, ![288, 32]⟩ : Shape).Idx → EReal) (b2 : (⟨2, ![1, 32]⟩ : Shape).Idx → EReal) : (⟨3, ![128, 1024, 32]⟩ : Shape).Idx → EReal :=
  fun j => conv 288 32 (hid x w1 b1 (j 0).val) w2 b2 ((j 1).val / 32) ((j 1).val % 32) (j 2).val

/-- The final linear layer: row `r` of the flattened features times the weight matrix, plus the bias. -/
def fcOut (xf : (⟨2, ![128, 32768]⟩ : Shape).Idx → EReal) (wt : (⟨2, ![32768, 128]⟩ : Shape).Idx → EReal) (bias : (⟨2, ![1, 128]⟩ : Shape).Idx → EReal) :
    (⟨2, ![128, 128]⟩ : Shape).Idx → EReal :=
  fun j => (∑ k : Fin 32768, xf (ix2 (j 0) k) * wt (ix2 k (j 1))) + bias (ix2 0 (j 1))

end Cert.Spec

end
-- ==== Proof.KIResult.lean ====
import proofs.«167103_g2000007113644459_pallasbulk_1246_6_alg».proof.Proof.KIRun
import proofs.«167103_g2000007113644459_pallasbulk_1246_6_alg».proof.Proof.Spec

/-! # The kernel program's result is the specification, composed

The last boundary valuation at the result buffer is the linear-layer launch's result array, which is the
specification's linear layer of that launch's entry contents; the flattened features there are the host reshape of
the convolution launch's result array, which is the specification's convolution stack of its entry contents; the
image batch there is the host transpose of the launch input, and every weight is the launch memory's — each through a
change of float format, which is the identity on the extended reals —; every bias is the launch memory's. The
transpose and the reshape stay as the printed operations applied to arrays. -/

noncomputable section

namespace Cert.KernelIdeal.Result

open Idealize.ShloMosaic Idealize.ShloMosaic.ValueIdx Idealize.ShloMosaic.TcCoe
open Cert.KernelIdeal Cert.KernelIdeal.Gen Cert.KernelIdeal.Hand

variable (m : (ℓ : Loc nD τ sig) → Buf (Elt Ideal) ℓ) (ρ : Dev nD → PrngReg)

/-! ## The convolution launch's entry contents -/

/-- The image batch the convolution launch reads is the host transpose of the launch input. -/
theorem V1_img (c : Dev nD) :
    (V1 m ρ c main_v1 : S128x32x32x3.Idx → EReal)
      = transpose S128x32x32x3 [0, 2, 3, 1] (m ((c : Thread nD τ).loc main_arg6) : S128x3x32x32.Idx → EReal) transposes_S128x3x32x32_S128x32x32x3_0_2_3_1 := by
  show StableHlo.after hostOps0 (W0 m ρ c) (Proc.devRef .tc main_v1) = _
  after_results
  rfl

/-- The two convolution weight matrices there are the launch memory's. -/
theorem V1_w1 (c : Dev nD) : (V1 m ρ c main_v2 : S27x32.Idx → EReal) = (m ((c : Thread nD τ).loc main_arg0) : S27x32.Idx → EReal) := by
  show StableHlo.after hostOps0 (W0 m ρ c) (Proc.devRef .tc main_v2) = _
  after_results
  rfl
theorem V1_w2 (c : Dev nD) : (V1 m ρ c main_v3 : S288x32.Idx → EReal) = (m ((c : Thread nD τ).loc main_arg2) : S288x32.Idx → EReal) := by
  show StableHlo.after hostOps0 (W0 m ρ c) (Proc.devRef .tc main_v3) = _
  after_results
  rfl

/-- No host operation before the launch writes a bias. -/
theorem V1_b1 (c : Dev nD) : V1 m ρ c main_arg1 = m ((c : Thread nD τ).loc main_arg1) := by
  show StableHlo.after hostOps0 (W0 m ρ c) (Proc.devRef .tc main_arg1) = _
  after_results
theorem V1_b2 (c : Dev nD) : V1 m ρ c main_arg3 = m ((c : Thread nD τ).loc main_arg3) := by
  show StableHlo.after hostOps0 (W0 m ρ c) (Proc.devRef .tc main_arg3) = _
  after_results

/-! ## The linear-layer launch's entry contents -/

/-- The flattened features the linear-layer launch reads are the host reshape of the convolution launch's result array. -/
theorem V3_feat (c : Dev nD) :
    (V3 m ρ c main_v5 : S128x32768.Idx → EReal)
      = shapeCast S128x32768 ((dat0 (V1 m ρ) c).arrAt 5 cfg0.N : S128x1024x32.Idx → EReal) shapeCasts_S128x1024x32_S128x32768 := by
  show StableHlo.after hostOps1 (W2 m ρ c) (Proc.devRef .tc main_v5) = _
  after_results
  rw [show W2 m ρ c (Proc.devRef .tc main_v4) = (dat0 (V1 m ρ) c).arrAt 5 cfg0.N from W2_arr m ρ c 5]
  rfl

/-- The linear layer's weight matrix there is the launch memory's: the convolution launch and the host operations
    before it leave it alone. -/
theorem W1_arg4 (c : Dev nD) : W1 m ρ c (Proc.devRef .tc main_arg4) = m ((c : Thread nD τ).loc main_arg4) := by
  show StableHlo.after hostOps0 (W0 m ρ c) (Proc.devRef .tc main_arg4) = _
  after_results
theorem V3_w (c : Dev nD) : (V3 m ρ c main_v6 : S32768x128.Idx → EReal) = (m ((c : Thread nD τ).loc main_arg4) : S32768x128.Idx → EReal) := by
  show StableHlo.after hostOps1 (W2 m ρ c) (Proc.devRef .tc main_v6) = _
  after_results
  rw [W2_of_ne m ρ c main_arg4 (by decide), W1_arg4]
  rfl
/-- and so is its bias. -/
theorem V3_b (c : Dev nD) : V3 m ρ c main_arg5 = m ((c : Thread nD τ).loc main_arg5) := by
  show StableHlo.after hostOps1 (W2 m ρ c) (Proc.devRef .tc main_arg5) = _
  after_results
  rw [W2_of_ne m ρ c main_arg5 (by decide)]
  show StableHlo.after hostOps0 (W0 m ρ c) (Proc.devRef .tc main_arg5) = _
  after_results

/-! ## The result -/

/-- The kernel program's result buffer at the end of the run, given that each launch's result array is the
    specification's function of its entry contents (`hconv`, `hfc`): the specification's linear layer of the reshaped
    convolution stack of the transposed input. -/
theorem result_eq
    (hconv : ∀ (V : (c : Dev nD) → (b : Ref sig .tc) → Buf (Elt Ideal) ((c : Thread nD τ).loc b)) (c : Dev nD),
      (dat0 (F := Ideal) V c).arrAt 5 cfg0.N
        = Cert.Spec.convOut (V c main_v1) (V c main_v2) (V c main_arg1) (V c main_v3) (V c main_arg3))
    (hfc : ∀ (V : (c : Dev nD) → (b : Ref sig .tc) → Buf (Elt Ideal) ((c : Thread nD τ).loc b)) (c : Dev nD),
      (dat1 (F := Ideal) V c).arrAt 3 cfg1.N
        = Cert.Spec.fcOut (V c main_v5) (V c main_v6) (V c main_arg5))
    (c : Dev nD) :
    (W4 m ρ c (Proc.devRef .tc main_v7) : S128x128.Idx → EReal)
      = Cert.Spec.fcOut
          (shapeCast S128x32768
            (Cert.Spec.convOut
              (transpose S128x32x32x3 [0, 2, 3, 1] (m ((c : Thread nD τ).loc main_arg6) : S128x3x32x32.Idx → EReal) transposes_S128x3x32x32_S128x32x32x3_0_2_3_1)
              (m ((c : Thread nD τ).loc main_arg0)) (m ((c : Thread nD τ).loc main_arg1))
              (m ((c : Thread nD τ).loc main_arg2)) (m ((c : Thread nD τ).loc main_arg3)))
            shapeCasts_S128x1024x32_S128x32768)
          (m ((c : Thread nD τ).loc main_arg4)) (m ((c : Thread nD τ).loc main_arg5)) := by
  rw [show W4 m ρ c (Proc.devRef .tc main_v7) = (dat1 (V3 m ρ) c).arrAt 3 cfg1.N from W4_arr m ρ c 3]
  rw [hfc (V3 m ρ) c, V3_feat, V3_w, V3_b, hconv (V1 m ρ) c, V1_img, V1_w1, V1_b1, V1_w2, V1_b2]

/-- The kernel program's run with its result read as the specification: every weakly fair execution terminates
    without fault, the result buffer holds the linear layer of the reshaped convolution stack of the transposed input,
    and each argument array its launch contents. -/
theorem run_spec
    (hconv : ∀ (V : (c : Dev nD) → (b : Ref sig .tc) → Buf (Elt Ideal) ((c : Thread nD τ).loc b)) (c : Dev nD),
      (dat0 (F := Ideal) V c).arrAt 5 cfg0.N
        = Cert.Spec.convOut (V c main_v1) (V c main_v2) (V c main_arg1) (V c main_v3) (V c main_arg3))
    (hfc : ∀ (V : (c : Dev nD) → (b : Ref sig .tc) → Buf (Elt Ideal) ((c : Thread nD τ).loc b)) (c : Dev nD),
      (dat1 (F := Ideal) V c).arrAt 3 cfg1.N
        = Cert.Spec.fcOut (V c main_v5) (V c main_v6) (V c main_arg5)) :
    θ_run defs (onTc (τ := τ) (main (F := Ideal))) ⟨m, fun _ => 0, ρ⟩ (fun r => ∀ c : Dev nD,
      r.2.mem ((c.tc : Thread nD τ).loc main_v7)
        = Cert.Spec.fcOut
            (shapeCast S128x32768
              (Cert.Spec.convOut
                (transpose S128x32x32x3 [0, 2, 3, 1] (m ((c : Thread nD τ).loc main_arg6) : S128x3x32x32.Idx → EReal) transposes_S128x3x32x32_S128x32x32x3_0_2_3_1)
                (m ((c : Thread nD τ).loc main_arg0)) (m ((c : Thread nD τ).loc main_arg1))
                (m ((c : Thread nD τ).loc main_arg2)) (m ((c : Thread nD τ).loc main_arg3)))
              shapeCasts_S128x1024x32_S128x32768)
            (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ hconv hfc c), (h c).2⟩)
    (Cert.KernelIdeal.Hand.run_result (F := Ideal) m ρ)

end Cert.KernelIdeal.Result

end
-- ==== Proof.RefRun.lean ====
import proofs.«167103_g2000007113644459_pallasbulk_1246_6_alg».proof.Proof.Gen.ReferenceIdeal.Frame

set_option maxRecDepth 16384

/-! # The reference program's run, with its result named

The run of the reference program from any launch memory ends with the result buffer holding what the last boundary
valuation `Gen.W4` holds there, and with the seven argument arrays as launched. The run is the one the frame theorem
makes — the launch over the four segments, the last thread state read against the final state — with the result
buffer read off the last valuation beside the arguments. -/

noncomputable section

namespace Cert.ReferenceIdeal.RefRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

set_option backward.isDefEq.respectTransparency.types false in
/-- Every weakly fair execution of the reference program terminates without fault; in every final state the result
    buffer holds the last boundary valuation's contents and each argument array its launch contents. -/
theorem run_result (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.ReferenceIdeal.RefRun

end
-- ==== Proof.RefFcValue.lean ====
import proofs.«167103_g2000007113644459_pallasbulk_1246_6_alg».proof.Proof.Gen.ReferenceIdeal.Frame
import proofs.«167103_g2000007113644459_pallasbulk_1246_6_alg».proof.Proof.Spec
import Idealize.ShloMosaic.Lib.Pipeline.Value
import Idealize.ShloMosaic.Lib.ValueIdx
import Idealize.ShloMosaic.PureOps.Ideal.Laws

/-! # The reference's linear layer is the specification's

The second region of the reference program has one grid point and four windows, each the whole of its array: the
flattened features [128, 32768], the weight matrix [32768, 128], the bias [1, 128] and the result [128, 128]. Its
body stores, through the whole result block, the product of the first two into a zero accumulator plus the bias
broadcast along the rows. Read at an entry (p, q) that is the sum over k of feature (p, k) times weight (k, q), plus
bias (0, q): the specification's `fcOut`. The one write-back writes the whole array, so the array ends holding it. -/

noncomputable section

namespace Cert.ReferenceIdeal.FcValue

open Idealize.ShloMosaic Idealize.ShloMosaic.ValueIdx Idealize.ShloMosaic.TcCoe
open Cert.ReferenceIdeal.Gen
open scoped BigOperators

/-- The zero offsets of a whole-block access, as the constant function. -/
theorem hz : (![0, 0] : Fin 2 → Nat) = fun _ => 0 := funext fun a => by fin_cases a <;> rfl

/-- The product into a zero accumulator, at entry (p, q): the sum over the contracted coordinate of the products of
    row p of the left operand and column q of the right one. -/
theorem mm_apply (x0 : FVec Ideal S128x32768 .f32) (x1 : FVec Ideal S32768x128 .f32) (p q : Fin 128) :
    (FloatOps.matmul dot_S128x32768_S32768x128_S128x128_1_0_0_1_n_n none x0 x1 (constant S128x128 .f32 0x00000000#32) (ix2 p q) : EReal)
      = ∑ k : Fin 32768, x0 (ix2 p k) * x1 (ix2 k q) := by
  rw [Ideal.matmul_constant_zero_apply,
    ← Equiv.sum_comp (contrEquiv1 dot_S128x32768_S32768x128_S128x128_1_0_0_1_n_n 32768 rfl rfl).symm]
  refine Finset.sum_congr rfl fun k _ => ?_
  have ck := contrEquiv1_symm_val dot_S128x32768_S32768x128_S128x128_1_0_0_1_n_n 32768 rfl rfl k
  have l : dot_S128x32768_S32768x128_S128x128_1_0_0_1_n_n.lhsIdx (ix2 p q) ((contrEquiv1 _ 32768 rfl rfl).symm k) = ix2 p k := by
    funext ax; apply Fin.ext
    match ax with
    | ⟨0, _⟩ => simp [DotDims.lhsIdx, dot_S128x32768_S32768x128_S128x128_1_0_0_1_n_n]; rfl
    | ⟨1, _⟩ => exact (DotDims.lhsIdx_val_of_single _ (cl := (1 : Fin 2)) rfl _ _).trans ck
  have r : dot_S128x32768_S32768x128_S128x128_1_0_0_1_n_n.rhsIdx (ix2 p q) ((contrEquiv1 _ 32768 rfl rfl).symm k) = ix2 k q := by
    funext ax; apply Fin.ext
    match ax with
    | ⟨0, _⟩ => exact (DotDims.rhsIdx_val_of_single _ (cr := (0 : Fin 2)) rfl _ _).trans ck
    | ⟨1, _⟩ => simp [DotDims.rhsIdx, dot_S128x32768_S32768x128_S128x128_1_0_0_1_n_n]; rfl
  rw [l, r]

/-- The bias row broadcast along the rows, at entry (p, q), is bias (0, q). -/
theorem bias_apply (x2 : FVec Ideal S1x128 .f32) (p q : Fin 128) :
    (broadcastTo S128x128 x2 broadcasts_S1x128_S128x128 (ix2 p q) : EReal) = x2 (ix2 0 q) := by
  refine broadcastTo_apply x2 broadcasts_S1x128_S128x128 (ix2 p q) (ix2 0 q) fun a => ?_
  match a with
  | ⟨0, _⟩ => rfl
  | ⟨1, _⟩ => rfl

/-- The body's stored value is the specification's linear layer of the three loaded blocks. -/
theorem pay_eq (x0 : Vec Ideal S128x32768 .f32) (x1 : Vec Ideal S32768x128 .f32) (x2 : Vec Ideal S1x128 .f32) :
    k1_pay1 (F := Ideal) x0 x1 x2 = Cert.Spec.fcOut x0 x1 x2 := by
  funext j
  obtain ⟨p, q, rfl⟩ : ∃ (p : Fin 128) (q : Fin 128), j = ix2 p q := ⟨j 0, j 1, eq_ix2 j⟩
  unfold k1_pay1
  rw [shapeCast_self]
  refine (addf_apply _ _ (ix2 p q)).trans ?_
  refine (congrArg₂ (· + ·) (mm_apply x0 x1 p q) (bias_apply x2 p q)).trans ?_
  rfl

/-! ## From the one block to the array -/

/-- The body's result block: the specification's linear layer of the three loaded blocks (a load through the whole
    block reads it, one store through the whole block leaves its payload). -/
theorem out_eq (x0 : Vec Ideal S128x32768 .f32) (x1 : Vec Ideal S32768x128 .f32) (x2 : Vec Ideal S1x128 .f32) :
    out1_3 (F := Ideal) x0 x1 x2 = Cert.Spec.fcOut x0 x1 x2 := by
  unfold out1_3
  rw [View.canon_unit_zero hz, View.ld_unit_zero (S := S128x32768) hz, View.ld_unit_zero (S := S32768x128) hz,
    View.ld_unit_zero (S := S1x128) hz]
  exact pay_eq x0 x1 x2

variable (V : (c : Dev nD) → (b : Ref sig .tc) → Buf (Elt Ideal) ((c : Thread nD τ).loc b))

/-- Every window's block index is zero on both axes, at the one grid point. -/
theorem off0 (t : Fin cfg1.N) : (fun a => win1_0.index t a * main_call0_v2.ty.shape.size a) = fun _ => 0 :=
  funext fun a => by fin_cases a <;> exact Nat.zero_mul _
theorem off1 (t : Fin cfg1.N) : (fun a => win1_1.index t a * main_arg4.ty.shape.size a) = fun _ => 0 :=
  funext fun a => by fin_cases a <;> exact Nat.zero_mul _
theorem off2 (t : Fin cfg1.N) : (fun a => win1_2.index t a * main_arg5.ty.shape.size a) = fun _ => 0 :=
  funext fun a => by fin_cases a <;> exact Nat.zero_mul _
theorem off3 (t : Fin cfg1.N) : (fun a => win1_3.index t a * main_v0.ty.shape.size a) = fun _ => 0 :=
  funext fun a => by fin_cases a <;> exact Nat.zero_mul _

/-- Each input window is the whole of its array, so its block read off the array is the array. -/
theorem iblk_0 (c : Dev nD) (t : Fin cfg1.N) : iblk1 V c 0 t = (V c main_call0_v2 : S128x32768.Idx → EReal) := by
  unfold iblk1
  exact Memref.read_access_unit_zero (Elt Ideal) main_call0_v2 (off0 t) (fun a => by rw [congrFun (off0 t) a]; simp) (V c main_call0_v2)
theorem iblk_1 (c : Dev nD) (t : Fin cfg1.N) : iblk1 V c 1 t = (V c main_arg4 : S32768x128.Idx → EReal) := by
  unfold iblk1
  exact Memref.read_access_unit_zero (Elt Ideal) main_arg4 (off1 t) (fun a => by rw [congrFun (off1 t) a]; simp) (V c main_arg4)
theorem iblk_2 (c : Dev nD) (t : Fin cfg1.N) : iblk1 V c 2 t = (V c main_arg5 : S1x128.Idx → EReal) := by
  unfold iblk1
  exact Memref.read_access_unit_zero (Elt Ideal) main_arg5 (off2 t) (fun a => by rw [congrFun (off2 t) a]; simp) (V c main_arg5)

/-- What the one point writes back is the block — the whole — of the specification's linear layer of the arrays as
    the region finds them. -/
theorem flushed_eq (c : Dev nD) (t : Fin cfg1.N) :
    (dat1 (F := Ideal) V c).flushed 3 t
      = ((cfg1.win 3).blk t).view.read (Elt Ideal) (Cert.Spec.fcOut (V c main_call0_v2) (V c main_arg4) (V c main_arg5)) := by
  show (cfg1.win 3).cut (grid1.coords t) ((dat1 V c).after 3 t) = _
  rw [after1_3, out_eq, iblk_0, iblk_1, iblk_2]
  exact (Memref.read_access_unit_zero (Elt Ideal) main_v0 (off3 t) (fun a => by rw [congrFun (off3 t) a]; simp) _).symm

/-- The result array after the region: the specification's linear layer of the flattened features, the weight matrix
    and the bias as the region finds them (the one block written back covers the array). -/
theorem fc_final (c : Dev nD) :
    (dat1 (F := Ideal) V c).arrAt 3 cfg1.N = Cert.Spec.fcOut (V c main_call0_v2) (V c main_arg4) (V c main_arg5) :=
  (dat1 (F := Ideal) V c).arrAt_eq_of_cover 3 _ (fun t _ => flushed_eq V c t) fun i =>
    ⟨t1_0, flush1_3 t1_0, by
      show i ∈ ((View.whole main_v0).slice (win1_3.rect t1_0)).set
      rw [View.set_slice_whole]
      exact View.mem_set_unit_zero (S := S128x128) (off3 t1_0) _ i⟩

end Cert.ReferenceIdeal.FcValue

end
-- ==== Proof.RefResult.lean ====
import proofs.«167103_g2000007113644459_pallasbulk_1246_6_alg».proof.Proof.RefRun
import proofs.«167103_g2000007113644459_pallasbulk_1246_6_alg».proof.Proof.RefFcValue

/-! # The reference program's result is the specification, composed

The last boundary valuation at the result buffer is the linear layer's result array, which is the specification's
linear layer of the region's entry contents; the flattened features there are the host reshape of the convolution
region's result array, which is the specification's convolution stack of that region's entry contents; the image
batch there is the host transpose of the launch input; every weight and bias is the launch memory's. The transpose
and the reshape stay as the printed operations applied to arrays. -/

noncomputable section

namespace Cert.ReferenceIdeal.RefResult

open Idealize.ShloMosaic Idealize.ShloMosaic.ValueIdx Idealize.ShloMosaic.TcCoe
open Cert.ReferenceIdeal.Gen

variable (m : (ℓ : Loc nD τ sig) → Buf (Elt Ideal) ℓ) (ρ : Dev nD → PrngReg)

/-! ## The convolution region's entry contents -/

/-- The image batch the convolution region reads is the host transpose of the launch input. -/
theorem V1_img (c : Dev nD) :
    (V1 m ρ c main_call0_v0 : S128x32x32x3.Idx → EReal)
      = transpose S128x32x32x3 [0, 2, 3, 1] (m ((c : Thread nD τ).loc main_arg6) : S128x3x32x32.Idx → EReal) transposes_S128x3x32x32_S128x32x32x3_0_2_3_1 := by
  show StableHlo.after hostOps0 (W0 m ρ c) (Proc.devRef .tc main_call0_v0) = _
  after_results
  rfl

/-- The transpose writes no argument: the weights and biases there are the launch memory's. -/
theorem V1_arg0 (c : Dev nD) : V1 m ρ c main_arg0 = m ((c : Thread nD τ).loc main_arg0) := by
  show StableHlo.after hostOps0 (W0 m ρ c) (Proc.devRef .tc main_arg0) = _
  after_results
theorem V1_arg1 (c : Dev nD) : V1 m ρ c main_arg1 = m ((c : Thread nD τ).loc main_arg1) := by
  show StableHlo.after hostOps0 (W0 m ρ c) (Proc.devRef .tc main_arg1) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg3 (c : Dev nD) : V1 m ρ c main_arg3 = m ((c : Thread nD τ).loc main_arg3) := by
  show StableHlo.after hostOps0 (W0 m ρ c) (Proc.devRef .tc main_arg3) = _
  after_results

/-! ## The linear layer's entry contents -/

/-- The flattened features the linear layer reads are the host reshape of the convolution region's result array. -/
theorem V3_feat (c : Dev nD) :
    (V3 m ρ c main_call0_v2 : S128x32768.Idx → EReal)
      = shapeCast S128x32768 ((dat0 (V1 m ρ) c).arrAt 5 cfg0.N : S128x1024x32.Idx → EReal) shapeCasts_S128x1024x32_S128x32768 := by
  show StableHlo.after hostOps1 (W2 m ρ c) (Proc.devRef .tc main_call0_v2) = _
  after_results
  rw [show W2 m ρ c (Proc.devRef .tc main_call0_v1) = (dat0 (V1 m ρ) c).arrAt 5 cfg0.N from W2_arr m ρ c 5]
  rfl

/-- Neither the reshape, nor the convolution region, nor the transpose writes the linear layer's weight or bias. -/
theorem V3_arg4 (c : Dev nD) : V3 m ρ c main_arg4 = m ((c : Thread nD τ).loc main_arg4) := by
  show StableHlo.after hostOps1 (W2 m ρ c) (Proc.devRef .tc main_arg4) = _
  after_results
  rw [W2_of_ne m ρ c main_arg4 (by decide)]
  show StableHlo.after hostOps0 (W0 m ρ c) (Proc.devRef .tc main_arg4) = _
  after_results
theorem V3_arg5 (c : Dev nD) : V3 m ρ c main_arg5 = m ((c : Thread nD τ).loc main_arg5) := by
  show StableHlo.after hostOps1 (W2 m ρ c) (Proc.devRef .tc main_arg5) = _
  after_results
  rw [W2_of_ne m ρ c main_arg5 (by decide)]
  show StableHlo.after hostOps0 (W0 m ρ c) (Proc.devRef .tc main_arg5) = _
  after_results

/-! ## The result -/

/-- The reference program's result buffer at the end of the run, given that the convolution region's result array
    is the specification's convolution stack of its entry contents (`hconv`): the specification's linear layer of
    the reshaped convolution stack of the transposed input. -/
theorem result_eq
    (hconv : ∀ (V : (c : Dev nD) → (b : Ref sig .tc) → Buf (Elt Ideal) ((c : Thread nD τ).loc b)) (c : Dev nD),
      (dat0 (F := Ideal) V c).arrAt 5 cfg0.N
        = Cert.Spec.convOut (V c main_call0_v0) (V c main_arg0) (V c main_arg1) (V c main_arg2) (V c main_arg3))
    (c : Dev nD) :
    (W4 m ρ c (Proc.devRef .tc main_v0) : S128x128.Idx → EReal)
      = Cert.Spec.fcOut
          (shapeCast S128x32768
            (Cert.Spec.convOut
              (transpose S128x32x32x3 [0, 2, 3, 1] (m ((c : Thread nD τ).loc main_arg6) : S128x3x32x32.Idx → EReal) transposes_S128x3x32x32_S128x32x32x3_0_2_3_1)
              (m ((c : Thread nD τ).loc main_arg0)) (m ((c : Thread nD τ).loc main_arg1))
              (m ((c : Thread nD τ).loc main_arg2)) (m ((c : Thread nD τ).loc main_arg3)))
            shapeCasts_S128x1024x32_S128x32768)
          (m ((c : Thread nD τ).loc main_arg4)) (m ((c : Thread nD τ).loc main_arg5)) := by
  rw [show W4 m ρ c (Proc.devRef .tc main_v0) = (dat1 (V3 m ρ) c).arrAt 3 cfg1.N from W4_arr m ρ c 3]
  rw [Cert.ReferenceIdeal.FcValue.fc_final (V3 m ρ) c, V3_feat, V3_arg4, V3_arg5, hconv (V1 m ρ) c,
    V1_img, V1_arg0, V1_arg1, V1_arg2, V1_arg3]

/-- The reference program's run with its result read as the specification: every weakly fair execution terminates
    without fault, the result buffer holds the linear layer of the reshaped convolution stack of the transposed input,
    and each argument array its launch contents. -/
theorem run_spec
    (hconv : ∀ (V : (c : Dev nD) → (b : Ref sig .tc) → Buf (Elt Ideal) ((c : Thread nD τ).loc b)) (c : Dev nD),
      (dat0 (F := Ideal) V c).arrAt 5 cfg0.N
        = Cert.Spec.convOut (V c main_call0_v0) (V c main_arg0) (V c main_arg1) (V c main_arg2) (V c main_arg3)) :
    θ_run defs (onTc (τ := τ) (main (F := Ideal))) ⟨m, fun _ => 0, ρ⟩ (fun r => ∀ c : Dev nD,
      r.2.mem ((c.tc : Thread nD τ).loc main_v0)
        = Cert.Spec.fcOut
            (shapeCast S128x32768
              (Cert.Spec.convOut
                (transpose S128x32x32x3 [0, 2, 3, 1] (m ((c : Thread nD τ).loc main_arg6) : S128x3x32x32.Idx → EReal) transposes_S128x3x32x32_S128x32x32x3_0_2_3_1)
                (m ((c : Thread nD τ).loc main_arg0)) (m ((c : Thread nD τ).loc main_arg1))
                (m ((c : Thread nD τ).loc main_arg2)) (m ((c : Thread nD τ).loc main_arg3)))
              shapeCasts_S128x1024x32_S128x32768)
            (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ hconv c), (h c).2⟩)
    (Cert.ReferenceIdeal.RefRun.run_result (F := Ideal) m ρ)

end Cert.ReferenceIdeal.RefResult

end
-- ==== Proof.Assemble.lean ====
import proofs.«167103_g2000007113644459_pallasbulk_1246_6_alg».proof.Defs
import proofs.«167103_g2000007113644459_pallasbulk_1246_6_alg».proof.Proof.KRun
import proofs.«167103_g2000007113644459_pallasbulk_1246_6_alg».proof.Proof.KIResult
import proofs.«167103_g2000007113644459_pallasbulk_1246_6_alg».proof.Proof.RefResult
import proofs.«167103_g2000007113644459_pallasbulk_1246_6_alg».proof.Proof.Gen.Kernel
import proofs.«167103_g2000007113644459_pallasbulk_1246_6_alg».proof.Proof.Gen.KernelIdeal
import proofs.«167103_g2000007113644459_pallasbulk_1246_6_alg».proof.Proof.Gen.ReferenceIdeal
import proofs.«167103_g2000007113644459_pallasbulk_1246_6_alg».proof.Proof.Gen.Pre_finite_inputs

/-! # The certificate, assembled

Both idealized programs end with their result buffer holding the same function of the argument arrays: the
specification's linear layer of the reshaped convolution stack of the transposed input. The kernel program's changes
of float format are the identity on the extended reals, so from memories that agree on the seven arguments the two
results are equal, entry by entry. The three frame claims are the three runs with the result dropped; the
idealization rewrote no operation. -/

noncomputable section

namespace Cert.Assemble

open Idealize.ShloMosaic Idealize.ShloMosaic.TcCoe Idealize.SL.Sem

/-- The two programs' results agree when their memories agree on the arguments: the same specification term, the
    arguments replaced one by one. -/
theorem spec_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.Spec.fcOut
          (shapeCast Cert.ReferenceIdeal.S128x32768
            (Cert.Spec.convOut
              (transpose Cert.ReferenceIdeal.S128x32x32x3 [0, 2, 3, 1] (m' ((c.tc : Thread Cert.ReferenceIdeal.nD Cert.ReferenceIdeal.τ).loc Cert.ReferenceIdeal.main_arg6) : Cert.ReferenceIdeal.S128x3x32x32.Idx → EReal) Cert.ReferenceIdeal.Gen.transposes_S128x3x32x32_S128x32x32x3_0_2_3_1)
              (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)))
            Cert.ReferenceIdeal.Gen.shapeCasts_S128x1024x32_S128x32768)
          (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      = Cert.Spec.fcOut
          (shapeCast Cert.KernelIdeal.S128x32768
            (Cert.Spec.convOut
              (transpose Cert.KernelIdeal.S128x32x32x3 [0, 2, 3, 1] (m ((c.tc : Thread Cert.KernelIdeal.nD Cert.KernelIdeal.τ).loc Cert.KernelIdeal.main_arg6) : Cert.KernelIdeal.S128x3x32x32.Idx → EReal) Cert.KernelIdeal.Gen.transposes_S128x3x32x32_S128x32x32x3_0_2_3_1)
              (m ((c.tc : Thread Cert.KernelIdeal.nD Cert.KernelIdeal.τ).loc Cert.KernelIdeal.main_arg0)) (m ((c.tc : Thread Cert.KernelIdeal.nD Cert.KernelIdeal.τ).loc Cert.KernelIdeal.main_arg1))
              (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
            Cert.KernelIdeal.Gen.shapeCasts_S128x1024x32_S128x32768)
          (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  rw [h0, h1, h2, h3, h4, h5, h6]

/-- The certificate's claim, from the three launches' values: the kernel program's convolution launch (`hK0`) and
    linear-layer launch (`hK1`) and the reference program's convolution launch (`hR0`) each leave the specification's
    function of their entry contents in their result array. -/
theorem claim_of
    (hK0 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      (Cert.KernelIdeal.Hand.dat0 (F := Ideal) V c).arrAt 5 Cert.KernelIdeal.cfg0.N
        = Cert.Spec.convOut (V c Cert.KernelIdeal.main_v1) (V c Cert.KernelIdeal.main_v2) (V c Cert.KernelIdeal.main_arg1) (V c Cert.KernelIdeal.main_v3) (V c Cert.KernelIdeal.main_arg3))
    (hK1 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      (Cert.KernelIdeal.Hand.dat1 (F := Ideal) V c).arrAt 3 Cert.KernelIdeal.cfg1.N
        = Cert.Spec.fcOut (V c Cert.KernelIdeal.main_v5) (V c Cert.KernelIdeal.main_v6) (V c Cert.KernelIdeal.main_arg5))
    (hR0 : ∀ (V : (c : Dev Cert.ReferenceIdeal.nD) → (b : Ref Cert.ReferenceIdeal.sig .tc) → Buf (Elt Ideal) ((c : Thread Cert.ReferenceIdeal.nD Cert.ReferenceIdeal.τ).loc b)) (c : Dev Cert.ReferenceIdeal.nD),
      (Cert.ReferenceIdeal.Gen.dat0 (F := Ideal) V c).arrAt 5 Cert.ReferenceIdeal.cfg0.N
        = Cert.Spec.convOut (V c Cert.ReferenceIdeal.main_call0_v0) (V c Cert.ReferenceIdeal.main_arg0) (V c Cert.ReferenceIdeal.main_arg1) (V c Cert.ReferenceIdeal.main_arg2) (V c Cert.ReferenceIdeal.main_arg3)) :
    Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    fun m ρ _ => Cert.ReferenceIdeal.Gen.frame m ρ,
    trivial,
    fun m ρ m' ρ' _ hagree =>
      ⟨fun c => Cert.Spec.fcOut
          (shapeCast Cert.KernelIdeal.S128x32768
            (Cert.Spec.convOut
              (transpose Cert.KernelIdeal.S128x32x32x3 [0, 2, 3, 1] (m ((c.tc : Thread Cert.KernelIdeal.nD Cert.KernelIdeal.τ).loc Cert.KernelIdeal.main_arg6) : Cert.KernelIdeal.S128x3x32x32.Idx → EReal) Cert.KernelIdeal.Gen.transposes_S128x3x32x32_S128x32x32x3_0_2_3_1)
              (m ((c.tc : Thread Cert.KernelIdeal.nD Cert.KernelIdeal.τ).loc Cert.KernelIdeal.main_arg0)) (m ((c.tc : Thread Cert.KernelIdeal.nD Cert.KernelIdeal.τ).loc Cert.KernelIdeal.main_arg1))
              (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
            Cert.KernelIdeal.Gen.shapeCasts_S128x1024x32_S128x32768)
          (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
        Cert.KernelIdeal.Result.run_spec m ρ hK0 hK1,
        (θ_run Cert.ReferenceIdeal.defs _ _).mono
          (fun _ h c => ⟨(h c).1.trans (spec_agree m m' c (hagree c).1 (hagree c).2.1 (hagree c).2.2.1 (hagree c).2.2.2.1
              (hagree c).2.2.2.2.1 (hagree c).2.2.2.2.2.1 (hagree c).2.2.2.2.2.2), (h c).2⟩)
          (Cert.ReferenceIdeal.RefResult.run_spec m' ρ' hR0)⟩⟩

end Cert.Assemble

end
-- ==== Proof.ConvPad.lean ====
import Idealize.ShloMosaic.Lib.Pipeline.Value
import Idealize.ShloMosaic.Lib.ValueIdx

noncomputable section

/-! # A block of images with a ring of one value around each

The kernel fills a buffer `[N, 34, 34, C]` with one value `z` and then stores an image block `[N, 32, 32, C]` into rows and
columns `1 … 32` — as a store of the rows `1 … 32` over all 34 columns whose value is the old rows with the block put at
column offset 1. What the two stores leave is the block at padded coordinates `1 … 32` and `z` on the ring. -/

namespace Cert.ConvPad

open Idealize.ShloMosaic Idealize.ShloMosaic.ValueIdx

variable {Val : EltTy → Type} [∀ e, Nonempty (Val e)] {e : EltTy}

/-- `N` images of `C` channels, each with one ring of `z` around it. -/
def padded {α : Type} {N C : ℕ} (u : (⟨4, ![N, 32, 32, C]⟩ : Shape).Idx → α) (z : α) : (⟨4, ![N, 34, 34, C]⟩ : Shape).Idx → α :=
  fun y => if h : 1 ≤ (y 1).val ∧ (y 1).val ≤ 32 ∧ 1 ≤ (y 2).val ∧ (y 2).val ≤ 32
    then u (ix4 (y 0) ⟨(y 1).val - 1, by omega⟩ ⟨(y 2).val - 1, by omega⟩ (y 3)) else z

theorem zero4 : (![0, 0, 0, 0] : Fin 4 → ℕ) = fun _ => 0 := funext fun a => by fin_cases a <;> rfl

/-- The fill and the interior store leave the padded block. -/
theorem canon_padded {N C : ℕ} (u : (⟨4, ![N, 32, 32, C]⟩ : Shape).Idx → Val e) (z : Val e)
    (inb1 : ∀ a, (![0, 1, 0, 0] : Fin 4 → ℕ) a + (![N, 32, 34, C] : Fin 4 → ℕ) a ≤ (⟨4, ![N, 34, 34, C]⟩ : Shape).size a)
    (inb0 : ∀ a, (![0, 0, 0, 0] : Fin 4 → ℕ) a + (⟨4, ![N, 34, 34, C]⟩ : Shape).size a ≤ (⟨4, ![N, 34, 34, C]⟩ : Shape).size a)
    (hs : (⟨4, ![N, 32, 34, C]⟩ : Shape).Slices ![0, 0, 1, 0] ⟨4, ![N, 32, 32, C]⟩)
    (old : (⟨4, ![N, 32, 34, C]⟩ : Shape).Idx → Val e) (hold : ∀ x, old x = z)
    (Z : (⟨4, ![N, 34, 34, C]⟩ : Shape).Idx → Val e) (hZ : ∀ y, Z y = z) :
    View.canon (Val := Val)
      [(⟨Rect.unit (s := ⟨4, ![N, 34, 34, C]⟩) ![0, 1, 0, 0] ![N, 32, 34, C] inb1, updateSlice old u ![0, 0, 1, 0] hs⟩ : View.Piece Val ⟨4, ![N, 34, 34, C]⟩ e),
       (⟨Rect.unit (s := ⟨4, ![N, 34, 34, C]⟩) ![0, 0, 0, 0] (⟨4, ![N, 34, 34, C]⟩ : Shape).size inb0, Z⟩ : View.Piece Val ⟨4, ![N, 34, 34, C]⟩ e)]
      = padded u z := by
  funext y
  have y0 : (y 0).val < N := (y 0).isLt
  have y1 : (y 1).val < 34 := (y 1).isLt
  have y2 : (y 2).val < 34 := (y 2).isLt
  have y3 : (y 3).val < C := (y 3).isLt
  by_cases h1 : 1 ≤ (y 1).val ∧ (y 1).val ≤ 32
  · let x : (⟨4, ![N, 32, 34, C]⟩ : Shape).Idx := ix4 (y 0) ⟨(y 1).val - 1, by omega⟩ (y 2) (y 3)
    have hy : (Rect.unit (s := ⟨4, ![N, 34, 34, C]⟩) ![0, 1, 0, 0] ![N, 32, 34, C] inb1).emb x = y := by
      funext a; apply Fin.ext
      rw [Rect.emb_apply]
      match a with
      | ⟨0, _⟩ => show 0 + 1 * (y 0).val = (y 0).val; omega
      | ⟨1, _⟩ => show 1 + 1 * ((y 1).val - 1) = (y 1).val; omega
      | ⟨2, _⟩ => show 0 + 1 * (y 2).val = (y 2).val; omega
      | ⟨3, _⟩ => show 0 + 1 * (y 3).val = (y 3).val; omega
    rw [← hy]
    refine (View.canon_cons_emb (Val := Val) (Rect.unit (s := ⟨4, ![N, 34, 34, C]⟩) ![0, 1, 0, 0] ![N, 32, 34, C] inb1)
      (updateSlice old u ![0, 0, 1, 0] hs) _ x).trans ?_
    rw [hy]
    unfold updateSlice padded
    by_cases h2 : 1 ≤ (y 2).val ∧ (y 2).val ≤ 32
    · rw [dif_pos (show ∀ a : Fin 4, (![0, 0, 1, 0] : Fin 4 → ℕ) a ≤ (x a).val ∧ (x a).val < (![0, 0, 1, 0] : Fin 4 → ℕ) a + (⟨4, ![N, 32, 32, C]⟩ : Shape).size (a.cast hs.1.symm) from fun a => by
          match a with
          | ⟨0, _⟩ => exact ⟨Nat.zero_le _, by show (y 0).val < 0 + N; omega⟩
          | ⟨1, _⟩ => exact ⟨Nat.zero_le _, by show (y 1).val - 1 < 0 + 32; omega⟩
          | ⟨2, _⟩ => exact ⟨by show 1 ≤ (y 2).val; omega, by show (y 2).val < 1 + 32; omega⟩
          | ⟨3, _⟩ => exact ⟨Nat.zero_le _, by show (y 3).val < 0 + C; omega⟩),
        dif_pos ⟨h1.1, h1.2, h2.1, h2.2⟩]
      refine congrArg u (funext fun b => Fin.ext ?_)
      match b with
      | ⟨0, _⟩ => show (y 0).val - 0 = (y 0).val; omega
      | ⟨1, _⟩ => show ((y 1).val - 1) - 0 = (y 1).val - 1; omega
      | ⟨2, _⟩ => show (y 2).val - 1 = (y 2).val - 1; rfl
      | ⟨3, _⟩ => show (y 3).val - 0 = (y 3).val; omega
    · have hno : ¬ ∀ a : Fin 4, (![0, 0, 1, 0] : Fin 4 → ℕ) a ≤ (x a).val ∧ (x a).val < (![0, 0, 1, 0] : Fin 4 → ℕ) a + (⟨4, ![N, 32, 32, C]⟩ : Shape).size (a.cast hs.1.symm) := by
        intro h
        obtain ⟨hlo, hhi⟩ := h (2 : Fin 4)
        have hlo' : 1 ≤ (y 2).val := hlo
        have hhi' : (y 2).val < 1 + 32 := hhi
        exact h2 ⟨hlo', by omega⟩
      rw [dif_neg hno, dif_neg (fun h => h2 ⟨h.2.2.1, h.2.2.2⟩)]
      exact hold x
  · have hn : y ∉ (Rect.unit (s := ⟨4, ![N, 34, 34, C]⟩) ![0, 1, 0, 0] ![N, 32, 34, C] inb1).set := by
      rw [Rect.mem_set_unit]
      intro h
      obtain ⟨hlo, hhi⟩ := h (1 : Fin 4)
      have hlo' : 1 ≤ (y 1).val := hlo
      have hhi' : (y 1).val < 1 + 32 := hhi
      exact h1 ⟨hlo', by omega⟩
    refine (View.canon_cons_of_not_mem (Val := Val)
      (⟨Rect.unit (s := ⟨4, ![N, 34, 34, C]⟩) ![0, 1, 0, 0] ![N, 32, 34, C] inb1, updateSlice old u ![0, 0, 1, 0] hs⟩ : View.Piece Val ⟨4, ![N, 34, 34, C]⟩ e)
      _ hn).trans ?_
    rw [View.canon_unit_zero zero4, hZ]
    unfold padded
    rw [dif_neg (fun h => h1 ⟨h.1, h.2.1⟩)]

/-- The same with the fill spelt as a constant function, and the rows the interior store reads back spelt as what the fill
    left: the form the two stores of the kernel body take, whatever evidence they carry. -/
theorem canon_padded_fill {N C : ℕ} (u : (⟨4, ![N, 32, 32, C]⟩ : Shape).Idx → Val e) (z : Val e)
    (inb1 : ∀ a, (![0, 1, 0, 0] : Fin 4 → ℕ) a + (![N, 32, 34, C] : Fin 4 → ℕ) a ≤ (⟨4, ![N, 34, 34, C]⟩ : Shape).size a)
    (inb0 : ∀ a, (![0, 0, 0, 0] : Fin 4 → ℕ) a + (⟨4, ![N, 34, 34, C]⟩ : Shape).size a ≤ (⟨4, ![N, 34, 34, C]⟩ : Shape).size a)
    (hs : (⟨4, ![N, 32, 34, C]⟩ : Shape).Slices ![0, 0, 1, 0] ⟨4, ![N, 32, 32, C]⟩) :
    View.canon (Val := Val)
      [(⟨Rect.unit (s := ⟨4, ![N, 34, 34, C]⟩) ![0, 1, 0, 0] ![N, 32, 34, C] inb1,
          updateSlice (fun j => View.canon (Val := Val)
              [(⟨Rect.unit (s := ⟨4, ![N, 34, 34, C]⟩) ![0, 0, 0, 0] (⟨4, ![N, 34, 34, C]⟩ : Shape).size inb0, fun _ => z⟩ : View.Piece Val ⟨4, ![N, 34, 34, C]⟩ e)]
              ((Rect.unit (s := ⟨4, ![N, 34, 34, C]⟩) ![0, 1, 0, 0] ![N, 32, 34, C] inb1).idx j)) u ![0, 0, 1, 0] hs⟩ : View.Piece Val ⟨4, ![N, 34, 34, C]⟩ e),
       (⟨Rect.unit (s := ⟨4, ![N, 34, 34, C]⟩) ![0, 0, 0, 0] (⟨4, ![N, 34, 34, C]⟩ : Shape).size inb0, fun _ => z⟩ : View.Piece Val ⟨4, ![N, 34, 34, C]⟩ e)]
      = padded u z :=
  canon_padded u z inb1 inb0 hs _ (fun x => by rw [View.canon_unit_zero zero4]) _ (fun _ => rfl)

end Cert.ConvPad

end
-- ==== Proof.ConvPatch.lean ====
import Idealize.ShloMosaic.Lib.Pipeline.Value
import Idealize.ShloMosaic.Lib.ValueIdx

noncomputable section

/-! # The nine shifted views of a padded block, side by side

A block of 16 padded images `[16, 34, 34, C]` is read through the 32×32 window at row offset `dy` and column offset `dx`
and flattened to rows: row `r = image·1024 + h·32 + w`, column `q`, holds the padded block at
`(image, h + dy, w + dx, q)`. Nine such views, `(dy, dx) = (n / 3, n % 3)`, joined along the columns give the patch matrix:
column `k` belongs to view `k / C` and channel `k % C`. -/

namespace Cert.ConvPatch

open Idealize.ShloMosaic Idealize.ShloMosaic.ValueIdx

variable {α : Type}

/-- Row `r`, column `q` of the view at offset `(dy, dx)`. -/
theorem shifted_apply {C : ℕ} (P : (⟨4, ![16, 34, 34, C]⟩ : Shape).Idx → α) (dy dx : ℕ) (hdy : dy ≤ 2) (hdx : dx ≤ 2)
    (inb : ∀ a, (![0, dy, dx, 0] : Fin 4 → ℕ) a + (![16, 32, 32, C] : Fin 4 → ℕ) a ≤ (⟨4, ![16, 34, 34, C]⟩ : Shape).size a)
    (hc : (⟨4, ![16, 32, 32, C]⟩ : Shape).ShapeCasts ⟨2, ![16384, C]⟩) (r : Fin 16384) (q : Fin C) :
    shapeCast ⟨2, ![16384, C]⟩
        (fun j => P ((Rect.unit (s := ⟨4, ![16, 34, 34, C]⟩) ![0, dy, dx, 0] ![16, 32, 32, C] inb).toLoadRect.idx j)) hc (ix2 r q)
      = P (ix4 ⟨r.val / 1024, by have := r.isLt; omega⟩ ⟨r.val / 32 % 32 + dy, by omega⟩ ⟨r.val % 32 + dx, by omega⟩ q) := by
  have hr := r.isLt
  rw [shapeCast_apply _ hc (ix2 r q)
    (ix4 (⟨r.val / 1024, by omega⟩ : Fin 16) (⟨r.val / 32 % 32, Nat.mod_lt _ (by decide)⟩ : Fin 32) (⟨r.val % 32, Nat.mod_lt _ (by decide)⟩ : Fin 32) q)
    (by
      rw [Shape.rowMajor_val_four, Shape.rowMajor_val_two]
      show ((r.val / 1024 * 32 + r.val / 32 % 32) * 32 + r.val % 32) * C + q.val = r.val * C + q.val
      have : (r.val / 1024 * 32 + r.val / 32 % 32) * 32 + r.val % 32 = r.val := by omega
      rw [this])]
  refine congrArg P (funext fun a => Fin.ext ?_)
  match a with
  | ⟨0, _⟩ => show 0 + 1 * (r.val / 1024) = r.val / 1024; omega
  | ⟨1, _⟩ => show dy + 1 * (r.val / 32 % 32) = r.val / 32 % 32 + dy; omega
  | ⟨2, _⟩ => show dx + 1 * (r.val % 32) = r.val % 32 + dx; omega
  | ⟨3, _⟩ => show 0 + 1 * q.val = q.val; omega

/-- Row `r`, column `k` of nine pieces `[16384, C]` joined along the columns, piece `n` holding `g n r q`. -/
theorem joined_apply {C K : ℕ} (hC : 0 < C) (hK : K = 9 * C) (f : Fin 9 → (⟨2, ![16384, C]⟩ : Shape).Idx → α)
    (h : Shape.Concatenates ((List.ofFn fun n : Fin 9 => (⟨⟨2, ![16384, C]⟩, f n⟩ : (s : Shape) × (s.Idx → α))).map (·.1)) ⟨2, ![16384, K]⟩ (1 : Fin 2))
    (r : Fin 16384) (k : Fin K) :
    concatenate ⟨2, ![16384, K]⟩ (1 : Fin 2) (List.ofFn fun n : Fin 9 => (⟨⟨2, ![16384, C]⟩, f n⟩ : (s : Shape) × (s.Idx → α))) h (ix2 r k)
      = f ⟨k.val / C, Nat.div_lt_of_lt_mul (by have := k.isLt; omega)⟩
          (ix2 r ⟨k.val % C, Nat.mod_lt _ hC⟩) := by
  refine concatenate_ofFn_apply (t := ⟨2, ![16384, K]⟩) (s₁ := ⟨2, ![16384, C]⟩) (1 : Fin 2) f h rfl C rfl (ix2 r k)
    ⟨k.val / C, Nat.div_lt_of_lt_mul (by have := k.isLt; omega)⟩ rfl (ix2 r ⟨k.val % C, Nat.mod_lt _ hC⟩) rfl ?_
  intro b hb
  match b with
  | ⟨0, _⟩ => rfl
  | ⟨1, _⟩ => exact absurd rfl hb

end Cert.ConvPatch

end
-- ==== Proof.LibPlainDot.lean ====
/-
  A plain matrix product read at an index (program-independent; imports only the library).

  For the dimension numbers of an ordinary product of an `[M, K]` matrix by a `[K, N]` matrix — the left operand's
  second axis contracted with the right operand's first, no batch axis — the contraction index is one coordinate
  `k : Fin K`, the left operand is read at `(r, k)` and the right one at `(k, j)`. So at the ideal values both the
  kernel's matrix product into a zero accumulator and the host's general product are, at `(r, j)`, the sum over `k` of
  the products of the entries `(r, k)` and `(k, j)`.
-/
import Idealize.ShloMosaic.Lib.ValueIdx
import Idealize.ShloMosaic.PureOps.Ideal.Laws

noncomputable section

namespace Cert.PlainDot

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- At output `(r, j)` and contraction coordinate `k` the left operand is read at `(r, k)`. -/
theorem lhsIdx_plain (M K N : ℕ) (r : Fin M) (j : Fin N) (k : Fin K) :
    (DotDims.plain M K N).lhsIdx (ix2 r j) ((contrFin M K N).symm k) = ix2 r k := by
  funext a; apply Fin.ext
  match a with
  | ⟨0, _⟩ => rfl
  | ⟨1, _⟩ =>
    refine ((DotDims.plain M K N).lhsIdx_val_of_single (cl := (1 : Fin 2)) rfl (ix2 r j) _).trans ?_
    exact contrEquiv1_symm_val (DotDims.plain M K N) K rfl rfl k

/-- At output `(r, j)` and contraction coordinate `k` the right operand is read at `(k, j)`. -/
theorem rhsIdx_plain (M K N : ℕ) (r : Fin M) (j : Fin N) (k : Fin K) :
    (DotDims.plain M K N).rhsIdx (ix2 r j) ((contrFin M K N).symm k) = ix2 k j := by
  funext a; apply Fin.ext
  match a with
  | ⟨0, _⟩ =>
    refine ((DotDims.plain M K N).rhsIdx_val_of_single (cr := (0 : Fin 2)) rfl (ix2 r j) _).trans ?_
    exact contrEquiv1_symm_val (DotDims.plain M K N) K rfl rfl k
  | ⟨1, _⟩ => rfl

/-- The contraction's sum of a plain product at `(r, j)`, over the coordinate `k`. -/
theorem sum_plain {M K N : ℕ} (L : (⟨2, ![M, K]⟩ : Shape).Idx → EReal) (R : (⟨2, ![K, N]⟩ : Shape).Idx → EReal)
    (r : Fin M) (j : Fin N) :
    (∑ q : (DotDims.plain M K N).contr.Idx,
        L ((DotDims.plain M K N).lhsIdx (ix2 r j) q) * R ((DotDims.plain M K N).rhsIdx (ix2 r j) q))
      = ∑ k : Fin K, L (ix2 r k) * R (ix2 k j) := by
  rw [← Equiv.sum_comp (contrFin M K N).symm]
  exact Finset.sum_congr rfl fun k _ => by rw [lhsIdx_plain, rhsIdx_plain]

/-- At the ideal values the kernel's matrix product into the zero accumulator, read at `(r, j)`. -/
theorem matmul_plain_apply {M K N : ℕ} {φ₁ φ₂ : FTy} (prec : Option ContractPrecision)
    (lhs : FVec Ideal ⟨2, ![M, K]⟩ φ₁) (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) :=
  (Ideal.matmul_constant_zero_apply _ prec lhs rhs (ix2 r j)).trans (sum_plain lhs rhs r j)

/-- At the ideal values the host's general product, read at `(r, j)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j)
      = ∑ k : Fin K, lhs (ix2 r k) * rhs (ix2 k j) :=
  (Ideal.dotGeneral_apply _ prec sched lhs rhs (ix2 r j)).trans (sum_plain lhs rhs r j)

end Cert.PlainDot

end
-- ==== Proof.ConvLayer.lean ====
import proofs.«167103_g2000007113644459_pallasbulk_1246_6_alg».proof.Proof.Spec
import proofs.«167103_g2000007113644459_pallasbulk_1246_6_alg».proof.Proof.ConvPad
import proofs.«167103_g2000007113644459_pallasbulk_1246_6_alg».proof.Proof.ConvPatch
import proofs.«167103_g2000007113644459_pallasbulk_1246_6_alg».proof.Proof.LibPlainDot
import Idealize.ShloMosaic.Lib.ValueLayout

noncomputable section

open scoped BigOperators

/-! # One convolution layer on the rows of a 16-image block

The patch matrix of a padded block (nine shifted views side by side) times the weight matrix, plus the bias row, clamped
at zero, is at row `r = image·1024 + h·32 + w` and output channel `o` the specification's convolution of that image at pixel
`(h, w)`: column `k` of the patch matrix holds the padded image at `(h + k/C/3, w + k/C%3, k%C)`, and `k/C/3 = k/(3·C)`. -/

namespace Cert.ConvLayer

open Idealize.ShloMosaic Idealize.ShloMosaic.ValueIdx Cert.Spec

/-- A padded block read at an index is the specification's padding of the block's image. -/
theorem padded_eq_pad {N C : ℕ} (u : (⟨4, ![N, 32, 32, C]⟩ : Shape).Idx → EReal) (b : Fin N) (i j : Fin 34) (q : Fin C) :
    Cert.ConvPad.padded u (0 : EReal) (ix4 b i j q) = Cert.Spec.pad (fun h w c => rd4 u b.val h w c) i.val j.val q.val := by
  unfold Cert.ConvPad.padded Cert.Spec.pad
  by_cases h : 1 ≤ i.val ∧ i.val ≤ 32 ∧ 1 ≤ j.val ∧ j.val ≤ 32
  · rw [dif_pos (show 1 ≤ ((ix4 b i j q : (⟨4, ![N, 34, 34, C]⟩ : Shape).Idx) 1).val ∧ ((ix4 b i j q : (⟨4, ![N, 34, 34, C]⟩ : Shape).Idx) 1).val ≤ 32
        ∧ 1 ≤ ((ix4 b i j q : (⟨4, ![N, 34, 34, C]⟩ : Shape).Idx) 2).val ∧ ((ix4 b i j q : (⟨4, ![N, 34, 34, C]⟩ : Shape).Idx) 2).val ≤ 32 from h), if_pos h]
    exact (rd4_of_lt u b ⟨i.val - 1, by omega⟩ ⟨j.val - 1, by omega⟩ q).symm
  · rw [dif_neg (show ¬(1 ≤ ((ix4 b i j q : (⟨4, ![N, 34, 34, C]⟩ : Shape).Idx) 1).val ∧ ((ix4 b i j q : (⟨4, ![N, 34, 34, C]⟩ : Shape).Idx) 1).val ≤ 32
        ∧ 1 ≤ ((ix4 b i j q : (⟨4, ![N, 34, 34, C]⟩ : Shape).Idx) 2).val ∧ ((ix4 b i j q : (⟨4, ![N, 34, 34, C]⟩ : Shape).Idx) 2).val ≤ 32) from h), if_neg h]

/-- One layer: nine views `f n` of the padded block `u` at offsets `(n / 3, n % 3)`, joined, times `wt`, plus `bias`, clamped. -/
theorem layer_rows {C K : ℕ} {φ₁ φ₂ : FTy} (hC : 0 < C) (hK : K = 9 * C) (u : (⟨4, ![16, 32, 32, C]⟩ : Shape).Idx → EReal)
    (f : Fin 9 → (⟨2, ![16384, C]⟩ : Shape).Idx → EReal)
    (hf : ∀ (n : Fin 9) (r : Fin 16384) (q : Fin C), f n (ix2 r q)
      = Cert.ConvPad.padded u (0 : EReal) (ix4 (⟨r.val / 1024, by have := r.isLt; omega⟩ : Fin 16)
          (⟨r.val / 32 % 32 + n.val / 3, by have := n.isLt; omega⟩ : Fin 34) (⟨r.val % 32 + n.val % 3, by omega⟩ : Fin 34) q))
    (hcat : Shape.Concatenates ((List.ofFn fun n : Fin 9 => (⟨⟨2, ![16384, C]⟩, f n⟩ : (s : Shape) × (s.Idx → EReal))).map (·.1)) ⟨2, ![16384, K]⟩ (1 : Fin 2))
    (wt : FVec Ideal ⟨2, ![K, 32]⟩ φ₂) (bias : (⟨2, ![1, 32]⟩ : Shape).Idx → EReal) (hb : (⟨2, ![1, 32]⟩ : Shape).Broadcasts ⟨2, ![16384, 32]⟩)
    (r : Fin 16384) (o : Fin 32) :
    max (FloatOps.matmul (DotDims.plain 16384 K 32) none
            (concatenate ⟨2, ![16384, K]⟩ (1 : Fin 2) (List.ofFn fun n : Fin 9 => (⟨⟨2, ![16384, C]⟩, f n⟩ : (s : Shape) × (s.Idx → EReal))) hcat : FVec Ideal ⟨2, ![16384, K]⟩ φ₁)
            wt (constant ⟨2, ![16384, 32]⟩ .f32 0x00000000#32) (ix2 r o)
          + broadcastTo ⟨2, ![16384, 32]⟩ bias hb (ix2 r o)) (Ideal.ofBits .f32 0x00000000#32)
      = conv K C (fun h w c => rd4 u (r.val / 1024) h w c) wt bias (r.val / 32 % 32) (r.val % 32) o.val := by
  have hr := r.isLt
  rw [Cert.PlainDot.matmul_plain_apply, broadcastTo_1b_ab_apply, Ideal.ofBits_zero_f32]
  unfold conv
  refine congrArg (fun s => max s (0 : EReal)) ?_
  refine congrArg₂ (· + ·) (Finset.sum_congr rfl fun k _ => ?_) (rd2_of_lt bias (0 : Fin 1) o).symm
  have hk := k.isLt
  have hkd : k.val / C < 9 := Nat.div_lt_of_lt_mul (by omega)
  rw [Cert.ConvPatch.joined_apply hC hK f hcat r k, hf, padded_eq_pad, rd2_of_lt wt k o]
  refine congrArg (· * wt (ix2 k o)) ?_
  show Cert.Spec.pad _ (r.val / 32 % 32 + k.val / C / 3) (r.val % 32 + k.val / C % 3) (k.val % C) = _
  rw [Nat.div_div_eq_div_mul, Nat.mul_comm C 3]

/-- The same with the nine views listed one by one. -/
theorem layer_rows_list {C K : ℕ} {φ₁ φ₂ : FTy} (hC : 0 < C) (hK : K = 9 * C) (u : (⟨4, ![16, 32, 32, C]⟩ : Shape).Idx → EReal)
    (f : Fin 9 → (⟨2, ![16384, C]⟩ : Shape).Idx → EReal)
    (hf : ∀ (n : Fin 9) (r : Fin 16384) (q : Fin C), f n (ix2 r q)
      = Cert.ConvPad.padded u (0 : EReal) (ix4 (⟨r.val / 1024, by have := r.isLt; omega⟩ : Fin 16)
          (⟨r.val / 32 % 32 + n.val / 3, by have := n.isLt; omega⟩ : Fin 34) (⟨r.val % 32 + n.val % 3, by omega⟩ : Fin 34) q))
    (hcat : Shape.Concatenates (([(⟨⟨2, ![16384, C]⟩, f 0⟩ : (s : Shape) × (s.Idx → EReal)), (⟨⟨2, ![16384, C]⟩, f 1⟩ : (s : Shape) × (s.Idx → EReal)), (⟨⟨2, ![16384, C]⟩, f 2⟩ : (s : Shape) × (s.Idx → EReal)), (⟨⟨2, ![16384, C]⟩, f 3⟩ : (s : Shape) × (s.Idx → EReal)), (⟨⟨2, ![16384, C]⟩, f 4⟩ : (s : Shape) × (s.Idx → EReal)), (⟨⟨2, ![16384, C]⟩, f 5⟩ : (s : Shape) × (s.Idx → EReal)), (⟨⟨2, ![16384, C]⟩, f 6⟩ : (s : Shape) × (s.Idx → EReal)), (⟨⟨2, ![16384, C]⟩, f 7⟩ : (s : Shape) × (s.Idx → EReal)), (⟨⟨2, ![16384, C]⟩, f 8⟩ : (s : Shape) × (s.Idx → EReal))]).map (·.1)) ⟨2, ![16384, K]⟩ (1 : Fin 2))
    (wt : FVec Ideal ⟨2, ![K, 32]⟩ φ₂) (bias : (⟨2, ![1, 32]⟩ : Shape).Idx → EReal) (hb : (⟨2, ![1, 32]⟩ : Shape).Broadcasts ⟨2, ![16384, 32]⟩)
    (r : Fin 16384) (o : Fin 32) :
    max (FloatOps.matmul (DotDims.plain 16384 K 32) none
            (concatenate ⟨2, ![16384, K]⟩ (1 : Fin 2) ([(⟨⟨2, ![16384, C]⟩, f 0⟩ : (s : Shape) × (s.Idx → EReal)), (⟨⟨2, ![16384, C]⟩, f 1⟩ : (s : Shape) × (s.Idx → EReal)), (⟨⟨2, ![16384, C]⟩, f 2⟩ : (s : Shape) × (s.Idx → EReal)), (⟨⟨2, ![16384, C]⟩, f 3⟩ : (s : Shape) × (s.Idx → EReal)), (⟨⟨2, ![16384, C]⟩, f 4⟩ : (s : Shape) × (s.Idx → EReal)), (⟨⟨2, ![16384, C]⟩, f 5⟩ : (s : Shape) × (s.Idx → EReal)), (⟨⟨2, ![16384, C]⟩, f 6⟩ : (s : Shape) × (s.Idx → EReal)), (⟨⟨2, ![16384, C]⟩, f 7⟩ : (s : Shape) × (s.Idx → EReal)), (⟨⟨2, ![16384, C]⟩, f 8⟩ : (s : Shape) × (s.Idx → EReal))]) hcat : FVec Ideal ⟨2, ![16384, K]⟩ φ₁)
            wt (constant ⟨2, ![16384, 32]⟩ .f32 0x00000000#32) (ix2 r o)
          + broadcastTo ⟨2, ![16384, 32]⟩ bias hb (ix2 r o)) (Ideal.ofBits .f32 0x00000000#32)
      = conv K C (fun h w c => rd4 u (r.val / 1024) h w c) wt bias (r.val / 32 % 32) (r.val % 32) o.val :=
  layer_rows (φ₁ := φ₁) hC hK u f hf hcat wt bias hb r o

/-- Rows `[16384, C]` seen as a block `[16, 32, 32, C]`: entry `(b, h, w, q)` is row `b·1024 + h·32 + w`. -/
theorem rows_block_apply {α : Type} {C : ℕ} (x : (⟨2, ![16384, C]⟩ : Shape).Idx → α)
    (hc : (⟨2, ![16384, C]⟩ : Shape).ShapeCasts ⟨4, ![16, 32, 32, C]⟩) (b : Fin 16) (h w : Fin 32) (q : Fin C) :
    shapeCast ⟨4, ![16, 32, 32, C]⟩ x hc (ix4 b h w q)
      = x (ix2 (⟨b.val * 1024 + h.val * 32 + w.val, by have := b.isLt; have := h.isLt; have := w.isLt; omega⟩ : Fin 16384) q) := by
  refine shapeCast_apply x hc _ _ ?_
  rw [Shape.rowMajor_val_two, Shape.rowMajor_val_four]
  show (b.val * 1024 + h.val * 32 + w.val) * C + q.val = ((b.val * 32 + h.val) * 32 + w.val) * C + q.val
  have : b.val * 1024 + h.val * 32 + w.val = (b.val * 32 + h.val) * 32 + w.val := by omega
  rw [this]

/-- A block `[16, 32, 32, C]` seen as rows `[16384, C]`: row `r` is entry `(r / 1024, r / 32 % 32, r % 32)`. -/
theorem block_rows_apply {α : Type} {C : ℕ} (x : (⟨4, ![16, 32, 32, C]⟩ : Shape).Idx → α)
    (hc : (⟨4, ![16, 32, 32, C]⟩ : Shape).ShapeCasts ⟨2, ![16384, C]⟩) (r : Fin 16384) (q : Fin C) :
    shapeCast ⟨2, ![16384, C]⟩ x hc (ix2 r q)
      = x (ix4 (⟨r.val / 1024, by have := r.isLt; omega⟩ : Fin 16) (⟨r.val / 32 % 32, Nat.mod_lt _ (by decide)⟩ : Fin 32)
          (⟨r.val % 32, Nat.mod_lt _ (by decide)⟩ : Fin 32) q) := by
  have hr := r.isLt
  refine shapeCast_apply x hc _ _ ?_
  rw [Shape.rowMajor_val_four, Shape.rowMajor_val_two]
  show ((r.val / 1024 * 32 + r.val / 32 % 32) * 32 + r.val % 32) * C + q.val = r.val * C + q.val
  have : (r.val / 1024 * 32 + r.val / 32 % 32) * 32 + r.val % 32 = r.val := by omega
  rw [this]

/-- Rows `[16384, 32]` seen as `[16, 1024, 32]`: entry `(b, p, o)` is row `b·1024 + p`. -/
theorem rows_flat_apply {α : Type} (x : (⟨2, ![16384, 32]⟩ : Shape).Idx → α)
    (hc : (⟨2, ![16384, 32]⟩ : Shape).ShapeCasts ⟨3, ![16, 1024, 32]⟩) (b : Fin 16) (p : Fin 1024) (o : Fin 32) :
    shapeCast ⟨3, ![16, 1024, 32]⟩ x hc (ix3 b p o)
      = x (ix2 (⟨b.val * 1024 + p.val, by have := b.isLt; have := p.isLt; omega⟩ : Fin 16384) o) := by
  refine shapeCast_apply x hc _ _ ?_
  rw [Shape.rowMajor_val_two, Shape.rowMajor_val_three]
  rfl

/-- The convolution only reads its image inside the 32 × 32 × C extents. -/
theorem conv_congr {K C : ℕ} (hC : 0 < C) (g g' : ℕ → ℕ → ℕ → EReal)
    (hg : ∀ h w c, h < 32 → w < 32 → c < C → g h w c = g' h w c)
    (wt : (⟨2, ![K, 32]⟩ : Shape).Idx → EReal) (bias : (⟨2, ![1, 32]⟩ : Shape).Idx → EReal) (h w o : ℕ) :
    conv K C g wt bias h w o = conv K C g' wt bias h w o := by
  unfold conv
  refine congrArg (fun s => max (s + rd2 bias 0 o) (0 : EReal)) (Finset.sum_congr rfl fun k _ => ?_)
  refine congrArg (· * rd2 wt k.val o) ?_
  unfold Cert.Spec.pad
  split
  · rename_i hh
    exact hg _ _ _ (by omega) (by omega) (Nat.mod_lt _ hC)
  · rfl

end Cert.ConvLayer

end
-- ==== Proof.ConvBlockSpec.lean ====
import proofs.«167103_g2000007113644459_pallasbulk_1246_6_alg».proof.Proof.Spec

noncomputable section

/-! # The two convolutions on a block of 16 images

What the kernel's convolution body leaves in its output block `[16, 1024, 32]`, as a function of its input block
`[16, 32, 32, 3]` and the weights: at image `b`, flat pixel `p = h·32 + w` and channel `o`, the second convolution at
`(h, w, o)` of the first convolution of image `b`. -/

namespace Cert.Spec

open Idealize.ShloMosaic Idealize.ShloMosaic.ValueIdx

/-- The first convolution of image `b` of an `N`-image batch. -/
def hidN {N : ℕ} (x : (⟨4, ![N, 32, 32, 3]⟩ : Shape).Idx → EReal) (w1 : (⟨2, ![27, 32]⟩ : Shape).Idx → EReal) (b1 : (⟨2, ![1, 32]⟩ : Shape).Idx → EReal)
    (b : ℕ) : ℕ → ℕ → ℕ → EReal := fun h w o => conv 27 3 (fun h w c => rd4 x b h w c) w1 b1 h w o

/-- The two convolutions on a 16-image block. -/
def convBlock16 (x : (⟨4, ![16, 32, 32, 3]⟩ : Shape).Idx → EReal) (w1 : (⟨2, ![27, 32]⟩ : Shape).Idx → EReal) (b1 : (⟨2, ![1, 32]⟩ : Shape).Idx → EReal)
    (w2 : (⟨2, ![288, 32]⟩ : Shape).Idx → EReal) (b2 : (⟨2, ![1, 32]⟩ : Shape).Idx → EReal) : (⟨3, ![16, 1024, 32]⟩ : Shape).Idx → EReal :=
  fun j => conv 288 32 (hidN x w1 b1 (j 0).val) w2 b2 ((j 1).val / 32) ((j 1).val % 32) (j 2).val

end Cert.Spec

end
-- ==== Proof.KIConvBlock.lean ====
import proofs.«167103_g2000007113644459_pallasbulk_1246_6_alg».proof.Proof.KIConvBody
import proofs.«167103_g2000007113644459_pallasbulk_1246_6_alg».proof.Proof.ConvLayer
import proofs.«167103_g2000007113644459_pallasbulk_1246_6_alg».proof.Proof.ConvBlockSpec
import Idealize.ShloMosaic.Lib.Pipeline.Value
import Idealize.ShloMosaic.Lib.ValueIdx
import Idealize.ShloMosaic.Lib.Tactic

set_option maxRecDepth 16384

noncomputable section

open scoped BigOperators

/-! # What the convolution body leaves in its output block, at the ideal values

The body's one store of the output block holds, as a function of the five input blocks: the padded input block (the fill
and the interior store of the first scratch), its nine shifted views side by side times the first weights plus the first
bias clamped at zero — the first convolution of each of the 16 images —, that result padded the same way in the second
scratch, and the same once more with the second weights and bias. A change of float format is the identity here, and both
zero literals are the real number zero. -/

namespace Cert.KernelIdeal.ConvValue

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Cert.Spec Cert.ConvPad Cert.ConvLayer

theorem ofBits_zero_bf16 : Ideal.ofBits .bf16 0x0000#16 = 0 := by simp [Ideal.ofBits, Ideal.ieee]

/-- The first scratch's fill is zero everywhere. -/
theorem pay2_eq : (k0_pay2 (F := Ideal)) = fun _ => (0 : EReal) := by
  funext y; unfold k0_pay2; simp only [shapeCast_self]; exact ofBits_zero_bf16

/-- The second scratch's fill is zero everywhere. -/
theorem pay9_eq : (k0_pay9 (F := Ideal)) = fun _ => (0 : EReal) := by
  funext y; unfold k0_pay9; simp only [shapeCast_self]; exact ofBits_zero_bf16

/-- The interior store of the first scratch stores the input block itself. -/
theorem pay3_eq (x : Vec Ideal S16x32x32x3 .bf16) : k0_pay3 (F := Ideal) x = x := by
  unfold k0_pay3; simp only [shapeCast_self]

/-- THE FIRST CONVOLUTION: the nine views of the padded input block `P = padded x0 0`, joined, times the first weights, plus
    the first bias, clamped, as the block `[16, 32, 32, 32]`. -/
theorem hid_apply (x0 : Vec Ideal S16x32x32x3 .bf16) (x1 : Vec Ideal S27x32 .bf16) (x2 : Vec Ideal S1x32 .f32)
    (i0 : ∀ a, (![0, 0, 0, 0] : Fin 4 → ℕ) a + S16x32x32x3.size a ≤ S16x34x34x3.size a) (i1 : ∀ a, (![0, 0, 1, 0] : Fin 4 → ℕ) a + S16x32x32x3.size a ≤ S16x34x34x3.size a) (i2 : ∀ a, (![0, 0, 2, 0] : Fin 4 → ℕ) a + S16x32x32x3.size a ≤ S16x34x34x3.size a) (i3 : ∀ a, (![0, 1, 0, 0] : Fin 4 → ℕ) a + S16x32x32x3.size a ≤ S16x34x34x3.size a) (i4 : ∀ a, (![0, 1, 1, 0] : Fin 4 → ℕ) a + S16x32x32x3.size a ≤ S16x34x34x3.size a) (i5 : ∀ a, (![0, 1, 2, 0] : Fin 4 → ℕ) a + S16x32x32x3.size a ≤ S16x34x34x3.size a) (i6 : ∀ a, (![0, 2, 0, 0] : Fin 4 → ℕ) a + S16x32x32x3.size a ≤ S16x34x34x3.size a) (i7 : ∀ a, (![0, 2, 1, 0] : Fin 4 → ℕ) a + S16x32x32x3.size a ≤ S16x34x34x3.size a) (i8 : ∀ a, (![0, 2, 2, 0] : Fin 4 → ℕ) a + S16x32x32x3.size a ≤ S16x34x34x3.size a) (b : Fin 16) (h w : Fin 32) (o : Fin 32) :
    k0_pay10 (F := Ideal) (k0_pay4 (fun j => padded x0 (0 : EReal) ((Rect.unit (s := S16x34x34x3) ![0, 0, 0, 0] S16x32x32x3.size i0).toLoadRect.idx j))) (k0_pay5 (fun j => padded x0 (0 : EReal) ((Rect.unit (s := S16x34x34x3) ![0, 0, 1, 0] S16x32x32x3.size i1).toLoadRect.idx j)))
        (k0_pay6 (fun j => padded x0 (0 : EReal) ((Rect.unit (s := S16x34x34x3) ![0, 0, 2, 0] S16x32x32x3.size i2).toLoadRect.idx j))) (k0_pay7 (fun j => padded x0 (0 : EReal) ((Rect.unit (s := S16x34x34x3) ![0, 1, 0, 0] S16x32x32x3.size i3).toLoadRect.idx j)))
        (k0_pay8 (fun j => padded x0 (0 : EReal) ((Rect.unit (s := S16x34x34x3) ![0, 1, 1, 0] S16x32x32x3.size i4).toLoadRect.idx j))) (fun j => padded x0 (0 : EReal) ((Rect.unit (s := S16x34x34x3) ![0, 1, 2, 0] S16x32x32x3.size i5).toLoadRect.idx j))
        (fun j => padded x0 (0 : EReal) ((Rect.unit (s := S16x34x34x3) ![0, 2, 0, 0] S16x32x32x3.size i6).toLoadRect.idx j))
        (fun j => padded x0 (0 : EReal) ((Rect.unit (s := S16x34x34x3) ![0, 2, 1, 0] S16x32x32x3.size i7).toLoadRect.idx j))
        (fun j => padded x0 (0 : EReal) ((Rect.unit (s := S16x34x34x3) ![0, 2, 2, 0] S16x32x32x3.size i8).toLoadRect.idx j))
        x1 x2 (ix4 b h w o)
      = hidN x0 x1 x2 b.val h.val w.val o.val := by
  have hb := b.isLt; have hh := h.isLt; have hw := w.isLt
  unfold k0_pay10 k0_pay4 k0_pay5 k0_pay6 k0_pay7 k0_pay8
  dsimp only
  simp only [shapeCast_self]
  rw [rows_block_apply]
  let l : Fin 9 → (⟨4, ![16, 32, 32, 3]⟩ : Shape).Idx → EReal := ![(fun j => padded x0 (0 : EReal) ((Rect.unit (s := S16x34x34x3) ![0, 0, 0, 0] S16x32x32x3.size i0).toLoadRect.idx j)),
    (fun j => padded x0 (0 : EReal) ((Rect.unit (s := S16x34x34x3) ![0, 0, 1, 0] S16x32x32x3.size i1).toLoadRect.idx j)),
    (fun j => padded x0 (0 : EReal) ((Rect.unit (s := S16x34x34x3) ![0, 0, 2, 0] S16x32x32x3.size i2).toLoadRect.idx j)),
    (fun j => padded x0 (0 : EReal) ((Rect.unit (s := S16x34x34x3) ![0, 1, 0, 0] S16x32x32x3.size i3).toLoadRect.idx j)),
    (fun j => padded x0 (0 : EReal) ((Rect.unit (s := S16x34x34x3) ![0, 1, 1, 0] S16x32x32x3.size i4).toLoadRect.idx j)),
    (fun j => padded x0 (0 : EReal) ((Rect.unit (s := S16x34x34x3) ![0, 1, 2, 0] S16x32x32x3.size i5).toLoadRect.idx j)),
    (fun j => padded x0 (0 : EReal) ((Rect.unit (s := S16x34x34x3) ![0, 2, 0, 0] S16x32x32x3.size i6).toLoadRect.idx j)),
    (fun j => padded x0 (0 : EReal) ((Rect.unit (s := S16x34x34x3) ![0, 2, 1, 0] S16x32x32x3.size i7).toLoadRect.idx j)),
    (fun j => padded x0 (0 : EReal) ((Rect.unit (s := S16x34x34x3) ![0, 2, 2, 0] S16x32x32x3.size i8).toLoadRect.idx j))]
  have hl : ∀ (n : Fin 9) (b : Fin 16) (h w : Fin 32) (q : Fin 3), l n (ix4 b h w q)
      = padded x0 (0 : EReal) (ix4 b (⟨h.val + n.val / 3, by have := n.isLt; have := h.isLt; omega⟩ : Fin 34) (⟨w.val + n.val % 3, by have := w.isLt; omega⟩ : Fin 34) q) :=
    fun n b h w q => by
      fin_cases n <;> exact congrArg (padded _ (0 : EReal)) (funext fun a => Fin.ext (by
        match a with
        | ⟨0, _⟩ => show 0 + 1 * b.val = b.val; omega
        | ⟨1, _⟩ => first | (show 0 + 1 * h.val = h.val + 0; omega) | (show 1 + 1 * h.val = h.val + 1; omega) | (show 2 + 1 * h.val = h.val + 2; omega)
        | ⟨2, _⟩ => first | (show 0 + 1 * w.val = w.val + 0; omega) | (show 1 + 1 * w.val = w.val + 1; omega) | (show 2 + 1 * w.val = w.val + 2; omega)
        | ⟨3, _⟩ => show 0 + 1 * q.val = q.val; omega))
  refine (layer_rows_list (φ₁ := .bf16) (φ₂ := .bf16) (C := 3) (K := 27) (by decide) rfl x0
    (fun n => shapeCast (⟨2, ![16384, 3]⟩ : Shape) (l n) shapeCasts_S16x32x32x3_S16384x3)
    (fun n r q => (block_rows_apply (l n) _ r q).trans (hl n _ _ _ q)) _ x1 x2 _
    (⟨b.val * 1024 + h.val * 32 + w.val, by omega⟩ : Fin 16384) o).trans ?_
  unfold hidN
  have e1 : (b.val * 1024 + h.val * 32 + w.val) / 1024 = b.val := by omega
  have e2 : (b.val * 1024 + h.val * 32 + w.val) / 32 % 32 = h.val := by omega
  have e3 : (b.val * 1024 + h.val * 32 + w.val) % 32 = w.val := by omega
  show conv 27 3 (fun h' w' c => rd4 x0 ((b.val * 1024 + h.val * 32 + w.val) / 1024) h' w' c) x1 x2 ((b.val * 1024 + h.val * 32 + w.val) / 32 % 32) ((b.val * 1024 + h.val * 32 + w.val) % 32) o.val = _
  rw [e1, e2, e3]

/-- THE SECOND CONVOLUTION and the output block: the same on the padded first result `padded U 0`, with the second weights
    and bias, laid out as `[16, 1024, 32]`. -/
theorem out_apply (U : FVec Ideal S16x32x32x32 .bf16) (x3 : Vec Ideal S288x32 .bf16) (x4 : Vec Ideal S1x32 .f32)
    (i0 : ∀ a, (![0, 0, 0, 0] : Fin 4 → ℕ) a + S16x32x32x32.size a ≤ S16x34x34x32.size a) (i1 : ∀ a, (![0, 0, 1, 0] : Fin 4 → ℕ) a + S16x32x32x32.size a ≤ S16x34x34x32.size a) (i2 : ∀ a, (![0, 0, 2, 0] : Fin 4 → ℕ) a + S16x32x32x32.size a ≤ S16x34x34x32.size a) (i3 : ∀ a, (![0, 1, 0, 0] : Fin 4 → ℕ) a + S16x32x32x32.size a ≤ S16x34x34x32.size a) (i4 : ∀ a, (![0, 1, 1, 0] : Fin 4 → ℕ) a + S16x32x32x32.size a ≤ S16x34x34x32.size a) (i5 : ∀ a, (![0, 1, 2, 0] : Fin 4 → ℕ) a + S16x32x32x32.size a ≤ S16x34x34x32.size a) (i6 : ∀ a, (![0, 2, 0, 0] : Fin 4 → ℕ) a + S16x32x32x32.size a ≤ S16x34x34x32.size a) (i7 : ∀ a, (![0, 2, 1, 0] : Fin 4 → ℕ) a + S16x32x32x32.size a ≤ S16x34x34x32.size a) (i8 : ∀ a, (![0, 2, 2, 0] : Fin 4 → ℕ) a + S16x32x32x32.size a ≤ S16x34x34x32.size a) (b : Fin 16) (p : Fin 1024) (o : Fin 32) :
    k0_pay1 (F := Ideal) (k0_pay12 (k0_pay11 (fun j => padded U (0 : EReal) ((Rect.unit (s := S16x34x34x32) ![0, 0, 0, 0] S16x32x32x32.size i0).toLoadRect.idx j)))
        (fun j => padded U (0 : EReal) ((Rect.unit (s := S16x34x34x32) ![0, 0, 1, 0] S16x32x32x32.size i1).toLoadRect.idx j))
        (fun j => padded U (0 : EReal) ((Rect.unit (s := S16x34x34x32) ![0, 0, 2, 0] S16x32x32x32.size i2).toLoadRect.idx j))
        (fun j => padded U (0 : EReal) ((Rect.unit (s := S16x34x34x32) ![0, 1, 0, 0] S16x32x32x32.size i3).toLoadRect.idx j))
        (fun j => padded U (0 : EReal) ((Rect.unit (s := S16x34x34x32) ![0, 1, 1, 0] S16x32x32x32.size i4).toLoadRect.idx j))
        (fun j => padded U (0 : EReal) ((Rect.unit (s := S16x34x34x32) ![0, 1, 2, 0] S16x32x32x32.size i5).toLoadRect.idx j))
        (fun j => padded U (0 : EReal) ((Rect.unit (s := S16x34x34x32) ![0, 2, 0, 0] S16x32x32x32.size i6).toLoadRect.idx j))
        (fun j => padded U (0 : EReal) ((Rect.unit (s := S16x34x34x32) ![0, 2, 1, 0] S16x32x32x32.size i7).toLoadRect.idx j))
        (fun j => padded U (0 : EReal) ((Rect.unit (s := S16x34x34x32) ![0, 2, 2, 0] S16x32x32x32.size i8).toLoadRect.idx j))
        x3 x4) (ix3 b p o)
      = conv 288 32 (fun h w c => rd4 U b.val h w c) x3 x4 (p.val / 32) (p.val % 32) o.val := by
  have hb := b.isLt; have hp := p.isLt
  unfold k0_pay1 k0_pay12 k0_pay11
  dsimp only
  simp only [shapeCast_self]
  rw [rows_flat_apply]
  let l : Fin 9 → (⟨4, ![16, 32, 32, 32]⟩ : Shape).Idx → EReal := ![(fun j => padded U (0 : EReal) ((Rect.unit (s := S16x34x34x32) ![0, 0, 0, 0] S16x32x32x32.size i0).toLoadRect.idx j)),
    (fun j => padded U (0 : EReal) ((Rect.unit (s := S16x34x34x32) ![0, 0, 1, 0] S16x32x32x32.size i1).toLoadRect.idx j)),
    (fun j => padded U (0 : EReal) ((Rect.unit (s := S16x34x34x32) ![0, 0, 2, 0] S16x32x32x32.size i2).toLoadRect.idx j)),
    (fun j => padded U (0 : EReal) ((Rect.unit (s := S16x34x34x32) ![0, 1, 0, 0] S16x32x32x32.size i3).toLoadRect.idx j)),
    (fun j => padded U (0 : EReal) ((Rect.unit (s := S16x34x34x32) ![0, 1, 1, 0] S16x32x32x32.size i4).toLoadRect.idx j)),
    (fun j => padded U (0 : EReal) ((Rect.unit (s := S16x34x34x32) ![0, 1, 2, 0] S16x32x32x32.size i5).toLoadRect.idx j)),
    (fun j => padded U (0 : EReal) ((Rect.unit (s := S16x34x34x32) ![0, 2, 0, 0] S16x32x32x32.size i6).toLoadRect.idx j)),
    (fun j => padded U (0 : EReal) ((Rect.unit (s := S16x34x34x32) ![0, 2, 1, 0] S16x32x32x32.size i7).toLoadRect.idx j)),
    (fun j => padded U (0 : EReal) ((Rect.unit (s := S16x34x34x32) ![0, 2, 2, 0] S16x32x32x32.size i8).toLoadRect.idx j))]
  have hl : ∀ (n : Fin 9) (b : Fin 16) (h w : Fin 32) (q : Fin 32), l n (ix4 b h w q)
      = padded U (0 : EReal) (ix4 b (⟨h.val + n.val / 3, by have := n.isLt; have := h.isLt; omega⟩ : Fin 34) (⟨w.val + n.val % 3, by have := w.isLt; omega⟩ : Fin 34) q) :=
    fun n b h w q => by
      fin_cases n <;> exact congrArg (padded _ (0 : EReal)) (funext fun a => Fin.ext (by
        match a with
        | ⟨0, _⟩ => show 0 + 1 * b.val = b.val; omega
        | ⟨1, _⟩ => first | (show 0 + 1 * h.val = h.val + 0; omega) | (show 1 + 1 * h.val = h.val + 1; omega) | (show 2 + 1 * h.val = h.val + 2; omega)
        | ⟨2, _⟩ => first | (show 0 + 1 * w.val = w.val + 0; omega) | (show 1 + 1 * w.val = w.val + 1; omega) | (show 2 + 1 * w.val = w.val + 2; omega)
        | ⟨3, _⟩ => show 0 + 1 * q.val = q.val; omega))
  refine (layer_rows_list (φ₁ := .bf16) (φ₂ := .bf16) (C := 32) (K := 288) (by decide) rfl U
    (fun n => shapeCast (⟨2, ![16384, 32]⟩ : Shape) (l n) shapeCasts_S16x32x32x32_S16384x32)
    (fun n r q => (block_rows_apply (l n) _ r q).trans (hl n _ _ _ q)) _ x3 x4 _
    (⟨b.val * 1024 + p.val, by omega⟩ : Fin 16384) o).trans ?_
  have e1 : (b.val * 1024 + p.val) / 1024 = b.val := by omega
  have e2 : (b.val * 1024 + p.val) / 32 % 32 = p.val / 32 := by omega
  have e3 : (b.val * 1024 + p.val) % 32 = p.val % 32 := by omega
  show conv 288 32 (fun h' w' c => rd4 U ((b.val * 1024 + p.val) / 1024) h' w' c) x3 x4 ((b.val * 1024 + p.val) / 32 % 32) ((b.val * 1024 + p.val) % 32) o.val = _
  rw [e1, e2, e3]

theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz2 : (![0, 0] : Fin 2 → Nat) = fun _ => 0 := funext fun a => by fin_cases a <;> rfl

set_option maxHeartbeats 800000 in
/-- The output block the run leaves is the two convolutions of the input block. -/
theorem hblock (c : Dev nD) (i : grid0.Coords) (arg1 : Memref sig .tc .vmem S16x32x32x3 .bf16) (harg1 : arg1.IsWhole) (arg2 : Memref sig .tc .vmem S27x32 .bf16) (harg2 : arg2.IsWhole) (arg3 : Memref sig .tc .vmem S1x32 .f32) (harg3 : arg3.IsWhole) (arg4 : Memref sig .tc .vmem S288x32 .bf16) (harg4 : arg4.IsWhole) (arg5 : Memref sig .tc .vmem S1x32 .f32) (harg5 : arg5.IsWhole) (arg6 : Memref sig .tc .vmem S16x1024x32 .bf16) (harg6 : arg6.IsWhole) (arg7 : Memref sig .tc .vmem S16x34x34x3 .bf16) (harg7 : arg7.IsWhole) (arg8 : Memref sig .tc .vmem S16x34x34x32 .bf16) (harg8 : arg8.IsWhole)
    (x0 : Vec Ideal S16x32x32x3 .bf16) (x1 : Vec Ideal S27x32 .bf16) (x2 : Vec Ideal S1x32 .f32) (x3 : Vec Ideal S288x32 .bf16) (x4 : Vec Ideal S1x32 .f32) :
    out0_5 (F := Ideal) c i arg1 harg1 arg2 harg2 arg3 harg3 arg4 harg4 arg5 harg5 arg6 harg6 arg7 harg7 arg8 harg8 x0 x1 x2 x3 x4 = convBlock16 x0 x1 x2 x3 x4 := by
  unfold out0_5
  rw [View.read_writes_eq_canon _ _ _ (cover0_5 c i arg1 harg1 arg2 harg2 arg3 harg3 arg4 harg4 arg5 harg5 arg6 harg6 arg7 harg7 arg8 harg8 x0 x1 x2 x3 x4)]
  unfold kernelRun0
  dsimp only
  sl_unfold_words
  rw [View.canon_unit_zero hz3]
  simp only [View.readAt_eq_ld, harg1.read_unread, harg2.read_unread, harg3.read_unread, harg4.read_unread, harg5.read_unread,
    View.ld_unit_zero (S := S16x32x32x3) hz4, View.ld_unit_zero (S := S27x32) hz2, View.ld_unit_zero (S := S1x32) hz2, View.ld_unit_zero (S := S288x32) hz2,
    View.readCov_eq_canon']
  simp only [pay2_eq, pay9_eq, pay3_eq]
  funext j
  obtain ⟨b, p, o, rfl⟩ : ∃ (b : Fin 16) (p : Fin 1024) (o : Fin 32), j = ix3 b p o := ⟨j 0, j 1, j 2, eq_ix3 j⟩
  generalize hU : k0_pay10 (F := Ideal) _ _ _ _ _ _ _ _ _ _ _ = U
  rw (config := {transparency := .default}) [canon_padded_fill (Val := Elt Ideal) (e := EltTy.bf16) (N := 16) (C := 32) U (0 : EReal)]
  refine (out_apply U x3 x4 _ _ _ _ _ _ _ _ _ b p o).trans ?_
  unfold convBlock16
  show conv 288 32 _ x3 x4 (p.val / 32) (p.val % 32) o.val = conv 288 32 (hidN x0 x1 x2 b.val) x3 x4 (p.val / 32) (p.val % 32) o.val
  refine conv_congr (by decide) _ _ (fun h w q hh hw hq => ?_) x3 x4 _ _ _
  rw [show h = (⟨h, hh⟩ : Fin 32).val from rfl, show w = (⟨w, hw⟩ : Fin 32).val from rfl, show q = (⟨q, hq⟩ : Fin 32).val from rfl, rd4_of_lt]
  rw [← hU]
  rw (config := {transparency := .default}) [canon_padded_fill (Val := Elt Ideal) (e := EltTy.bf16) (N := 16) (C := 3) x0 (0 : EReal)]
  exact hid_apply x0 x1 x2 _ _ _ _ _ _ _ _ _ b ⟨h, hh⟩ ⟨w, hw⟩ ⟨q, hq⟩

end Cert.KernelIdeal.ConvValue

end
-- ==== Proof.KIConvArray.lean ====
import proofs.«167103_g2000007113644459_pallasbulk_1246_6_alg».proof.Proof.KIConvBody
import proofs.«167103_g2000007113644459_pallasbulk_1246_6_alg».proof.Proof.ConvBlockSpec
import Idealize.ShloMosaic.Lib.Pipeline.Value
import Idealize.ShloMosaic.Lib.ValueIdx

set_option maxRecDepth 16384

noncomputable section

namespace Cert.KernelIdeal.ConvArray

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Spec

/-! # The convolution region's result, from its blocks

Point `t` of the eight works on images `16 t … 16 t + 15`: its input block is those images, the weights and biases are
whole at every point, and its output block is rows `16 t …` of the result, written back at every point. Given that the
body leaves in its output block the two convolutions of its input block, the result array is the two convolutions of the
whole batch: image `n` lies in block `n / 16` at position `n % 16`, and the convolutions of an image do not look at the
other images. -/

/-- Where the image window's and the output window's blocks sit at point `t`: at `t` on the image axis, at zero on the
    others. -/
theorem idx0 : ∀ t : Fin cfg0.N, (win0_0.index t 0 = t.val ∧ win0_0.index t 1 = 0 ∧ win0_0.index t 2 = 0 ∧ win0_0.index t 3 = 0)
      ∧ (win0_5.index t 0 = t.val ∧ win0_5.index t 1 = 0 ∧ win0_5.index t 2 = 0) :=
  (by decide +kernel : ∀ t : Fin grid0.N, (win0_0.index t 0 = t.val ∧ win0_0.index t 1 = 0 ∧ win0_0.index t 2 = 0 ∧ win0_0.index t 3 = 0)
      ∧ (win0_5.index t 0 = t.val ∧ win0_5.index t 1 = 0 ∧ win0_5.index t 2 = 0))

/-- The weights' and biases' windows sit at zero at every point. -/
theorem idx0w : ∀ t : Fin cfg0.N, (win0_1.index t 0 = 0 ∧ win0_1.index t 1 = 0) ∧ (win0_2.index t 0 = 0 ∧ win0_2.index t 1 = 0)
      ∧ (win0_3.index t 0 = 0 ∧ win0_3.index t 1 = 0) ∧ (win0_4.index t 0 = 0 ∧ win0_4.index t 1 = 0) :=
  (by decide +kernel : ∀ t : Fin grid0.N, (win0_1.index t 0 = 0 ∧ win0_1.index t 1 = 0) ∧ (win0_2.index t 0 = 0 ∧ win0_2.index t 1 = 0)
      ∧ (win0_3.index t 0 = 0 ∧ win0_3.index t 1 = 0) ∧ (win0_4.index t 0 = 0 ∧ win0_4.index t 1 = 0))

section AtV

variable (V : (c : Dev nD) → (b : Ref sig .tc) → Buf (Elt Ideal) ((c : Thread nD τ).loc b))

/-- The image batch as the region finds it. -/
abbrev X (c : Dev nD) : S128x32x32x3.Idx → EReal := V c main_v1

/-- Window 1's block at any point is its whole array. -/
theorem iblk0_1_eq (c : Dev nD) (t : Fin cfg0.N) : (iblk0 (F := Ideal) V c 1 t : Vec Ideal S27x32 .bf16) = V c main_v2 := by
  obtain ⟨e0, e1⟩ := (idx0w t).1
  funext y
  unfold iblk0
  rw [View.read_apply]
  show V c main_v2 _ = V c main_v2 y
  refine congrArg (V c main_v2) (funext fun a => Fin.ext ?_)
  match a with
  | ⟨0, _⟩ => show win0_1.index t 0 * 27 + 1 * (y 0).val = (y 0).val; rw [e0]; omega
  | ⟨1, _⟩ => show win0_1.index t 1 * 32 + 1 * (y 1).val = (y 1).val; rw [e1]; omega

/-- Window 2's block at any point is its whole array. -/
theorem iblk0_2_eq (c : Dev nD) (t : Fin cfg0.N) : (iblk0 (F := Ideal) V c 2 t : Vec Ideal S1x32 .f32) = V c main_arg1 := by
  obtain ⟨e0, e1⟩ := (idx0w t).2.1
  funext y
  unfold iblk0
  rw [View.read_apply]
  show V c main_arg1 _ = V c main_arg1 y
  refine congrArg (V c main_arg1) (funext fun a => Fin.ext ?_)
  match a with
  | ⟨0, _⟩ => show win0_2.index t 0 * 1 + 1 * (y 0).val = (y 0).val; rw [e0]; omega
  | ⟨1, _⟩ => show win0_2.index t 1 * 32 + 1 * (y 1).val = (y 1).val; rw [e1]; omega

/-- Window 3's block at any point is its whole array. -/
theorem iblk0_3_eq (c : Dev nD) (t : Fin cfg0.N) : (iblk0 (F := Ideal) V c 3 t : Vec Ideal S288x32 .bf16) = V c main_v3 := by
  obtain ⟨e0, e1⟩ := (idx0w t).2.2.1
  funext y
  unfold iblk0
  rw [View.read_apply]
  show V c main_v3 _ = V c main_v3 y
  refine congrArg (V c main_v3) (funext fun a => Fin.ext ?_)
  match a with
  | ⟨0, _⟩ => show win0_3.index t 0 * 288 + 1 * (y 0).val = (y 0).val; rw [e0]; omega
  | ⟨1, _⟩ => show win0_3.index t 1 * 32 + 1 * (y 1).val = (y 1).val; rw [e1]; omega

/-- Window 4's block at any point is its whole array. -/
theorem iblk0_4_eq (c : Dev nD) (t : Fin cfg0.N) : (iblk0 (F := Ideal) V c 4 t : Vec Ideal S1x32 .f32) = V c main_arg3 := by
  obtain ⟨e0, e1⟩ := (idx0w t).2.2.2
  funext y
  unfold iblk0
  rw [View.read_apply]
  show V c main_arg3 _ = V c main_arg3 y
  refine congrArg (V c main_arg3) (funext fun a => Fin.ext ?_)
  match a with
  | ⟨0, _⟩ => show win0_4.index t 0 * 1 + 1 * (y 0).val = (y 0).val; rw [e0]; omega
  | ⟨1, _⟩ => show win0_4.index t 1 * 32 + 1 * (y 1).val = (y 1).val; rw [e1]; omega

/-- The image block at point `t`: images `16 t …` of the batch. -/
theorem iblk0_0_apply (c : Dev nD) (t : Fin cfg0.N) (b : Fin 16) (h : Fin 32) (w : Fin 32) (q : Fin 3) (hb : 16 * t.val + b.val < 128) :
    (iblk0 (F := Ideal) V c 0 t : Vec Ideal S16x32x32x3 .bf16) (ix4 b h w q) = X V c (ix4 ⟨16 * t.val + b.val, hb⟩ h w q) := by
  obtain ⟨⟨e0, e1, e2, e3⟩, -⟩ := idx0 t
  unfold iblk0
  rw [View.read_apply]
  show V c main_v1 _ = V c main_v1 _
  refine congrArg (V c main_v1) (funext fun a => Fin.ext ?_)
  match a with
  | ⟨0, _⟩ => show win0_0.index t 0 * 16 + 1 * b.val = 16 * t.val + b.val; rw [e0]; omega
  | ⟨1, _⟩ => show win0_0.index t 1 * 32 + 1 * h.val = h.val; rw [e1]; omega
  | ⟨2, _⟩ => show win0_0.index t 2 * 32 + 1 * w.val = w.val; rw [e2]; omega
  | ⟨3, _⟩ => show win0_0.index t 3 * 3 + 1 * q.val = q.val; rw [e3]; omega

/-- Image `b` of the block at point `t` is image `16 t + b` of the batch, read at natural coordinates (zero outside). -/
theorem img_eq (c : Dev nD) (t : Fin cfg0.N) (b : Fin 16) :
    (fun h w q => rd4 (iblk0 (F := Ideal) V c 0 t : S16x32x32x3.Idx → EReal) b.val h w q) = img (X V c) (16 * t.val + b.val) := by
  have hN : t.val < 8 := lt_of_lt_of_eq t.isLt N_0
  have hb := b.isLt
  funext h w q
  unfold img rd4
  by_cases hin : h < 32 ∧ w < 32 ∧ q < 3
  · rw [dif_pos ⟨hb, hin⟩, dif_pos ⟨(by omega : 16 * t.val + b.val < 128), hin⟩]
    exact iblk0_0_apply V c t b ⟨h, hin.1⟩ ⟨w, hin.2.1⟩ ⟨q, hin.2.2⟩ (by omega)
  · rw [dif_neg fun h' => hin h'.2, dif_neg fun h' => hin h'.2]

/-- The two convolutions of the block at point `t`, at image `b`, are the two convolutions of the batch at image
    `16 t + b`. -/
theorem block_eq (c : Dev nD) (t : Fin cfg0.N) (b : Fin 16) (p : Fin 1024) (o : Fin 32) (hb : 16 * t.val + b.val < 128) :
    convBlock16 (iblk0 (F := Ideal) V c 0 t) (iblk0 (F := Ideal) V c 1 t) (iblk0 (F := Ideal) V c 2 t) (iblk0 (F := Ideal) V c 3 t) (iblk0 (F := Ideal) V c 4 t) (ix3 b p o)
      = convOut (V c main_v1) (V c main_v2) (V c main_arg1) (V c main_v3) (V c main_arg3) (ix3 ⟨16 * t.val + b.val, hb⟩ p o) := by
  rw [iblk0_1_eq V c t, iblk0_2_eq V c t, iblk0_3_eq V c t, iblk0_4_eq V c t]
  unfold convBlock16 convOut hidN hid
  show conv 288 32 (fun h w o => conv 27 3 (fun h w q => rd4 (iblk0 (F := Ideal) V c 0 t : S16x32x32x3.Idx → EReal) b.val h w q) (V c main_v2) (V c main_arg1) h w o) (V c main_v3) (V c main_arg3) (p.val / 32) (p.val % 32) o.val
    = conv 288 32 (fun h w o => conv 27 3 (img (X V c) (16 * t.val + b.val)) (V c main_v2) (V c main_arg1) h w o) (V c main_v3) (V c main_arg3) (p.val / 32) (p.val % 32) o.val
  rw [img_eq V c t b]

/-- The two convolutions of the batch as the region finds it. -/
abbrev G (c : Dev nD) : S128x1024x32.Idx → EReal := convOut (V c main_v1) (V c main_v2) (V c main_arg1) (V c main_v3) (V c main_arg3)

/-- WHAT POINT `t` WRITES BACK is block `t` of the two convolutions of the batch. -/
theorem flushed_eq (hblock : ∀ (c : Dev nD) (i : grid0.Coords) (arg1 : Memref sig .tc .vmem S16x32x32x3 .bf16) (harg1 : arg1.IsWhole) (arg2 : Memref sig .tc .vmem S27x32 .bf16) (harg2 : arg2.IsWhole) (arg3 : Memref sig .tc .vmem S1x32 .f32) (harg3 : arg3.IsWhole) (arg4 : Memref sig .tc .vmem S288x32 .bf16) (harg4 : arg4.IsWhole) (arg5 : Memref sig .tc .vmem S1x32 .f32) (harg5 : arg5.IsWhole) (arg6 : Memref sig .tc .vmem S16x1024x32 .bf16) (harg6 : arg6.IsWhole) (arg7 : Memref sig .tc .vmem S16x34x34x3 .bf16) (harg7 : arg7.IsWhole) (arg8 : Memref sig .tc .vmem S16x34x34x32 .bf16) (harg8 : arg8.IsWhole) (x0 : Vec Ideal S16x32x32x3 .bf16) (x1 : Vec Ideal S27x32 .bf16) (x2 : Vec Ideal S1x32 .f32) (x3 : Vec Ideal S288x32 .bf16) (x4 : Vec Ideal S1x32 .f32),
      Cert.KernelIdeal.Hand.out0_5 (F := Ideal) c i arg1 harg1 arg2 harg2 arg3 harg3 arg4 harg4 arg5 harg5 arg6 harg6 arg7 harg7 arg8 harg8 x0 x1 x2 x3 x4 = Cert.Spec.convBlock16 x0 x1 x2 x3 x4)
    (c : Dev nD) (t : Fin cfg0.N) :
    (dat0 V c).flushed 5 t = ((cfg0.win 5).blk t).view.read (Elt Ideal) (G V c) := by
  have hN : t.val < 8 := lt_of_lt_of_eq t.isLt N_0
  obtain ⟨-, e0, e1, e2⟩ := idx0 t
  show (cfg0.win 5).cut (grid0.coords t) ((dat0 V c).after 5 t) = _
  rw [after0_5]
  unfold outsAt0
  rw [hblock]
  funext y
  obtain ⟨b, p, o, rfl⟩ : ∃ (b : Fin 16) (p : Fin 1024) (o : Fin 32), y = ix3 b p o := ⟨y 0, y 1, y 2, eq_ix3 y⟩
  have hb := b.isLt
  have hemb : ((cfg0.win 5).blk t).view.emb (ix3 b p o) = ix3 (⟨16 * t.val + b.val, by omega⟩ : Fin 128) p o := by
    funext a; apply Fin.ext
    match a with
    | ⟨0, _⟩ => show win0_5.index t 0 * 16 + 1 * b.val = 16 * t.val + b.val; rw [e0]; omega
    | ⟨1, _⟩ => show win0_5.index t 1 * 1024 + 1 * p.val = p.val; rw [e1]; omega
    | ⟨2, _⟩ => show win0_5.index t 2 * 32 + 1 * o.val = o.val; rw [e2]; omega
  rw [View.read_apply]
  show convBlock16 (iblk0 (F := Ideal) V c 0 t) (iblk0 (F := Ideal) V c 1 t) (iblk0 (F := Ideal) V c 2 t) (iblk0 (F := Ideal) V c 3 t) (iblk0 (F := Ideal) V c 4 t) (ix3 b p o)
    = convOut (V c main_v1) (V c main_v2) (V c main_arg1) (V c main_v3) (V c main_arg3) (((cfg0.win 5).blk t).view.emb (ix3 b p o))
  rw [hemb]
  exact block_eq V c t b p o (by omega)

end AtV

/-- An index of the result array is in point `t`'s block iff each coordinate is in the block's range on its axis. -/
theorem mem_blk5 (t : Fin cfg0.N) (i : S128x1024x32.Idx) :
    i ∈ ((cfg0.win 5).blk t).view.set ↔ ∀ a : Fin 3, win0_5.index t a * S16x1024x32.size a ≤ (i a).val ∧ (i a).val < win0_5.index t a * S16x1024x32.size a + S16x1024x32.size a := by
  show i ∈ ((View.whole main_v4).slice (win0_5.rect t)).set ↔ _
  rw [View.set_slice_whole, Rect.mem_set_unit]
  exact Iff.rfl

/-- THE REGION'S RESULT, given what the body leaves in a block: the result array ends holding the two convolutions of the
    batch as the region finds it. Image `n` lies in block `n / 16`, and every point writes its block back. -/
theorem conv_final_of (hblock : ∀ (c : Dev nD) (i : grid0.Coords) (arg1 : Memref sig .tc .vmem S16x32x32x3 .bf16) (harg1 : arg1.IsWhole) (arg2 : Memref sig .tc .vmem S27x32 .bf16) (harg2 : arg2.IsWhole) (arg3 : Memref sig .tc .vmem S1x32 .f32) (harg3 : arg3.IsWhole) (arg4 : Memref sig .tc .vmem S288x32 .bf16) (harg4 : arg4.IsWhole) (arg5 : Memref sig .tc .vmem S1x32 .f32) (harg5 : arg5.IsWhole) (arg6 : Memref sig .tc .vmem S16x1024x32 .bf16) (harg6 : arg6.IsWhole) (arg7 : Memref sig .tc .vmem S16x34x34x3 .bf16) (harg7 : arg7.IsWhole) (arg8 : Memref sig .tc .vmem S16x34x34x32 .bf16) (harg8 : arg8.IsWhole) (x0 : Vec Ideal S16x32x32x3 .bf16) (x1 : Vec Ideal S27x32 .bf16) (x2 : Vec Ideal S1x32 .f32) (x3 : Vec Ideal S288x32 .bf16) (x4 : Vec Ideal S1x32 .f32),
      Cert.KernelIdeal.Hand.out0_5 (F := Ideal) c i arg1 harg1 arg2 harg2 arg3 harg3 arg4 harg4 arg5 harg5 arg6 harg6 arg7 harg7 arg8 harg8 x0 x1 x2 x3 x4 = Cert.Spec.convBlock16 x0 x1 x2 x3 x4)
    (V : (c : Dev nD) → (b : Ref sig .tc) → Buf (Elt Ideal) ((c : Thread nD τ).loc b)) (c : Dev nD) :
    (Cert.KernelIdeal.Hand.dat0 (F := Ideal) V c).arrAt 5 cfg0.N = Cert.Spec.convOut (V c main_v1) (V c main_v2) (V c main_arg1) (V c main_v3) (V c main_arg3) :=
  (dat0 V c).arrAt_eq_of_cover 5 (G V c) (fun t _ => flushed_eq V hblock c t) fun i => by
    have hi0 : (i 0).val < 128 := (i 0).isLt
    have hi1 : (i 1).val < 1024 := (i 1).isLt
    have hi2 : (i 2).val < 32 := (i 2).isLt
    have ht : (i 0).val / 16 < cfg0.N := lt_of_lt_of_eq (by omega : (i 0).val / 16 < 8) N_0.symm
    obtain ⟨-, e0, e1, e2⟩ := idx0 ⟨(i 0).val / 16, ht⟩
    refine ⟨⟨(i 0).val / 16, ht⟩, flush0_5 _, ?_⟩
    rw [mem_blk5]
    intro a
    match a with
    | ⟨0, _⟩ =>
      show win0_5.index ⟨(i 0).val / 16, ht⟩ 0 * 16 ≤ (i 0).val ∧ (i 0).val < win0_5.index ⟨(i 0).val / 16, ht⟩ 0 * 16 + 16
      rw [e0]; dsimp only; omega
    | ⟨1, _⟩ =>
      show win0_5.index ⟨(i 0).val / 16, ht⟩ 1 * 1024 ≤ (i 1).val ∧ (i 1).val < win0_5.index ⟨(i 0).val / 16, ht⟩ 1 * 1024 + 1024
      rw [e1]; omega
    | ⟨2, _⟩ =>
      show win0_5.index ⟨(i 0).val / 16, ht⟩ 2 * 32 ≤ (i 2).val ∧ (i 2).val < win0_5.index ⟨(i 0).val / 16, ht⟩ 2 * 32 + 32
      rw [e2]; omega

end Cert.KernelIdeal.ConvArray

end
-- ==== Proof.KIFcValue.lean ====
import proofs.«167103_g2000007113644459_pallasbulk_1246_6_alg».proof.Proof.KIFcBody
import proofs.«167103_g2000007113644459_pallasbulk_1246_6_alg».proof.Proof.Spec
import proofs.«167103_g2000007113644459_pallasbulk_1246_6_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.FcValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-! # The linear-layer region's result is the specification's linear layer

At a point with chunk index zero the body leaves in the output block the product of the feature block by the weight
block plus the bias row; at any other point what the block held plus that product. So after point `8 m + k` the block
holds, entry by entry, the bias plus the chunks `0 … k` of the product for block row `m`. After chunk seven all 32768
columns are in; that block is written back, and the two blocks written back tile the 128 rows. -/

section Pieces
variable {F : FTy → Type} [FloatOps F]

/-- The offsets of a store of a whole block are zero on both axes. -/
theorem hz : (![0, 0] : Fin 2 → Nat) = fun _ => 0 := funext fun a => by fin_cases a <;> rfl

/-- Where the chunk index is zero the body leaves in the output block its one store's payload: the product of the two
    input blocks plus the bias row. -/
theorem out_A (c : Dev nD) (i : grid1.Coords) (a2 : Memref sig .tc .vmem S64x4096 .bf16) (h2 : a2.IsWhole) (a3 : Memref sig .tc .vmem S4096x128 .bf16) (h3 : a3.IsWhole) (a4 : Memref sig .tc .vmem S1x128 .f32) (h4 : a4.IsWhole) (a5 : Memref sig .tc .vmem S64x128 .f32) (h5 : a5.IsWhole) (hc0 : cond1_0 i) (hc1 : ¬cond1_1 i)
    (x0 : Vec F S64x4096 .bf16) (x1 : Vec F S4096x128 .bf16) (x2 : Vec F S1x128 .f32) :
    out1_A_3 c i a2 h2 a3 h3 a4 h4 a5 h5 hc0 hc1 x0 x1 x2 = k1_pay2 x0 x1 x2 := by
  unfold out1_A_3
  rw [View.read_writes_eq_canon _ _ _ (cover1_A_3 c i a2 h2 a3 h3 a4 h4 a5 h5 hc0 hc1 x0 x1 x2)]
  unfold kernelRun1_A
  dsimp only
  rw [View.canon_unit_zero hz]
  simp only [View.readAt_eq_ld, h2.read_unread, h3.read_unread, h4.read_unread, View.ld_unit_zero (S := S64x4096) hz, View.ld_unit_zero (S := S4096x128) hz, View.ld_unit_zero (S := S1x128) hz]

/-- Elsewhere it leaves what the block held plus the product of the two input blocks. -/
theorem out_B (c : Dev nD) (i : grid1.Coords) (a2 : Memref sig .tc .vmem S64x4096 .bf16) (h2 : a2.IsWhole) (a3 : Memref sig .tc .vmem S4096x128 .bf16) (h3 : a3.IsWhole) (a4 : Memref sig .tc .vmem S1x128 .f32) (h4 : a4.IsWhole) (a5 : Memref sig .tc .vmem S64x128 .f32) (h5 : a5.IsWhole) (hc0 : ¬cond1_0 i) (hc1 : cond1_1 i)
    (x0 : Vec F S64x4096 .bf16) (x1 : Vec F S4096x128 .bf16) (x2 : Vec F S1x128 .f32) (xo : Vec F S64x128 .f32) :
    out1_B_3 c i a2 h2 a3 h3 a4 h4 a5 h5 hc0 hc1 x0 x1 x2 xo = k1_pay3 x0 x1 xo := by
  unfold out1_B_3
  rw [View.read_writes_eq_canon _ _ _ (cover1_B_3 c i a2 h2 a3 h3 a4 h4 a5 h5 hc0 hc1 x0 x1 x2 xo)]
  unfold kernelRun1_B
  dsimp only
  rw [View.canon_unit_zero hz]
  simp only [View.readAt_eq_ld, h2.read_unread, h3.read_unread, h5.read_unread, View.ld_unit_zero (S := S64x4096) hz, View.ld_unit_zero (S := S4096x128) hz, View.ld_unit_zero (S := S64x128) hz]

end Pieces

/-- The product of a feature block by a weight block at `(r, j)`. -/
theorem pay1_apply (x0 : Vec Ideal S64x4096 .bf16) (x1 : Vec Ideal S4096x128 .bf16) (r : Fin 64) (j : Fin 128) :
    k1_pay1 x0 x1 (ix2 r j) = ∑ k : Fin 4096, x0 (ix2 r k) * x1 (ix2 k j) := by
  unfold k1_pay1
  simp only [shapeCast_self]
  exact Cert.PlainDot.matmul_plain_apply (M := 64) (K := 4096) (N := 128) none x0 x1 r j

/-- The product plus the bias row broadcast down the 64 rows, at `(r, j)`. -/
theorem pay2_apply (x0 : Vec Ideal S64x4096 .bf16) (x1 : Vec Ideal S4096x128 .bf16) (x2 : Vec Ideal S1x128 .f32) (r : Fin 64) (j : Fin 128) :
    k1_pay2 x0 x1 x2 (ix2 r j) = (∑ k : Fin 4096, x0 (ix2 r k) * x1 (ix2 k j)) + x2 (ix2 0 j) := by
  unfold k1_pay2
  refine (addf_apply _ _ _).trans ?_
  refine congrArg₂ (· + ·) (pay1_apply x0 x1 r j) ?_
  refine broadcastTo_apply x2 _ (ix2 r j) (ix2 0 j) fun a => ?_
  match a with
  | ⟨0, _⟩ => rfl
  | ⟨1, _⟩ => rfl

/-- The running contents plus the product, at `(r, j)`. -/
theorem pay3_apply (x0 : Vec Ideal S64x4096 .bf16) (x1 : Vec Ideal S4096x128 .bf16) (xo : Vec Ideal S64x128 .f32) (r : Fin 64) (j : Fin 128) :
    k1_pay3 x0 x1 xo (ix2 r j) = xo (ix2 r j) + ∑ k : Fin 4096, x0 (ix2 r k) * x1 (ix2 k j) := by
  unfold k1_pay3
  simp only [shapeCast_self]
  refine (addf_apply _ _ _).trans ?_
  exact congrArg (xo (ix2 r j) + ·) (pay1_apply x0 x1 r j)

/-- A sum over `m * n` consecutive naturals, grouped into `m` runs of `n`. -/
theorem sum_chunks (m n : ℕ) (f : ℕ → EReal) :
    ∑ k : Fin (m * n), f k.val = ∑ s ∈ Finset.range m, ∑ i : Fin n, f (n * s + i.val) := by
  rw [← Fin.sum_univ_eq_sum_range (fun s => ∑ i : Fin n, f (n * s + i.val)) m]
  rw [← (finProdFinEquiv (m := m) (n := n)).sum_comp, Fintype.sum_prod_type]
  refine Finset.sum_congr rfl fun s _ => Finset.sum_congr rfl fun i _ => ?_
  rw [finProdFinEquiv_apply_val, Nat.add_comm]

/-- Where each window's block sits at point `t = 8 m + k`: features at block `(m, k)`, weights at `(k, 0)`, the bias
    at `(0, 0)`, the output at `(m, 0)`. -/
theorem idx1 : ∀ t : Fin cfg1.N, win1_0.index t 0 = t.val / 8 ∧ win1_0.index t 1 = t.val % 8 ∧ win1_1.index t 0 = t.val % 8 ∧ win1_1.index t 1 = 0
      ∧ win1_2.index t 0 = 0 ∧ win1_2.index t 1 = 0 ∧ win1_3.index t 0 = t.val / 8 ∧ win1_3.index t 1 = 0 :=
  (by decide +kernel : ∀ t : Fin grid1.N, win1_0.index t 0 = t.val / 8 ∧ win1_0.index t 1 = t.val % 8 ∧ win1_1.index t 0 = t.val % 8 ∧ win1_1.index t 1 = 0
      ∧ win1_2.index t 0 = 0 ∧ win1_2.index t 1 = 0 ∧ win1_3.index t 0 = t.val / 8 ∧ win1_3.index t 1 = 0)

section AtV

variable (V : (c : Dev nD) → (b : Ref sig .tc) → Buf (Elt Ideal) ((c : Thread nD τ).loc b))

/-- The features, the weights and the bias as the region finds them. -/
abbrev X (c : Dev nD) : S128x32768.Idx → EReal := V c main_v5
abbrev Wt (c : Dev nD) : S32768x128.Idx → EReal := V c main_v6
abbrev Bi (c : Dev nD) : S1x128.Idx → EReal := V c main_arg5

open Cert.Spec in
/-- The feature block at point `t`: rows `64 (t / 8) …`, columns `4096 (t % 8) …` of the features. -/
theorem iblk1_0_apply (c : Dev nD) (t : Fin cfg1.N) (r : Fin 64) (i : Fin 4096) :
    (iblk1 (F := Ideal) V c 0 t : Vec Ideal S64x4096 .bf16) (ix2 r i) = rd2 (X V c) (64 * (t.val / 8) + r.val) (4096 * (t.val % 8) + i.val) := by
  have hN : t.val < 16 := lt_of_lt_of_eq t.isLt N_1
  have hr := r.isLt; have hi := i.isLt
  obtain ⟨e0, e1, -⟩ := idx1 t
  unfold iblk1
  rw [View.read_apply]
  show V c main_v5 _ = _
  unfold Cert.Spec.rd2
  rw [dif_pos ⟨by omega, by omega⟩]
  refine congrArg (V c main_v5) (funext fun a => Fin.ext ?_)
  match a with
  | ⟨0, _⟩ => show win1_0.index t 0 * 64 + 1 * r.val = 64 * (t.val / 8) + r.val; rw [e0]; omega
  | ⟨1, _⟩ => show win1_0.index t 1 * 4096 + 1 * i.val = 4096 * (t.val % 8) + i.val; rw [e1]; omega

open Cert.Spec in
/-- The weight block at point `t`: rows `4096 (t % 8) …` of the weights. -/
theorem iblk1_1_apply (c : Dev nD) (t : Fin cfg1.N) (i : Fin 4096) (j : Fin 128) :
    (iblk1 (F := Ideal) V c 1 t : Vec Ideal S4096x128 .bf16) (ix2 i j) = rd2 (Wt V c) (4096 * (t.val % 8) + i.val) j.val := by
  have hN : t.val < 16 := lt_of_lt_of_eq t.isLt N_1
  have hj := j.isLt; have hi := i.isLt
  obtain ⟨-, -, e0, e1, -⟩ := idx1 t
  unfold iblk1
  rw [View.read_apply]
  show V c main_v6 _ = _
  unfold Cert.Spec.rd2
  rw [dif_pos ⟨by omega, by omega⟩]
  refine congrArg (V c main_v6) (funext fun a => Fin.ext ?_)
  match a with
  | ⟨0, _⟩ => show win1_1.index t 0 * 4096 + 1 * i.val = 4096 * (t.val % 8) + i.val; rw [e0]; omega
  | ⟨1, _⟩ => show win1_1.index t 1 * 128 + 1 * j.val = j.val; rw [e1]; omega

/-- The bias block at any point is the bias. -/
theorem iblk1_2_apply (c : Dev nD) (t : Fin cfg1.N) (j : Fin 128) :
    (iblk1 (F := Ideal) V c 2 t : Vec Ideal S1x128 .f32) (ix2 0 j) = Bi V c (ix2 0 j) := by
  obtain ⟨-, -, -, -, e0, e1, -⟩ := idx1 t
  unfold iblk1
  rw [View.read_apply]
  show V c main_arg5 _ = _
  refine congrArg (V c main_arg5) (funext fun a => Fin.ext ?_)
  match a with
  | ⟨0, _⟩ => show win1_2.index t 0 * 1 + 1 * 0 = 0; rw [e0]
  | ⟨1, _⟩ => show win1_2.index t 1 * 128 + 1 * j.val = j.val; rw [e1]; omega

open Cert.Spec

/-- Chunk `s` of the product for block row `m`, at `(r, j)`: the 4096 columns `4096 s …` of feature row `64 m + r`
    against the same rows of weight column `j`. -/
def term (c : Dev nD) (m s : ℕ) (r : Fin 64) (j : Fin 128) : EReal :=
  ∑ i : Fin 4096, rd2 (X V c) (64 * m + r.val) (4096 * s + i.val) * rd2 (Wt V c) (4096 * s + i.val) j.val

/-- At a point with chunk index zero the block is the chunk's product plus the bias. -/
theorem stepA (c : Dev nD) (t : Fin cfg1.N) (h0 : t.val % 8 = 0) (r : Fin 64) (j : Fin 128) :
    outsAt1 V c t.val t.isLt (ix2 r j) = term V c (t.val / 8) (t.val % 8) r j + Bi V c (ix2 0 j) := by
  rw [outsAt1_A V c t h0, out_A]
  refine (pay2_apply _ _ _ r j).trans ?_
  unfold term
  refine congrArg₂ (· + ·) (Finset.sum_congr rfl fun i _ => ?_) (iblk1_2_apply V c t j)
  exact congrArg₂ (· * ·) (iblk1_0_apply V c t r i) (iblk1_1_apply V c t i j)

/-- At any other point the block is what the point before left plus the chunk's product. -/
theorem stepB (c : Dev nD) (t : Fin cfg1.N) (h0 : ¬t.val % 8 = 0) (r : Fin 64) (j : Fin 128) :
    outsAt1 V c t.val t.isLt (ix2 r j)
      = outsAt1 V c (t.val - 1) (Nat.lt_of_le_of_lt (Nat.sub_le _ _) t.isLt) (ix2 r j) + term V c (t.val / 8) (t.val % 8) r j := by
  rw [outsAt1_B V c t h0, out_B]
  refine (pay3_apply _ _ _ r j).trans ?_
  unfold term
  refine congrArg (_ + ·) (Finset.sum_congr rfl fun i _ => ?_)
  exact congrArg₂ (· * ·) (iblk1_0_apply V c t r i) (iblk1_1_apply V c t i j)

/-- THE INVARIANT: after point `n = 8 m + k` the block holds, at `(r, j)`, the bias plus the chunks `0 … k` of the
    product for block row `m`. Addition on the extended reals is commutative and associative. -/
theorem outs_inv (c : Dev nD) : ∀ (n : ℕ) (h : n < cfg1.N) (r : Fin 64) (j : Fin 128),
    outsAt1 V c n h (ix2 r j) = Bi V c (ix2 0 j) + ∑ s ∈ Finset.range (n % 8 + 1), term V c (n / 8) s r j
  | 0, h, r, j => by
    refine (stepA V c ⟨0, h⟩ (Nat.zero_mod 8) r j).trans ?_
    simp only [Nat.zero_mod, Nat.zero_div, Nat.zero_add, Finset.sum_range_one]
    exact add_comm _ _
  | n + 1, h, r, j => by
    have hN : n + 1 < 16 := lt_of_lt_of_eq h N_1
    by_cases h0 : (n + 1) % 8 = 0
    · refine (stepA V c ⟨n + 1, h⟩ h0 r j).trans ?_
      show term V c ((n + 1) / 8) ((n + 1) % 8) r j + _ = _
      rw [h0, Nat.zero_add, Finset.sum_range_one, add_comm]
    · refine (stepB V c ⟨n + 1, h⟩ h0 r j).trans ?_
      show outsAt1 V c n _ (ix2 r j) + term V c ((n + 1) / 8) ((n + 1) % 8) r j = _
      rw [outs_inv c n (Nat.lt_of_succ_lt h) r j]
      have e1 : (n + 1) / 8 = n / 8 := by omega
      have e2 : (n + 1) % 8 = n % 8 + 1 := by omega
      rw [e1, e2, Finset.sum_range_succ _ (n % 8 + 1), add_assoc]

/-- The specification's linear layer of the region's entry contents. -/
abbrev G (c : Dev nD) : S128x128.Idx → EReal := fcOut (X V c) (Wt V c) (Bi V c)

/-- WHAT A POINT WITH CHUNK INDEX SEVEN WRITES BACK is its block of the specification: all eight chunks are in, and
    the eight runs of 4096 make up the 32768 columns. -/
theorem flushed_eq (c : Dev nD) (t : Fin cfg1.N) (hf : (cfg1.win 3).flush t = true) :
    (dat1 V c).flushed 3 t = ((cfg1.win 3).blk t).view.read (Elt Ideal) (G V c) := by
  have h7 : t.val % 8 = 7 := (flush1_3 t).mp hf
  have hN : t.val < 16 := lt_of_lt_of_eq t.isLt N_1
  obtain ⟨-, -, -, -, -, -, e0, e1⟩ := idx1 t
  show (cfg1.win 3).cut (grid1.coords t) ((dat1 V c).after 3 t) = _
  rw [after1_3]
  funext y
  obtain ⟨r, j, rfl⟩ : ∃ (r : Fin 64) (j : Fin 128), y = ix2 r j := ⟨y 0, y 1, eq_ix2 y⟩
  have hr := r.isLt
  have hemb : ((cfg1.win 3).blk t).view.emb (ix2 r j) = ix2 (⟨64 * (t.val / 8) + r.val, by omega⟩ : Fin 128) j := by
    funext a; apply Fin.ext
    match a with
    | ⟨0, _⟩ => show win1_3.index t 0 * 64 + 1 * r.val = 64 * (t.val / 8) + r.val; rw [e0]; omega
    | ⟨1, _⟩ => show win1_3.index t 1 * 128 + 1 * j.val = j.val; rw [e1]; omega
  rw [View.read_apply]
  show outsAt1 V c t.val t.isLt (ix2 r j) = fcOut (X V c) (Wt V c) (Bi V c) (((cfg1.win 3).blk t).view.emb (ix2 r j))
  rw [hemb, outs_inv V c t.val t.isLt r j, h7]
  show _ = (∑ k : Fin 32768, X V c (ix2 (⟨64 * (t.val / 8) + r.val, by omega⟩ : Fin 128) k) * Wt V c (ix2 k j)) + Bi V c (ix2 0 j)
  rw [add_comm]
  refine congrArg (· + Bi V c (ix2 0 j)) ?_
  unfold term
  refine ((sum_chunks 8 4096 (fun k => rd2 (X V c) (64 * (t.val / 8) + r.val) k * rd2 (Wt V c) k j.val)).symm.trans ?_)
  exact Finset.sum_congr rfl fun k _ => congrArg₂ (· * ·) (rd2_of_lt (X V c) ⟨64 * (t.val / 8) + r.val, by omega⟩ k) (rd2_of_lt (Wt V c) k j)

/-- An index of the output array is in point `t`'s block iff each coordinate is in the block's range on its axis. -/
theorem mem_blk3 (t : Fin cfg1.N) (i : S128x128.Idx) :
    i ∈ ((cfg1.win 3).blk t).view.set ↔ ∀ a : Fin 2, win1_3.index t a * S64x128.size a ≤ (i a).val ∧ (i a).val < win1_3.index t a * S64x128.size a + S64x128.size a := by
  show i ∈ ((View.whole main_v7).slice (win1_3.rect t)).set ↔ _
  rw [View.set_slice_whole, Rect.mem_set_unit]
  exact Iff.rfl

end AtV

/-- THE REGION'S RESULT: the output array ends holding the specification's linear layer of the features, the weights and
    the bias as the region finds them. Row `i` lies in block `i / 64`, written back at point `8 (i / 64) + 7`. -/
theorem fc_final (V : (c : Dev nD) → (b : Ref sig .tc) → Buf (Elt Ideal) ((c : Thread nD τ).loc b)) (c : Dev nD) :
    (Cert.KernelIdeal.Hand.dat1 (F := Ideal) V c).arrAt 3 cfg1.N = Cert.Spec.fcOut (V c main_v5) (V c main_v6) (V c main_arg5) :=
  (dat1 V c).arrAt_eq_of_cover 3 (G V c) (flushed_eq V c) fun i => by
    have hi0 : (i 0).val < 128 := (i 0).isLt
    have hi1 : (i 1).val < 128 := (i 1).isLt
    have ht : 8 * ((i 0).val / 64) + 7 < cfg1.N := lt_of_lt_of_eq (by omega : 8 * ((i 0).val / 64) + 7 < 16) N_1.symm
    obtain ⟨-, -, -, -, -, -, e0, e1⟩ := idx1 ⟨8 * ((i 0).val / 64) + 7, ht⟩
    refine ⟨⟨8 * ((i 0).val / 64) + 7, ht⟩, (flush1_3 _).mpr (by dsimp only; omega), ?_⟩
    rw [mem_blk3]
    intro a
    match a with
    | ⟨0, _⟩ =>
      show win1_3.index ⟨8 * ((i 0).val / 64) + 7, ht⟩ 0 * 64 ≤ (i 0).val ∧ (i 0).val < win1_3.index ⟨8 * ((i 0).val / 64) + 7, ht⟩ 0 * 64 + 64
      rw [e0]; dsimp only; omega
    | ⟨1, _⟩ =>
      show win1_3.index ⟨8 * ((i 0).val / 64) + 7, ht⟩ 1 * 128 ≤ (i 1).val ∧ (i 1).val < win1_3.index ⟨8 * ((i 0).val / 64) + 7, ht⟩ 1 * 128 + 128
      rw [e1]; omega

end Cert.KernelIdeal.FcValue

end
-- ==== Proof.RefConvPatch.lean ====
import proofs.«167103_g2000007113644459_pallasbulk_1246_6_alg».proof.Proof.Spec
import proofs.«167103_g2000007113644459_pallasbulk_1246_6_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

/-! # One 3×3 convolution layer written as a matrix product over shifted views of a padded copy

The padded copy is a [34, 34, C] array: a zero fill, then the image stored into its interior. Each of the nine shifted
[32, 32, C] views of it, flattened to [1024, C], is one column group of the [1024, 9·C] patch matrix; the layer is the
patch matrix times the [9·C, 32] weights, plus the bias row, clamped at zero. Read at an entry this is the
specification's one sum over the 9·C taps. -/

namespace Cert.ReferenceIdeal.ConvValue

open Idealize.ShloMosaic Idealize.ShloMosaic.ValueIdx
open scoped BigOperators

variable {C : ℕ}

/-- The padded copy after the zero fill and the interior store, read at (i, j, c): the image inside, zero on the ring. -/
theorem canon_pad (inb1 : ∀ a, (![1, 1, 0] : Fin 3 → ℕ) a + (![32, 32, C] : Fin 3 → ℕ) a ≤ (⟨3, ![34, 34, C]⟩ : Shape).size a)
    (inb0 : ∀ a, (![0, 0, 0] : Fin 3 → ℕ) a + (![34, 34, C] : Fin 3 → ℕ) a ≤ (⟨3, ![34, 34, C]⟩ : Shape).size a)
    (P : (⟨3, ![32, 32, C]⟩ : Shape).Idx → EReal) (Z : (⟨3, ![34, 34, C]⟩ : Shape).Idx → EReal) (hZ : ∀ y, Z y = 0)
    (g : ℕ → ℕ → ℕ → EReal) (hP : ∀ (a b : Fin 32) (c : Fin C), P (ix3 a b c) = g a.val b.val c.val)
    (i j : Fin 34) (c : Fin C) :
    View.canon (Val := Elt Ideal) (s := ⟨3, ![34, 34, C]⟩) (e := .f32)
      [⟨Rect.unit ![1, 1, 0] ![32, 32, C] inb1, P⟩, ⟨Rect.unit ![0, 0, 0] ![34, 34, C] inb0, Z⟩] (ix3 i j c)
      = Cert.Spec.pad g i.val j.val c.val := by
  have hz : (![0, 0, 0] : Fin 3 → ℕ) = fun _ => 0 := funext fun a => by fin_cases a <;> rfl
  by_cases h : 1 ≤ i.val ∧ i.val ≤ 32 ∧ 1 ≤ j.val ∧ j.val ≤ 32
  · obtain ⟨h1, h2, h3, h4⟩ := h
    have he : ix3 i j c = (Rect.unit (s := ⟨3, ![34, 34, C]⟩) ![1, 1, 0] ![32, 32, C] inb1).emb
        (ix3 (⟨i.val - 1, by omega⟩ : Fin 32) (⟨j.val - 1, by omega⟩ : Fin 32) c) := by
      funext a; apply Fin.ext
      match a with
      | ⟨0, _⟩ => show i.val = 1 + 1 * (i.val - 1); omega
      | ⟨1, _⟩ => show j.val = 1 + 1 * (j.val - 1); omega
      | ⟨2, _⟩ => show c.val = 0 + 1 * c.val; omega
    rw [he, View.canon_cons_emb, hP]
    unfold Cert.Spec.pad
    rw [if_pos ⟨h1, h2, h3, h4⟩]
  · rw [View.canon_cons_of_not_mem]
    · rw [View.canon_unit_zero hz, hZ]
      unfold Cert.Spec.pad
      rw [if_neg h]
    · intro hm
      rw [Rect.mem_set_unit] at hm
      have m0 := hm ⟨0, Nat.zero_lt_succ _⟩
      have m1 := hm ⟨1, Nat.succ_lt_succ (Nat.zero_lt_succ _)⟩
      apply h
      have a0 : 1 ≤ i.val ∧ i.val < 1 + 32 := m0
      have a1 : 1 ≤ j.val ∧ j.val < 1 + 32 := m1
      omega

/-- One shifted [32, 32, C] view of a [34, 34, C] array written by the stores `L`, flattened to [1024, C], read at
    (r, q): the array at (dy + r / 32, dx + r % 32, q). -/
theorem patch_apply {sig : RefSig} {κ : Kind} {sp : Space} (v : View sig κ sp (⟨3, ![34, 34, C]⟩ : Shape) .f32)
    (L : List (View.Piece (Elt Ideal) (⟨3, ![34, 34, C]⟩ : Shape) .f32)) (dy dx : ℕ)
    (inb : ∀ a, (![dy, dx, 0] : Fin 3 → ℕ) a + (![32, 32, C] : Fin 3 → ℕ) a ≤ (⟨3, ![34, 34, C]⟩ : Shape).size a)
    (hc : (⟨3, ![32, 32, C]⟩ : Shape).ShapeCasts ⟨2, ![1024, C]⟩) (r : Fin 1024) (q : Fin C) :
    shapeCast (⟨2, ![1024, C]⟩ : Shape) (s := ⟨3, ![32, 32, C]⟩)
        (v.readCov L (Rect.unit ![dy, dx, 0] ![32, 32, C] inb).toLoadRect) hc (ix2 r q)
      = View.canon L (ix3 (⟨dy + r.val / 32, by have := inb ⟨0, Nat.zero_lt_succ _⟩; have h : dy + 32 ≤ 34 := this; have := r.isLt; omega⟩ : Fin 34)
          (⟨dx + r.val % 32, by have := inb ⟨1, Nat.succ_lt_succ (Nat.zero_lt_succ _)⟩; have h : dx + 32 ≤ 34 := this; omega⟩ : Fin 34) q) := by
  have hr := r.isLt
  rw [shapeCast_apply _ hc (ix2 r q) (ix3 (⟨r.val / 32, by omega⟩ : Fin 32) (⟨r.val % 32, by omega⟩ : Fin 32) q)
    (by rw [Shape.rowMajor_val_three, Shape.rowMajor_val_two]
        show (r.val / 32 * 32 + r.val % 32) * C + q.val = r.val * C + q.val
        have : r.val / 32 * 32 + r.val % 32 = r.val := by omega
        rw [this])]
  rw [View.readCov_eq_canon']
  refine congrArg (View.canon L) ?_
  funext a; apply Fin.ext
  match a with
  | ⟨0, _⟩ => show dy + 1 * (r.val / 32) = dy + r.val / 32; omega
  | ⟨1, _⟩ => show dx + 1 * (r.val % 32) = dx + r.val % 32; omega
  | ⟨2, _⟩ => show 0 + 1 * q.val = q.val; omega

/-- Nine [1024, C] column groups side by side, read at (r, k): group k / C at column k % C. -/
theorem concat9_apply {K : ℕ} (f : Fin 9 → ((⟨2, ![1024, C]⟩ : Shape).Idx → EReal))
    (h : Shape.Concatenates (([⟨⟨2, ![1024, C]⟩, f 0⟩, ⟨⟨2, ![1024, C]⟩, f 1⟩, ⟨⟨2, ![1024, C]⟩, f 2⟩, ⟨⟨2, ![1024, C]⟩, f 3⟩,
      ⟨⟨2, ![1024, C]⟩, f 4⟩, ⟨⟨2, ![1024, C]⟩, f 5⟩, ⟨⟨2, ![1024, C]⟩, f 6⟩, ⟨⟨2, ![1024, C]⟩, f 7⟩, ⟨⟨2, ![1024, C]⟩, f 8⟩] :
        List ((s : Shape) × (s.Idx → EReal))).map (·.1)) (⟨2, ![1024, K]⟩ : Shape) 1)
    (hK : K = 9 * C) (r : Fin 1024) (k : Fin K) :
    concatenate (⟨2, ![1024, K]⟩ : Shape) 1 [⟨⟨2, ![1024, C]⟩, f 0⟩, ⟨⟨2, ![1024, C]⟩, f 1⟩, ⟨⟨2, ![1024, C]⟩, f 2⟩, ⟨⟨2, ![1024, C]⟩, f 3⟩,
      ⟨⟨2, ![1024, C]⟩, f 4⟩, ⟨⟨2, ![1024, C]⟩, f 5⟩, ⟨⟨2, ![1024, C]⟩, f 6⟩, ⟨⟨2, ![1024, C]⟩, f 7⟩, ⟨⟨2, ![1024, C]⟩, f 8⟩] h (ix2 r k)
      = f (⟨k.val / C, by
            have hk := k.isLt
            have hC : 0 < C := by rcases Nat.eq_zero_or_pos C with h0 | h0; · subst h0; omega
                                  · exact h0
            exact (Nat.div_lt_iff_lt_mul hC).2 (by omega)⟩ : Fin 9)
          (ix2 r (⟨k.val % C, Nat.mod_lt _ (by
            have hk := k.isLt
            rcases Nat.eq_zero_or_pos C with h0 | h0
            · subst h0; omega
            · exact h0)⟩ : Fin C)) := by
  have hk := k.isLt
  have hC : 0 < C := by
    rcases Nat.eq_zero_or_pos C with h0 | h0
    · subst h0; omega
    · exact h0
  exact concatenate_ofFn_apply (t := ⟨2, ![1024, K]⟩) (s₁ := ⟨2, ![1024, C]⟩) (1 : Fin 2) f h rfl C rfl (ix2 r k)
    ⟨k.val / C, (Nat.div_lt_iff_lt_mul hC).2 (by omega)⟩ rfl (ix2 r ⟨k.val % C, Nat.mod_lt _ hC⟩) rfl
    (fun b hb => by
      match b with
      | ⟨0, _⟩ => rfl
      | ⟨1, _⟩ => exact absurd rfl hb)

/-- The layer at an entry: the patch matrix times the weights, plus the bias row, clamped at zero, is the specification's
    convolution when the patch matrix's entry (r, k) is the padded image's tap k at pixel (r / 32, r % 32). -/
theorem layer_apply {K : ℕ} (D : DotDims (⟨2, ![1024, K]⟩ : Shape) ⟨2, ![K, 32]⟩ ⟨2, ![1024, 32]⟩) (hD : D = DotDims.plain 1024 K 32)
    (prec : Option ContractPrecision) (A : FVec Ideal ⟨2, ![1024, K]⟩ .f32) (W : FVec Ideal ⟨2, ![K, 32]⟩ .f32)
    (b : FVec Ideal ⟨2, ![1, 32]⟩ .f32) (hb : (⟨2, ![1, 32]⟩ : Shape).Broadcasts ⟨2, ![1024, 32]⟩)
    (g : ℕ → ℕ → ℕ → EReal)
    (hA : ∀ (r : Fin 1024) (k : Fin K), A (ix2 r k) = Cert.Spec.pad g (r.val / 32 + k.val / (3 * C)) (r.val % 32 + k.val / C % 3) (k.val % C))
    (r : Fin 1024) (o : Fin 32) :
    maximumf (addf (matmul D prec A W (constant (F := Ideal) ⟨2, ![1024, 32]⟩ .f32 0x00000000#32)) (broadcastTo ⟨2, ![1024, 32]⟩ b hb))
        (broadcast ⟨2, ![1024, 32]⟩ (Scalar.ofBits (F := Ideal) .f32 0x00000000#32)) (ix2 r o)
      = Cert.Spec.conv K C g W b (r.val / 32) (r.val % 32) o.val := by
  subst hD
  show max (FloatOps.matmul (DotDims.plain 1024 K 32) prec A W (constant ⟨2, ![1024, 32]⟩ .f32 0x00000000#32) (ix2 r o)
      + broadcastTo ⟨2, ![1024, 32]⟩ b hb (ix2 r o)) (Ideal.ofBits .f32 0x00000000#32) = _
  have hb0 : Cert.Spec.rd2 b 0 o.val = b (ix2 0 o) := Cert.Spec.rd2_of_lt b (0 : Fin 1) o
  rw [Cert.PlainDot.matmul_plain_apply, Ideal.ofBits_zero_f32,
    broadcastTo_apply b hb (ix2 r o) (ix2 (0 : Fin 1) o) (fun a => by
      match a with
      | ⟨0, _⟩ => rfl
      | ⟨1, _⟩ => rfl)]
  unfold Cert.Spec.conv
  rw [hb0]
  refine congrArg (fun s => max (s + b (ix2 0 o)) 0) (Finset.sum_congr rfl fun k _ => ?_)
  rw [hA, Cert.Spec.rd2_of_lt W k o]

/-- A shifted view of the padded copy, flattened, read at (r, q): the padded image at (dy + r / 32, dx + r % 32, q). -/
theorem patch_pad {sig : RefSig} {κ : Kind} {sp : Space} (v : View sig κ sp (⟨3, ![34, 34, C]⟩ : Shape) .f32)
    (inb1 : ∀ a, (![1, 1, 0] : Fin 3 → ℕ) a + (![32, 32, C] : Fin 3 → ℕ) a ≤ (⟨3, ![34, 34, C]⟩ : Shape).size a)
    (inb0 : ∀ a, (![0, 0, 0] : Fin 3 → ℕ) a + (![34, 34, C] : Fin 3 → ℕ) a ≤ (⟨3, ![34, 34, C]⟩ : Shape).size a)
    (P : (⟨3, ![32, 32, C]⟩ : Shape).Idx → EReal) (Z : (⟨3, ![34, 34, C]⟩ : Shape).Idx → EReal) (hZ : ∀ y, Z y = 0)
    (g : ℕ → ℕ → ℕ → EReal) (hP : ∀ (a b : Fin 32) (c : Fin C), P (ix3 a b c) = g a.val b.val c.val)
    (dy dx : ℕ)
    (inb : ∀ a, (![dy, dx, 0] : Fin 3 → ℕ) a + (![32, 32, C] : Fin 3 → ℕ) a ≤ (⟨3, ![34, 34, C]⟩ : Shape).size a)
    (hc : (⟨3, ![32, 32, C]⟩ : Shape).ShapeCasts ⟨2, ![1024, C]⟩) (r : Fin 1024) (q : Fin C) :
    shapeCast (⟨2, ![1024, C]⟩ : Shape) (s := ⟨3, ![32, 32, C]⟩)
        (v.readCov (Val := Elt Ideal) [⟨Rect.unit ![1, 1, 0] ![32, 32, C] inb1, P⟩, ⟨Rect.unit ![0, 0, 0] ![34, 34, C] inb0, Z⟩]
          (Rect.unit ![dy, dx, 0] ![32, 32, C] inb).toLoadRect) hc (ix2 r q)
      = Cert.Spec.pad g (dy + r.val / 32) (dx + r.val % 32) q.val :=
  (patch_apply v _ dy dx inb hc r q).trans (canon_pad inb1 inb0 P Z hZ g hP _ _ q)

/-- The patch matrix at (r, k), when column group n is the padded image shifted by (n / 3, n % 3): the specification's tap
    k at pixel (r / 32, r % 32). -/
theorem patches_apply {K : ℕ} (f : Fin 9 → ((⟨2, ![1024, C]⟩ : Shape).Idx → EReal))
    (h : Shape.Concatenates (([⟨⟨2, ![1024, C]⟩, f 0⟩, ⟨⟨2, ![1024, C]⟩, f 1⟩, ⟨⟨2, ![1024, C]⟩, f 2⟩, ⟨⟨2, ![1024, C]⟩, f 3⟩,
      ⟨⟨2, ![1024, C]⟩, f 4⟩, ⟨⟨2, ![1024, C]⟩, f 5⟩, ⟨⟨2, ![1024, C]⟩, f 6⟩, ⟨⟨2, ![1024, C]⟩, f 7⟩, ⟨⟨2, ![1024, C]⟩, f 8⟩] :
        List ((s : Shape) × (s.Idx → EReal))).map (·.1)) (⟨2, ![1024, K]⟩ : Shape) 1)
    (hK : K = 9 * C) (g : ℕ → ℕ → ℕ → EReal)
    (hf : ∀ (n : Fin 9) (r : Fin 1024) (q : Fin C), f n (ix2 r q) = Cert.Spec.pad g (n.val / 3 + r.val / 32) (n.val % 3 + r.val % 32) q.val)
    (r : Fin 1024) (k : Fin K) :
    concatenate (⟨2, ![1024, K]⟩ : Shape) 1 [⟨⟨2, ![1024, C]⟩, f 0⟩, ⟨⟨2, ![1024, C]⟩, f 1⟩, ⟨⟨2, ![1024, C]⟩, f 2⟩, ⟨⟨2, ![1024, C]⟩, f 3⟩,
      ⟨⟨2, ![1024, C]⟩, f 4⟩, ⟨⟨2, ![1024, C]⟩, f 5⟩, ⟨⟨2, ![1024, C]⟩, f 6⟩, ⟨⟨2, ![1024, C]⟩, f 7⟩, ⟨⟨2, ![1024, C]⟩, f 8⟩] h (ix2 r k)
      = Cert.Spec.pad g (r.val / 32 + k.val / (3 * C)) (r.val % 32 + k.val / C % 3) (k.val % C) := by
  rw [concat9_apply f h hK r k, hf]
  show Cert.Spec.pad g (k.val / C / 3 + r.val / 32) (k.val / C % 3 + r.val % 32) (k.val % C) = _
  rw [Nat.div_div_eq_div_mul, Nat.mul_comm C 3, Nat.add_comm (k.val / (3 * C)), Nat.add_comm (k.val / C % 3)]

/-- The whole layer at an entry. -/
theorem conv_layer {K : ℕ} (D : DotDims (⟨2, ![1024, K]⟩ : Shape) ⟨2, ![K, 32]⟩ ⟨2, ![1024, 32]⟩) (hD : D = DotDims.plain 1024 K 32)
    (prec : Option ContractPrecision) (f : Fin 9 → ((⟨2, ![1024, C]⟩ : Shape).Idx → EReal))
    (h : Shape.Concatenates (([⟨⟨2, ![1024, C]⟩, f 0⟩, ⟨⟨2, ![1024, C]⟩, f 1⟩, ⟨⟨2, ![1024, C]⟩, f 2⟩, ⟨⟨2, ![1024, C]⟩, f 3⟩,
      ⟨⟨2, ![1024, C]⟩, f 4⟩, ⟨⟨2, ![1024, C]⟩, f 5⟩, ⟨⟨2, ![1024, C]⟩, f 6⟩, ⟨⟨2, ![1024, C]⟩, f 7⟩, ⟨⟨2, ![1024, C]⟩, f 8⟩] :
        List ((s : Shape) × (s.Idx → EReal))).map (·.1)) (⟨2, ![1024, K]⟩ : Shape) 1)
    (hK : K = 9 * C) (W : FVec Ideal ⟨2, ![K, 32]⟩ .f32)
    (b : FVec Ideal ⟨2, ![1, 32]⟩ .f32) (hb : (⟨2, ![1, 32]⟩ : Shape).Broadcasts ⟨2, ![1024, 32]⟩)
    (g : ℕ → ℕ → ℕ → EReal)
    (hf : ∀ (n : Fin 9) (r : Fin 1024) (q : Fin C), f n (ix2 r q) = Cert.Spec.pad g (n.val / 3 + r.val / 32) (n.val % 3 + r.val % 32) q.val)
    (r : Fin 1024) (o : Fin 32) :
    maximumf (addf (matmul (φ₁ := .f32) (φ₂ := .f32) D prec
          (concatenate (α := EReal) (⟨2, ![1024, K]⟩ : Shape) 1 [⟨⟨2, ![1024, C]⟩, f 0⟩, ⟨⟨2, ![1024, C]⟩, f 1⟩, ⟨⟨2, ![1024, C]⟩, f 2⟩, ⟨⟨2, ![1024, C]⟩, f 3⟩,
            ⟨⟨2, ![1024, C]⟩, f 4⟩, ⟨⟨2, ![1024, C]⟩, f 5⟩, ⟨⟨2, ![1024, C]⟩, f 6⟩, ⟨⟨2, ![1024, C]⟩, f 7⟩, ⟨⟨2, ![1024, C]⟩, f 8⟩] h)
          W (constant (F := Ideal) ⟨2, ![1024, 32]⟩ .f32 0x00000000#32)) (broadcastTo ⟨2, ![1024, 32]⟩ b hb))
        (broadcast ⟨2, ![1024, 32]⟩ (Scalar.ofBits (F := Ideal) .f32 0x00000000#32)) (ix2 r o)
      = Cert.Spec.conv K C g W b (r.val / 32) (r.val % 32) o.val :=
  layer_apply D hD prec _ W b hb g (patches_apply f h hK g hf) r o

end Cert.ReferenceIdeal.ConvValue

end
-- ==== Proof.RefConvBlock.lean ====
import proofs.«167103_g2000007113644459_pallasbulk_1246_6_alg».proof.Proof.Gen.ReferenceIdeal.Frame
import proofs.«167103_g2000007113644459_pallasbulk_1246_6_alg».proof.Proof.RefConvPatch

set_option maxRecDepth 16384

noncomputable section

namespace Cert.ReferenceIdeal.ConvValue

open Cert.ReferenceIdeal Cert.ReferenceIdeal.Gen
open Idealize.ShloMosaic Idealize.ShloMosaic.TcCoe Idealize.ShloMosaic.Tactic Idealize.ShloMosaic.ValueIdx
open Idealize.SL Idealize.SL.Sem
open scoped BigOperators

/-! # The convolution stack's body on one image, at the extended reals

What the body leaves in the output block, as a function of the five input blocks: the two layers of the specification on
the block's one image. -/

/-- The block's one image, read at natural coordinates. -/
def img0 (x0 : Vec Ideal S1x32x32x3 .f32) : ℕ → ℕ → ℕ → EReal := fun h w c => Cert.Spec.rd4 x0 0 h w c

/-- The first layer's result on the block's image. -/
def hid0 (x0 : Vec Ideal S1x32x32x3 .f32) (x1 : Vec Ideal S27x32 .f32) (x2 : Vec Ideal S1x32 .f32) : ℕ → ℕ → ℕ → EReal :=
  fun h w o => Cert.Spec.conv 27 3 (img0 x0) x1 x2 h w o

/-- The zero fill of the first padded copy. -/
theorem pay2_zero (y : S34x34x3.Idx) : k0_pay2 (F := Ideal) y = 0 := Ideal.ofBits_zero_f32

/-- The zero fill of the second padded copy. -/
theorem pay11_zero (y : S34x34x32.Idx) : k0_pay11 (F := Ideal) y = 0 := Ideal.ofBits_zero_f32

/-- A whole buffer held at contents that read `X`, loaded whole, reads `X`. -/
theorem readAt_whole_unread {s : Shape} {e : EltTy} (m : Memref sig .tc .vmem s e) (hm : m.IsWhole) (X : s.Idx → Elt Ideal e)
    (off : Fin s.rank → ℕ) (hoff : off = fun _ => 0) (inb : ∀ a, off a + s.size a ≤ s.size a) :
    View.readAt (Elt Ideal) m.view (Rect.unit off s.size inb).toLoadRect (hm.unread X) = X := by
  rw [View.readAt_eq_ld, hm.read_unread, View.ld_unit_zero hoff]

theorem hz2 : (![0, 0] : Fin 2 → ℕ) = fun _ => 0 := funext fun a => by fin_cases a <;> rfl
theorem hz3 : (![0, 0, 0] : Fin 3 → ℕ) = fun _ => 0 := funext fun a => by fin_cases a <;> rfl
theorem hz4 : (![0, 0, 0, 0] : Fin 4 → ℕ) = fun _ => 0 := funext fun a => by fin_cases a <;> rfl

/-- The interior store's payload: the block's image. -/
theorem pay3_apply (v0 : Vec Ideal S1x32x32x3 .f32) (a b : Fin 32) (c : Fin 3) :
    k0_pay3 (F := Ideal) v0 (ix3 a b c) = img0 v0 a.val b.val c.val := by
  unfold k0_pay3
  simp only [shapeCast_self]
  refine (shapeCast_apply _ _ (ix3 a b c) (ix4 (0 : Fin 1) a b c) ?_).trans ?_
  · rw [Shape.rowMajor_val_four, Shape.rowMajor_val_three]
    show ((0 * 32 + a.val) * 32 + b.val) * 3 + c.val = (a.val * 32 + b.val) * 3 + c.val
    omega
  · exact (Cert.Spec.rd4_of_lt v0 (0 : Fin 1) a b c).symm

/-- The first layer's payload at a pixel and channel, from its nine column groups. -/
theorem pay12_apply (g : ℕ → ℕ → ℕ → EReal) (v10 v12 v14 v16 v18 v20 v22 : FVec Ideal S1024x3 .f32)
    (v23 v25 : Vec Ideal S32x32x3 .f32) (v28 : Vec Ideal S27x32 .f32) (v30 : Vec Ideal S1x32 .f32)
    (hc : S32x32x3.ShapeCasts S1024x3)
    (hf : ∀ (n : Fin 9) (r : Fin 1024) (q : Fin 3),
      (![v10, v12, v14, v16, v18, v20, v22, shapeCast S1024x3 v23 hc, shapeCast S1024x3 v25 hc] : Fin 9 → S1024x3.Idx → EReal) n (ix2 r q)
        = Cert.Spec.pad g (n.val / 3 + r.val / 32) (n.val % 3 + r.val % 32) q.val)
    (a b o : Fin 32) :
    k0_pay12 (F := Ideal) v10 v12 v14 v16 v18 v20 v22 v23 v25 v28 v30 (ix3 a b o) = Cert.Spec.conv 27 3 g v28 v30 a.val b.val o.val := by
  unfold k0_pay12
  simp only [shapeCast_self]
  refine (shapeCast_apply _ _ (ix3 a b o) (ix2 (⟨a.val * 32 + b.val, by omega⟩ : Fin 1024) o) ?_).trans ?_
  · rw [Shape.rowMajor_val_two, Shape.rowMajor_val_three]; rfl
  · refine (conv_layer (C := 3) (K := 27) _ rfl none
      (![v10, v12, v14, v16, v18, v20, v22, shapeCast S1024x3 v23 hc, shapeCast S1024x3 v25 hc] : Fin 9 → S1024x3.Idx → EReal)
      _ rfl v28 v30 _ g hf ⟨a.val * 32 + b.val, by omega⟩ o).trans ?_
    have e1 : (a.val * 32 + b.val) / 32 = a.val := by omega
    have e2 : (a.val * 32 + b.val) % 32 = b.val := by omega
    show Cert.Spec.conv 27 3 g v28 v30 ((a.val * 32 + b.val) / 32) ((a.val * 32 + b.val) % 32) o.val = _
    rw [e1, e2]

/-- The second layer's payload at a pixel and channel, from its nine column groups. -/
theorem pay1_apply (g : ℕ → ℕ → ℕ → EReal) (v44 v46 v48 v50 : FVec Ideal S1024x32 .f32)
    (v51 v53 v55 v57 v59 : Vec Ideal S32x32x32 .f32) (v62 : Vec Ideal S288x32 .f32) (v64 : Vec Ideal S1x32 .f32)
    (hc : S32x32x32.ShapeCasts S1024x32)
    (hf : ∀ (n : Fin 9) (r : Fin 1024) (q : Fin 32),
      (![v44, v46, v48, v50, shapeCast S1024x32 v51 hc, shapeCast S1024x32 v53 hc, shapeCast S1024x32 v55 hc,
          shapeCast S1024x32 v57 hc, shapeCast S1024x32 v59 hc] : Fin 9 → S1024x32.Idx → EReal) n (ix2 r q)
        = Cert.Spec.pad g (n.val / 3 + r.val / 32) (n.val % 3 + r.val % 32) q.val)
    (z : Fin 1) (r : Fin 1024) (o : Fin 32) :
    k0_pay1 (F := Ideal) v44 v46 v48 v50 v51 v53 v55 v57 v59 v62 v64 (ix3 z r o)
      = Cert.Spec.conv 288 32 g v62 v64 (r.val / 32) (r.val % 32) o.val := by
  unfold k0_pay1
  refine (shapeCast_apply _ _ (ix3 z r o) (ix2 r o) ?_).trans ?_
  · rw [Shape.rowMajor_val_two, Shape.rowMajor_val_three]
    show r.val * 32 + o.val = (z.val * 1024 + r.val) * 32 + o.val
    have := z.isLt
    omega
  · exact conv_layer (C := 32) (K := 288) _ rfl none
      (![v44, v46, v48, v50, shapeCast S1024x32 v51 hc, shapeCast S1024x32 v53 hc, shapeCast S1024x32 v55 hc,
          shapeCast S1024x32 v57 hc, shapeCast S1024x32 v59 hc] : Fin 9 → S1024x32.Idx → EReal)
      _ rfl v62 v64 _ g hf r o

/-- A shifted view of the first padded copy, flattened: the padded image. -/
theorem shift1 (c : Dev nD) (arg1 : Memref sig .tc .vmem S1x32x32x3 .f32) (harg1 : arg1.IsWhole)
    (arg7 : Memref sig .tc .vmem S34x34x3 .f32) (x0 : Vec Ideal S1x32x32x3 .f32) (hc : S32x32x3.ShapeCasts S1024x3)
    (dy dx : ℕ) (inb : ∀ a, (![dy, dx, 0] : Fin 3 → ℕ) a + S32x32x3.size a ≤ S34x34x3.size a) (r : Fin 1024) (q : Fin 3) :
    shapeCast S1024x3 (arg7.view.readCov (kernelRun0_A.sl.HS0_2 (F := Ideal) c arg1 harg1 x0)
        (Rect.unit (s := S34x34x3) ![dy, dx, 0] S32x32x3.size inb).toLoadRect) hc (ix2 r q)
      = Cert.Spec.pad (img0 x0) (dy + r.val / 32) (dx + r.val % 32) q.val := by
  unfold kernelRun0_A.sl.HS0_2
  exact patch_pad arg7.view _ _ _ _ pay2_zero (img0 x0)
    (fun a b c' => (pay3_apply _ a b c').trans (by rw [readAt_whole_unread arg1 harg1 x0 _ hz4])) dy dx inb hc r q

/-- The first layer's nine column groups. -/
theorem patches1 (c : Dev nD) (arg1 : Memref sig .tc .vmem S1x32x32x3 .f32) (harg1 : arg1.IsWhole)
    (arg7 : Memref sig .tc .vmem S34x34x3 .f32) (x0 : Vec Ideal S1x32x32x3 .f32) (hc : S32x32x3.ShapeCasts S1024x3) :
    ∀ (n : Fin 9) (r : Fin 1024) (q : Fin 3),
      (![kernelRun0_A.sl.r (F := Ideal) c arg1 harg1 arg7 x0, kernelRun0_A.sl.r_1 c arg1 harg1 arg7 x0,
          kernelRun0_A.sl.r_2 c arg1 harg1 arg7 x0, kernelRun0_A.sl.r_3 c arg1 harg1 arg7 x0,
          kernelRun0_A.sl.r_4 c arg1 harg1 arg7 x0, kernelRun0_A.sl.r_5 c arg1 harg1 arg7 x0,
          kernelRun0_A.sl.r_6 c arg1 harg1 arg7 x0,
          shapeCast S1024x3 (kernelRun0_A.sl.v23 c arg1 harg1 arg7 x0) hc,
          shapeCast S1024x3 (kernelRun0_A.sl.v25 c arg1 harg1 arg7 x0) hc] : Fin 9 → S1024x3.Idx → EReal) n (ix2 r q)
        = Cert.Spec.pad (img0 x0) (n.val / 3 + r.val / 32) (n.val % 3 + r.val % 32) q.val := by
  intro n r q
  match n with
  | ⟨0, _⟩ =>
    refine Eq.trans ?_ ((shift1 c arg1 harg1 arg7 x0 hc 0 0 inb_S34x34x3_S32x32x3_0_0_0 r q).trans ?_)
    · rfl
    · simp
  | ⟨1, _⟩ =>
    refine Eq.trans ?_ ((shift1 c arg1 harg1 arg7 x0 hc 0 1 inb_S34x34x3_S32x32x3_0_1_0 r q).trans ?_)
    · rfl
    · simp
  | ⟨2, _⟩ =>
    refine Eq.trans ?_ ((shift1 c arg1 harg1 arg7 x0 hc 0 2 inb_S34x34x3_S32x32x3_0_2_0 r q).trans ?_)
    · rfl
    · simp
  | ⟨3, _⟩ =>
    refine Eq.trans ?_ ((shift1 c arg1 harg1 arg7 x0 hc 1 0 inb_S34x34x3_S32x32x3_1_0_0 r q).trans ?_)
    · rfl
    · simp
  | ⟨4, _⟩ =>
    refine Eq.trans ?_ ((shift1 c arg1 harg1 arg7 x0 hc 1 1 inb_S34x34x3_S32x32x3_1_1_0 r q).trans ?_)
    · rfl
    · simp
  | ⟨5, _⟩ =>
    refine Eq.trans ?_ ((shift1 c arg1 harg1 arg7 x0 hc 1 2 inb_S34x34x3_S32x32x3_1_2_0 r q).trans ?_)
    · rfl
    · simp
  | ⟨6, _⟩ =>
    refine Eq.trans ?_ ((shift1 c arg1 harg1 arg7 x0 hc 2 0 inb_S34x34x3_S32x32x3_2_0_0 r q).trans ?_)
    · rfl
    · simp
  | ⟨7, _⟩ =>
    refine Eq.trans ?_ ((shift1 c arg1 harg1 arg7 x0 hc 2 1 inb_S34x34x3_S32x32x3_2_1_0 r q).trans ?_)
    · rfl
    · simp
  | ⟨8, _⟩ =>
    refine Eq.trans ?_ ((shift1 c arg1 harg1 arg7 x0 hc 2 2 inb_S34x34x3_S32x32x3_2_2_0 r q).trans ?_)
    · rfl
    · simp

/-- A shifted view of the second padded copy, flattened: the padded first-layer result. -/
theorem shift2 (c : Dev nD) (arg1 : Memref sig .tc .vmem S1x32x32x3 .f32) (harg1 : arg1.IsWhole)
    (arg2 : Memref sig .tc .vmem S27x32 .f32) (harg2 : arg2.IsWhole) (arg3 : Memref sig .tc .vmem S1x32 .f32) (harg3 : arg3.IsWhole)
    (arg7 : Memref sig .tc .vmem S34x34x3 .f32) (arg8 : Memref sig .tc .vmem S34x34x32 .f32)
    (x0 : Vec Ideal S1x32x32x3 .f32) (x1 : Vec Ideal S27x32 .f32) (x2 : Vec Ideal S1x32 .f32)
    (hc : S32x32x32.ShapeCasts S1024x32)
    (dy dx : ℕ) (inb : ∀ a, (![dy, dx, 0] : Fin 3 → ℕ) a + S32x32x32.size a ≤ S34x34x32.size a) (r : Fin 1024) (q : Fin 32) :
    shapeCast S1024x32 (arg8.view.readCov (kernelRun0_A.sl.HS1_2 (F := Ideal) c arg1 harg1 arg2 harg2 arg3 harg3 arg7 x0 x1 x2)
        (Rect.unit (s := S34x34x32) ![dy, dx, 0] S32x32x32.size inb).toLoadRect) hc (ix2 r q)
      = Cert.Spec.pad (hid0 x0 x1 x2) (dy + r.val / 32) (dx + r.val % 32) q.val := by
  unfold kernelRun0_A.sl.HS1_2
  exact patch_pad arg8.view _ _ _ _ pay11_zero (hid0 x0 x1 x2)
    (fun a b o => (pay12_apply (img0 x0) _ _ _ _ _ _ _ _ _ _ _ shapeCasts_S32x32x3_S1024x3 (patches1 c arg1 harg1 arg7 x0 shapeCasts_S32x32x3_S1024x3) a b o).trans (by
      rw [readAt_whole_unread arg2 harg2 x1 _ hz2, readAt_whole_unread arg3 harg3 x2 _ hz2]; rfl)) dy dx inb hc r q

/-- The second layer's nine column groups. -/
theorem patches2 (c : Dev nD) (arg1 : Memref sig .tc .vmem S1x32x32x3 .f32) (harg1 : arg1.IsWhole)
    (arg2 : Memref sig .tc .vmem S27x32 .f32) (harg2 : arg2.IsWhole) (arg3 : Memref sig .tc .vmem S1x32 .f32) (harg3 : arg3.IsWhole)
    (arg7 : Memref sig .tc .vmem S34x34x3 .f32) (arg8 : Memref sig .tc .vmem S34x34x32 .f32)
    (x0 : Vec Ideal S1x32x32x3 .f32) (x1 : Vec Ideal S27x32 .f32) (x2 : Vec Ideal S1x32 .f32)
    (hc : S32x32x32.ShapeCasts S1024x32) :
    ∀ (n : Fin 9) (r : Fin 1024) (q : Fin 32),
      (![kernelRun0_A.sl.r_7 (F := Ideal) c arg1 harg1 arg2 harg2 arg3 harg3 arg7 arg8 x0 x1 x2,
          kernelRun0_A.sl.r_8 c arg1 harg1 arg2 harg2 arg3 harg3 arg7 arg8 x0 x1 x2,
          kernelRun0_A.sl.r_9 c arg1 harg1 arg2 harg2 arg3 harg3 arg7 arg8 x0 x1 x2,
          kernelRun0_A.sl.r_10 c arg1 harg1 arg2 harg2 arg3 harg3 arg7 arg8 x0 x1 x2,
          shapeCast S1024x32 (kernelRun0_A.sl.v51 c arg1 harg1 arg2 harg2 arg3 harg3 arg7 arg8 x0 x1 x2) hc,
          shapeCast S1024x32 (kernelRun0_A.sl.v53 c arg1 harg1 arg2 harg2 arg3 harg3 arg7 arg8 x0 x1 x2) hc,
          shapeCast S1024x32 (kernelRun0_A.sl.v55 c arg1 harg1 arg2 harg2 arg3 harg3 arg7 arg8 x0 x1 x2) hc,
          shapeCast S1024x32 (kernelRun0_A.sl.v57 c arg1 harg1 arg2 harg2 arg3 harg3 arg7 arg8 x0 x1 x2) hc,
          shapeCast S1024x32 (kernelRun0_A.sl.v59 c arg1 harg1 arg2 harg2 arg3 harg3 arg7 arg8 x0 x1 x2) hc] :
            Fin 9 → S1024x32.Idx → EReal) n (ix2 r q)
        = Cert.Spec.pad (hid0 x0 x1 x2) (n.val / 3 + r.val / 32) (n.val % 3 + r.val % 32) q.val := by
  intro n r q
  match n with
  | ⟨0, _⟩ =>
    refine Eq.trans ?_ ((shift2 c arg1 harg1 arg2 harg2 arg3 harg3 arg7 arg8 x0 x1 x2 hc 0 0 inb_S34x34x32_S32x32x32_0_0_0 r q).trans ?_)
    · rfl
    · simp
  | ⟨1, _⟩ =>
    refine Eq.trans ?_ ((shift2 c arg1 harg1 arg2 harg2 arg3 harg3 arg7 arg8 x0 x1 x2 hc 0 1 inb_S34x34x32_S32x32x32_0_1_0 r q).trans ?_)
    · rfl
    · simp
  | ⟨2, _⟩ =>
    refine Eq.trans ?_ ((shift2 c arg1 harg1 arg2 harg2 arg3 harg3 arg7 arg8 x0 x1 x2 hc 0 2 inb_S34x34x32_S32x32x32_0_2_0 r q).trans ?_)
    · rfl
    · simp
  | ⟨3, _⟩ =>
    refine Eq.trans ?_ ((shift2 c arg1 harg1 arg2 harg2 arg3 harg3 arg7 arg8 x0 x1 x2 hc 1 0 inb_S34x34x32_S32x32x32_1_0_0 r q).trans ?_)
    · rfl
    · simp
  | ⟨4, _⟩ =>
    refine Eq.trans ?_ ((shift2 c arg1 harg1 arg2 harg2 arg3 harg3 arg7 arg8 x0 x1 x2 hc 1 1 inb_S34x34x32_S32x32x32_1_1_0 r q).trans ?_)
    · rfl
    · simp
  | ⟨5, _⟩ =>
    refine Eq.trans ?_ ((shift2 c arg1 harg1 arg2 harg2 arg3 harg3 arg7 arg8 x0 x1 x2 hc 1 2 inb_S34x34x32_S32x32x32_1_2_0 r q).trans ?_)
    · rfl
    · simp
  | ⟨6, _⟩ =>
    refine Eq.trans ?_ ((shift2 c arg1 harg1 arg2 harg2 arg3 harg3 arg7 arg8 x0 x1 x2 hc 2 0 inb_S34x34x32_S32x32x32_2_0_0 r q).trans ?_)
    · rfl
    · simp
  | ⟨7, _⟩ =>
    refine Eq.trans ?_ ((shift2 c arg1 harg1 arg2 harg2 arg3 harg3 arg7 arg8 x0 x1 x2 hc 2 1 inb_S34x34x32_S32x32x32_2_1_0 r q).trans ?_)
    · rfl
    · simp
  | ⟨8, _⟩ =>
    refine Eq.trans ?_ ((shift2 c arg1 harg1 arg2 harg2 arg3 harg3 arg7 arg8 x0 x1 x2 hc 2 2 inb_S34x34x32_S32x32x32_2_2_0 r q).trans ?_)
    · rfl
    · simp

/-- WHAT THE BODY LEAVES IN THE OUTPUT BLOCK: the two layers of the specification on the block's image, entry by entry. -/
theorem out0_value (c : Dev nD) (i : grid0.Coords) (arg1 : Memref sig .tc .vmem S1x32x32x3 .f32) (harg1 : arg1.IsWhole) (arg2 : Memref sig .tc .vmem S27x32 .f32) (harg2 : arg2.IsWhole) (arg3 : Memref sig .tc .vmem S1x32 .f32) (harg3 : arg3.IsWhole) (arg4 : Memref sig .tc .vmem S288x32 .f32) (harg4 : arg4.IsWhole) (arg5 : Memref sig .tc .vmem S1x32 .f32) (harg5 : arg5.IsWhole) (arg6 : Memref sig .tc .vmem S1x1024x32 .f32) (harg6 : arg6.IsWhole) (arg7 : Memref sig .tc .vmem S34x34x3 .f32) (harg7 : arg7.IsWhole) (arg8 : Memref sig .tc .vmem S34x34x32 .f32) (harg8 : arg8.IsWhole)
    (x0 : Vec Ideal S1x32x32x3 .f32) (x1 : Vec Ideal S27x32 .f32) (x2 : Vec Ideal S1x32 .f32) (x3 : Vec Ideal S288x32 .f32) (x4 : Vec Ideal S1x32 .f32) :
    out0_A_5 (F := Ideal) c i arg1 harg1 arg2 harg2 arg3 harg3 arg4 harg4 arg5 harg5 arg6 harg6 arg7 harg7 arg8 harg8 x0 x1 x2 x3 x4
      = fun j => Cert.Spec.conv 288 32 (hid0 x0 x1 x2) x3 x4 ((j 1).val / 32) ((j 1).val % 32) (j 2).val := by
  unfold out0_A_5
  rw [View.read_writes_eq_canon _ _ _ (cover0_A_5 c i arg1 harg1 arg2 harg2 arg3 harg3 arg4 harg4 arg5 harg5 arg6 harg6 arg7 harg7 arg8 harg8 x0 x1 x2 x3 x4)]
  unfold kernelRun0_A
  dsimp only
  rw [View.canon_unit_zero hz3]
  funext j
  refine (congrArg _ (eq_ix3 j)).trans ?_
  refine (pay1_apply (hid0 x0 x1 x2) _ _ _ _ _ _ _ _ _ _ _ shapeCasts_S32x32x32_S1024x32
    (patches2 c arg1 harg1 arg2 harg2 arg3 harg3 arg7 arg8 x0 x1 x2 shapeCasts_S32x32x32_S1024x32) (j 0) (j 1) (j 2)).trans ?_
  rw [readAt_whole_unread arg4 harg4 x3 _ hz2, readAt_whole_unread arg5 harg5 x4 _ hz2]

end Cert.ReferenceIdeal.ConvValue

end
-- ==== Proof.RefConvValue.lean ====
import proofs.«167103_g2000007113644459_pallasbulk_1246_6_alg».proof.Proof.Gen.ReferenceIdeal.Frame
import proofs.«167103_g2000007113644459_pallasbulk_1246_6_alg».proof.Proof.RefConvBlock

set_option maxRecDepth 16384

noncomputable section

namespace Cert.ReferenceIdeal.ConvValue

open Cert.ReferenceIdeal Cert.ReferenceIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

/-! # The convolution region's output array

Point `t` of the grid works on image `t`: its input block is image `t` of the batch, the weights and biases are whole
arrays, and its output block is row `t` of the [128, 1024, 32] result. So after the run the result array is the
specification's two layers on every image. -/

variable (V : (c : Dev nD) → (b : Ref sig .tc) → Buf (Elt Ideal) ((c : Thread nD τ).loc b))

/-- The printed index maps, decided over the grid: the image window and the output window sit at block `t` on the batch
    axis and at block 0 elsewhere; the weight and bias windows sit at block 0. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The first layer's weights at any point: the whole array. -/
theorem iblk1_eq (c : Dev nD) (t : Fin cfg0.N) : iblk0 V c 1 t = V c main_arg0 := by
  obtain ⟨-, -, -, -, e0, e1, -⟩ := idx_facts t
  funext y
  show V c main_arg0 (((cfg0.win 1).blk t).view.emb y) = V c main_arg0 y
  refine congrArg _ ?_
  funext a; apply Fin.ext
  match a with
  | ⟨0, _⟩ => show win0_1.index t (0 : Fin 2) * 27 + 1 * (y 0).val = (y 0).val; omega
  | ⟨1, _⟩ => show win0_1.index t (1 : Fin 2) * 32 + 1 * (y 1).val = (y 1).val; omega

/-- The first layer's bias at any point: the whole array. -/
theorem iblk2_eq (c : Dev nD) (t : Fin cfg0.N) : iblk0 V c 2 t = V c main_arg1 := by
  obtain ⟨-, -, -, -, -, -, e0, e1, -⟩ := idx_facts t
  funext y
  show V c main_arg1 (((cfg0.win 2).blk t).view.emb y) = V c main_arg1 y
  refine congrArg _ ?_
  funext a; apply Fin.ext
  match a with
  | ⟨0, _⟩ => show win0_2.index t (0 : Fin 2) * 1 + 1 * (y 0).val = (y 0).val; omega
  | ⟨1, _⟩ => show win0_2.index t (1 : Fin 2) * 32 + 1 * (y 1).val = (y 1).val; omega

/-- The second layer's weights at any point: the whole array. -/
theorem iblk3_eq (c : Dev nD) (t : Fin cfg0.N) : iblk0 V c 3 t = V c main_arg2 := by
  obtain ⟨-, -, -, -, -, -, -, -, e0, e1, -⟩ := idx_facts t
  funext y
  show V c main_arg2 (((cfg0.win 3).blk t).view.emb y) = V c main_arg2 y
  refine congrArg _ ?_
  funext a; apply Fin.ext
  match a with
  | ⟨0, _⟩ => show win0_3.index t (0 : Fin 2) * 288 + 1 * (y 0).val = (y 0).val; omega
  | ⟨1, _⟩ => show win0_3.index t (1 : Fin 2) * 32 + 1 * (y 1).val = (y 1).val; omega

/-- The second layer's bias at any point: the whole array. -/
theorem iblk4_eq (c : Dev nD) (t : Fin cfg0.N) : iblk0 V c 4 t = V c main_arg3 := by
  obtain ⟨-, -, -, -, -, -, -, -, -, -, e0, e1, -⟩ := idx_facts t
  funext y
  show V c main_arg3 (((cfg0.win 4).blk t).view.emb y) = V c main_arg3 y
  refine congrArg _ ?_
  funext a; apply Fin.ext
  match a with
  | ⟨0, _⟩ => show win0_4.index t (0 : Fin 2) * 1 + 1 * (y 0).val = (y 0).val; omega
  | ⟨1, _⟩ => show win0_4.index t (1 : Fin 2) * 32 + 1 * (y 1).val = (y 1).val; omega

/-- The image block at point `t`: image `t` of the batch. -/
theorem img_blk (c : Dev nD) (t : Fin cfg0.N) : img0 (iblk0 V c 0 t) = Cert.Spec.img (V c main_call0_v0) t.val := by
  obtain ⟨e0, e1, e2, e3, -⟩ := idx_facts t
  have ht : t.val < 128 := lt_of_lt_of_eq t.isLt N_0
  funext h w ch
  unfold img0 Cert.Spec.img Cert.Spec.rd4
  by_cases hh : h < 32 ∧ w < 32 ∧ ch < 3
  · rw [dif_pos ⟨Nat.zero_lt_one, hh.1, hh.2.1, hh.2.2⟩, dif_pos ⟨ht, hh.1, hh.2.1, hh.2.2⟩]
    show V c main_call0_v0 (((cfg0.win 0).blk t).view.emb (ix4 (⟨0, Nat.zero_lt_one⟩ : Fin 1) (⟨h, hh.1⟩ : Fin 32) (⟨w, hh.2.1⟩ : Fin 32) (⟨ch, hh.2.2⟩ : Fin 3)))
      = V c main_call0_v0 (ix4 (⟨t.val, ht⟩ : Fin 128) (⟨h, hh.1⟩ : Fin 32) (⟨w, hh.2.1⟩ : Fin 32) (⟨ch, hh.2.2⟩ : Fin 3))
    refine congrArg _ ?_
    funext a; apply Fin.ext
    match a with
    | ⟨0, _⟩ => show win0_0.index t (0 : Fin 4) * 1 + 1 * 0 = t.val; omega
    | ⟨1, _⟩ => show win0_0.index t (1 : Fin 4) * 32 + 1 * h = h; omega
    | ⟨2, _⟩ => show win0_0.index t (2 : Fin 4) * 32 + 1 * w = w; omega
    | ⟨3, _⟩ => show win0_0.index t (3 : Fin 4) * 3 + 1 * ch = ch; omega
  · rw [dif_neg (fun hx => hh ⟨hx.2.1, hx.2.2.1, hx.2.2.2⟩), dif_neg (fun hx => hh ⟨hx.2.1, hx.2.2.1, hx.2.2.2⟩)]

/-- The first layer's result on the image block at point `t`: the specification's, on image `t`. -/
theorem hid_blk (c : Dev nD) (t : Fin cfg0.N) :
    hid0 (iblk0 V c 0 t) (V c main_arg0) (V c main_arg1)
      = Cert.Spec.hid (V c main_call0_v0) (V c main_arg0) (V c main_arg1) t.val := by
  funext h w o
  unfold hid0 Cert.Spec.hid
  rw [img_blk V c t]

/-- WHAT POINT `t` WRITES BACK is block `t` of the specification's result on the arrays as the region finds them. -/
theorem flushed5_eq (c : Dev nD) (t : Fin cfg0.N) :
    (dat0 V c).flushed 5 t = ((cfg0.win 5).blk t).view.read (Elt Ideal)
      (Cert.Spec.convOut (V c main_call0_v0) (V c main_arg0) (V c main_arg1) (V c main_arg2) (V c main_arg3)) := by
  show (cfg0.win 5).cut (grid0.coords t) ((dat0 V c).after 5 t) = _
  rw [after0_5]
  unfold outsAt0
  rw [out0_value, iblk1_eq, iblk2_eq, iblk3_eq, iblk4_eq, hid_blk]
  obtain ⟨-, -, -, -, -, -, -, -, -, -, -, -, e0, e1, e2⟩ := idx_facts t
  funext j
  have hj0 : (j 0).val < 1 := (j 0).isLt
  have q0 : ((((cfg0.win 5).blk t).view.emb j) 0).val = t.val := by
    show win0_5.index t (0 : Fin 3) * 1 + 1 * (j 0).val = t.val; omega
  have q1 : ((((cfg0.win 5).blk t).view.emb j) 1).val = (j 1).val := by
    show win0_5.index t (1 : Fin 3) * 1024 + 1 * (j 1).val = (j 1).val; omega
  have q2 : ((((cfg0.win 5).blk t).view.emb j) 2).val = (j 2).val := by
    show win0_5.index t (2 : Fin 3) * 32 + 1 * (j 2).val = (j 2).val; omega
  show _ = Cert.Spec.conv 288 32 (Cert.Spec.hid (V c main_call0_v0) (V c main_arg0) (V c main_arg1) ((((cfg0.win 5).blk t).view.emb j) 0).val)
    (V c main_arg2) (V c main_arg3) (((((cfg0.win 5).blk t).view.emb j) 1).val / 32) (((((cfg0.win 5).blk t).view.emb j) 1).val % 32)
    ((((cfg0.win 5).blk t).view.emb j) 2).val
  rw [q0, q1, q2]

/-- An index of the result array is in point `t`'s block iff each coordinate is in the block's range on its axis. -/
theorem mem_blk5 (t : Fin cfg0.N) (i : S128x1024x32.Idx) :
    i ∈ ((cfg0.win 5).blk t).view.set ↔ ∀ a : Fin 3, win0_5.index t a * S1x1024x32.size a ≤ (i a).val ∧ (i a).val < win0_5.index t a * S1x1024x32.size a + S1x1024x32.size a := by
  show i ∈ ((View.whole main_call0_v1).slice (win0_5.rect t)).set ↔ _
  rw [View.set_slice_whole, Rect.mem_set_unit]
  exact Iff.rfl

/-- Every index of the result array is in the block of the point its image coordinate names. -/
theorem cover5 (i : S128x1024x32.Idx) : ∃ t : Fin cfg0.N, (cfg0.win 5).flush t = true ∧ i ∈ ((cfg0.win 5).blk t).view.set := by
  have hi0 : (i 0).val < 128 := (i 0).isLt
  have hi1 : (i 1).val < 1024 := (i 1).isLt
  have hi2 : (i 2).val < 32 := (i 2).isLt
  have hN : cfg0.N = 128 := N_0
  refine ⟨⟨(i 0).val, hN ▸ hi0⟩, flush0_5 _, ?_⟩
  obtain ⟨-, -, -, -, -, -, -, -, -, -, -, -, e0, e1, e2⟩ := idx_facts ⟨(i 0).val, hN ▸ hi0⟩
  rw [mem_blk5]
  intro a
  match a with
  | ⟨0, _⟩ => show win0_5.index _ (0 : Fin 3) * 1 ≤ (i 0).val ∧ (i 0).val < win0_5.index _ (0 : Fin 3) * 1 + 1; rw [e0]; show (i 0).val * 1 ≤ (i 0).val ∧ (i 0).val < (i 0).val * 1 + 1; omega
  | ⟨1, _⟩ => show win0_5.index _ (1 : Fin 3) * 1024 ≤ (i 1).val ∧ (i 1).val < win0_5.index _ (1 : Fin 3) * 1024 + 1024; omega
  | ⟨2, _⟩ => show win0_5.index _ (2 : Fin 3) * 32 ≤ (i 2).val ∧ (i 2).val < win0_5.index _ (2 : Fin 3) * 32 + 32; omega

/-- THE RESULT ARRAY after the run: the specification's two layers on every image. -/
theorem conv_final (c : Dev nD) :
    (Cert.ReferenceIdeal.Gen.dat0 (F := Ideal) V c).arrAt 5 cfg0.N
      = Cert.Spec.convOut (V c main_call0_v0) (V c main_arg0) (V c main_arg1) (V c main_arg2) (V c main_arg3) :=
  (dat0 V c).arrAt_eq_of_cover 5 _ (fun t _ => flushed5_eq V c t) (fun i => cover5 i)

end Cert.ReferenceIdeal.ConvValue

end
-- ==== Proof.lean ====
/-
  The two programs compute the same function on the extended reals.

  Both transpose the image batch to (image, row, column, channel) order, run two 3×3 "same" convolutions — each as one
  matrix product of the patch matrix (nine shifted views of the zero-padded image, side by side) with a weight matrix,
  plus a bias, clamped at zero —, flatten each image's 32 × 32 × 32 result in (row, column, channel) order and multiply
  by a 32768 × 128 matrix plus a bias. They differ in three ways, none of which changes the value when every float is an
  extended real and every operation exact: the kernel keeps its operands in a narrower float format (a change of format
  is the identity here); it convolves 16 images per grid point where the reference convolves one (the same function of
  each image, whatever the tiling); and it accumulates the last product over eight chunks of 4096 columns, adding the
  bias to the first chunk, where the reference takes one sum over all 32768 columns plus the bias (addition on the
  extended reals is commutative and associative, so the regrouping needs no finiteness: the precondition is never used).

  The specification (Proof/Spec.lean) writes a convolution as ONE sum over the 9·C taps in the order of the weight
  matrix's rows. Each launch of each program is shown to leave, in its result array, the specification's function of the
  arrays it found: the convolution launch of the kernel (Proof/KIConvBlock.lean for one 16-image block, Proof/KIConvArray.lean
  for the array) and of the reference (Proof/RefConvBlock.lean, Proof/RefConvValue.lean), the linear layer of the kernel
  (Proof/KIFcValue.lean: the induction over the eight chunks) and of the reference (Proof/RefFcValue.lean). The runs of the
  two programs with their result buffers read off the last boundary's contents (Proof/KIRun.lean, Proof/RefRun.lean) and the
  host operations between the launches (the same transpose and the same flattening on both sides, kept unopened) compose
  these into one term on each side (Proof/KIResult.lean, Proof/RefResult.lean), and the two terms are the same function of
  arguments that agree (Proof/Assemble.lean). The frames — every execution terminates, nothing faults, the arguments end
  unchanged — are the same runs with the result dropped, at the word level for the kernel as printed (Proof/KRun.lean) and
  at the ideal values for its idealization; the reference's frame is the generated one. The ideal pass rewrote no
  operation of the kernel, so there is nothing to preserve.
-/
import proofs.«167103_g2000007113644459_pallasbulk_1246_6_alg».proof.Proof.Assemble
import proofs.«167103_g2000007113644459_pallasbulk_1246_6_alg».proof.Proof.KIConvBlock
import proofs.«167103_g2000007113644459_pallasbulk_1246_6_alg».proof.Proof.KIConvArray
import proofs.«167103_g2000007113644459_pallasbulk_1246_6_alg».proof.Proof.KIFcValue
import proofs.«167103_g2000007113644459_pallasbulk_1246_6_alg».proof.Proof.RefConvValue

noncomputable section

namespace Cert.Proof

/-- The certificate: the three frames, the (empty) preservation claim, and the equality of the two idealized programs'
    results, from the three launches' values. -/
theorem claim : Cert.Claim :=
  Cert.Assemble.claim_of
    (fun V c => Cert.KernelIdeal.ConvArray.conv_final_of Cert.KernelIdeal.ConvValue.hblock V c)
    (fun V c => Cert.KernelIdeal.FcValue.fc_final V c)
    (fun V c => Cert.ReferenceIdeal.ConvValue.conv_final V c)

end Cert.Proof

end
